-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S2x131072 : Shape := ⟨2, ![2, 131072]⟩
abbrev S128x128 : Shape := ⟨2, ![128, 128]⟩
abbrev S128 : Shape := ⟨1, ![128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S8192x128 .f32) (main_arg1 : IVec S2x131072 32) (main_arg2 : FVec F S128x128 .f32) (main_arg3 : FVec F S128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S8192x128 : Shape := ⟨2, ![8192, 128]⟩
abbrev S2x131072 : Shape := ⟨2, ![2, 131072]⟩
abbrev S128x128 : Shape := ⟨2, ![128, 128]⟩
abbrev S128 : Shape := ⟨1, ![128]⟩
abbrev S1x131072 : Shape := ⟨2, ![1, 131072]⟩
abbrev S131072 : Shape := ⟨1, ![131072]⟩
abbrev S_ : Shape := ⟨0, ![]⟩
abbrev S8192x8192 : Shape := ⟨2, ![8192, 8192]⟩
abbrev S131072x1 : Shape := ⟨2, ![131072, 1]⟩
abbrev S131072x2 : Shape := ⟨2, ![131072, 2]⟩
abbrev S8192 : Shape := ⟨1, ![8192]⟩
abbrev S8192x1 : Shape := ⟨2, ![8192, 1]⟩
abbrev S8192x2 : Shape := ⟨2, ![8192, 2]⟩
abbrev S2048x2048 : Shape := ⟨2, ![2048, 2048]⟩
abbrev S2048x1 : Shape := ⟨2, ![2048, 1]⟩
abbrev S2048 : Shape := ⟨1, ![2048]⟩
abbrev S1x128 : Shape := ⟨2, ![1, 128]⟩
abbrev S1024x4096 : Shape := ⟨2, ![1024, 4096]⟩
abbrev S4096x128 : Shape := ⟨2, ![4096, 128]⟩
abbrev S4096x1 : Shape := ⟨2, ![4096, 1]⟩
abbrev S1024x1 : Shape := ⟨2, ![1024, 1]⟩
abbrev S1024x128 : Shape := ⟨2, ![1024, 128]⟩

abbrev nBuf : Space → Nat
  | .hbm => 57
  | .vmem => 18
  | .smem => 0
  | _ => 0

abbrev bufTy : (tb : Table) → Fin (tcTables nBuf tb) → BufTy
  | .hbm, ⟨0, _⟩ => ⟨S8192x128, .f32⟩
  | .hbm, ⟨1, _⟩ => ⟨S2x131072, .i32⟩
  | .hbm, ⟨2, _⟩ => ⟨S128x128, .f32⟩
  | .hbm, ⟨3, _⟩ => ⟨S128, .f32⟩
  | .hbm, ⟨4, _⟩ => ⟨S1x131072, .i32⟩
  | .hbm, ⟨5, _⟩ => ⟨S131072, .i32⟩
  | .hbm, ⟨6, _⟩ => ⟨S1x131072, .i32⟩
  | .hbm, ⟨7, _⟩ => ⟨S131072, .i32⟩
  | .hbm, ⟨8, _⟩ => ⟨S_, .f32⟩
  | .hbm, ⟨9, _⟩ => ⟨S8192x8192, .f32⟩
  | .hbm, ⟨10, _⟩ => ⟨S_, .i32⟩
  | .hbm, ⟨11, _⟩ => ⟨S131072, .i32⟩
  | .hbm, ⟨12, _⟩ => ⟨S131072, .i1⟩
  | .hbm, ⟨13, _⟩ => ⟨S_, .i32⟩
  | .hbm, ⟨14, _⟩ => ⟨S131072, .i32⟩
  | .hbm, ⟨15, _⟩ => ⟨S131072, .i32⟩
  | .hbm, ⟨16, _⟩ => ⟨S131072, .i32⟩
  | .hbm, ⟨17, _⟩ => ⟨S_, .i32⟩
  | .hbm, ⟨18, _⟩ => ⟨S131072, .i32⟩
  | .hbm, ⟨19, _⟩ => ⟨S131072, .i1⟩
  | .hbm, ⟨20, _⟩ => ⟨S_, .i32⟩
  | .hbm, ⟨21, _⟩ => ⟨S131072, .i32⟩
  | .hbm, ⟨22, _⟩ => ⟨S131072, .i32⟩
  | .hbm, ⟨23, _⟩ => ⟨S131072, .i32⟩
  | .hbm, ⟨24, _⟩ => ⟨S131072x1, .i32⟩
  | .hbm, ⟨25, _⟩ => ⟨S131072x1, .i32⟩
  | .hbm, ⟨26, _⟩ => ⟨S131072x2, .i32⟩
  | .hbm, ⟨27, _⟩ => ⟨S_, .f32⟩
  | .hbm, ⟨28, _⟩ => ⟨S131072, .f32⟩
  | .hbm, ⟨29, _⟩ => ⟨S8192x8192, .f32⟩
  | .hbm, ⟨30, _⟩ => ⟨S8192x8192, .f32⟩
  | .hbm, ⟨31, _⟩ => ⟨S8192x8192, .f32⟩
  | .hbm, ⟨32, _⟩ => ⟨S8192, .i32⟩
  | .hbm, ⟨33, _⟩ => ⟨S_, .i32⟩
  | .hbm, ⟨34, _⟩ => ⟨S8192, .i32⟩
  | .hbm, ⟨35, _⟩ => ⟨S8192, .i1⟩
  | .hbm, ⟨36, _⟩ => ⟨S_, .i32⟩
  | .hbm, ⟨37, _⟩ => ⟨S8192, .i32⟩
  | .hbm, ⟨38, _⟩ => ⟨S8192, .i32⟩
  | .hbm, ⟨39, _⟩ => ⟨S8192, .i32⟩
  | .hbm, ⟨40, _⟩ => ⟨S_, .i32⟩
  | .hbm, ⟨41, _⟩ => ⟨S8192, .i32⟩
  | .hbm, ⟨42, _⟩ => ⟨S8192, .i1⟩
  | .hbm, ⟨43, _⟩ => ⟨S_, .i32⟩
  | .hbm, ⟨44, _⟩ => ⟨S8192, .i32⟩
  | .hbm, ⟨45, _⟩ => ⟨S8192, .i32⟩
  | .hbm, ⟨46, _⟩ => ⟨S8192, .i32⟩
  | .hbm, ⟨47, _⟩ => ⟨S8192x1, .i32⟩
  | .hbm, ⟨48, _⟩ => ⟨S8192x1, .i32⟩
  | .hbm, ⟨49, _⟩ => ⟨S8192x2, .i32⟩
  | .hbm, ⟨50, _⟩ => ⟨S_, .f32⟩
  | .hbm, ⟨51, _⟩ => ⟨S8192, .f32⟩
  | .hbm, ⟨52, _⟩ => ⟨S8192x8192, .f32⟩
  | .hbm, ⟨53, _⟩ => ⟨S8192x8192, .bf16⟩
  | .hbm, ⟨54, _⟩ => ⟨S8192x1, .f32⟩
  | .hbm, ⟨55, _⟩ => ⟨S1x128, .f32⟩
  | .hbm, ⟨56, _⟩ => ⟨S8192x128, .f32⟩
  | .local _ .vmem, ⟨0, _⟩ => ⟨S2048x2048, .bf16⟩
  | .local _ .vmem, ⟨1, _⟩ => ⟨S2048x2048, .bf16⟩
  | .local _ .vmem, ⟨2, _⟩ => ⟨S2048x1, .f32⟩
  | .local _ .vmem, ⟨3, _⟩ => ⟨S2048x1, .f32⟩
  | .local _ .vmem, ⟨4, _⟩ => ⟨S2048x1, .f32⟩
  | .local _ .vmem, ⟨5, _⟩ => ⟨S1024x4096, .bf16⟩
  | .local _ .vmem, ⟨6, _⟩ => ⟨S1024x4096, .bf16⟩
  | .local _ .vmem, ⟨7, _⟩ => ⟨S4096x128, .f32⟩
  | .local _ .vmem, ⟨8, _⟩ => ⟨S4096x128, .f32⟩
  | .local _ .vmem, ⟨9, _⟩ => ⟨S4096x1, .f32⟩
  | .local _ .vmem, ⟨10, _⟩ => ⟨S4096x1, .f32⟩
  | .local _ .vmem, ⟨11, _⟩ => ⟨S1024x1, .f32⟩
  | .local _ .vmem, ⟨12, _⟩ => ⟨S1024x1, .f32⟩
  | .local _ .vmem, ⟨13, _⟩ => ⟨S128x128, .f32⟩
  | .local _ .vmem, ⟨14, _⟩ => ⟨S1x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_4 : Ref sig .tc := ⟨.hbm, 33, rfl⟩
abbrev main_v23 : Ref sig .tc := ⟨.hbm, 34, rfl⟩
abbrev main_v24 : Ref sig .tc := ⟨.hbm, 35, rfl⟩
abbrev main_c_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_6 : Ref sig .tc := ⟨.hbm, 40, rfl⟩
abbrev main_v28 : Ref sig .tc := ⟨.hbm, 41, rfl⟩
abbrev main_v29 : Ref sig .tc := ⟨.hbm, 42, rfl⟩
abbrev main_c_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem5_0 : DmaSem sig := 13
abbrev cc1_sem6_0 : DmaSem sig := 14
abbrev cc1_sem6_1 : DmaSem sig := 15

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_6 : BitVec 32 := 0#32
  let v15 : BitVec 1 := Scalar.cmpi .ne v14 c0_i32_6
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![8, 2], ![false, false]⟩

def k1_cond2 (i : grid1.Coords) : BitVec 1 :=
  let arg1 : BitVec 32 := BitVec.ofNat 32 (i 1).val
  let c1_i32 : BitVec 32 := 1#32
  let v17 : BitVec 1 := Scalar.cmpi .eq arg1 c1_i32
  let v18 : BitVec 32 := Scalar.extui v17
  let c0_i32_10 : BitVec 32 := 0#32
  let v19 : BitVec 1 := Scalar.cmpi .ne v18 c0_i32_10
  v19

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4096x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1024x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S_S8192x8192 : S_.BroadcastsInDim S8192x8192 (![] : Fin 0 → Fin S8192x8192.rank)
  bcast_S_S131072 : S_.BroadcastsInDim S131072 (![] : Fin 0 → Fin S131072.rank)
  bcast_S131072_S131072x1_0 : S131072.BroadcastsInDim S131072x1 (![0] : Fin 1 → Fin S131072x1.rank)
  concatenates_S131072x1_S131072x1_S131072x2_d1 : Shape.Concatenates [S131072x1, S131072x1] S131072x2 1
  transposes_S8192x8192_S8192x8192_1_0 : S8192x8192.Transposes [1, 0] S8192x8192
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  bitsLt_bf16_f32 : FTy.bits .bf16 < FTy.bits .f32
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  reduces_S2048x2048_S2048 : S2048x2048.Reduces [1] S2048
  shapeCasts_S2048_S2048x1 : S2048.ShapeCasts S2048x1
  shapeCasts_S128_S1x128 : S128.ShapeCasts S1x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S4096x128_S4096x128_0_0 : ∀ a, (![0, 0] : Fin 2 → Nat) a + S4096x128.size a ≤ S4096x128.size a
  h_S4096x128 : 0 < S4096x128.numel
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x128 : S4096x1.Broadcasts S4096x128
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x128 : S1024x1.Broadcasts S1024x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  scatter_S8192x8192_S131072x2_S131072_n_01_01_1_wf : ScatterDims.WF S8192x8192 S131072x2 S131072 [] [0, 1] [0, 1] 1
  scatter_S8192x8192_S8192x2_S8192_n_01_01_1_wf : ScatterDims.WF S8192x8192 S8192x2 S8192 [] [0, 1] [0, 1] 1
  dot_S1024x4096_S4096x128_S1024x128_1_0_0_1_n_n_wf : DotDims.WF S1024x4096 S4096x128 S1024x128 [1] [0] [0] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S8192x8192.size a
  hwx0_0 : ∀ i : grid0.Coords, EltTy.bits .bf16 = 32 ∨ (Rect.block (s := S8192x8192) S2048x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S8192x1.size a
  hwx0_1 : ∀ i : grid0.Coords, EltTy.bits .f32 = 32 ∨ (Rect.block (s := S8192x1) S2048x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S8192x8192.size a
  hwx1_0 : ∀ i : grid1.Coords, EltTy.bits .bf16 = 32 ∨ (Rect.block (s := S8192x8192) S1024x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S8192x128.size a
  hwx1_1 : ∀ i : grid1.Coords, EltTy.bits .f32 = 32 ∨ (Rect.block (s := S8192x128) S4096x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x1.size a ≤ S8192x1.size a
  hwx1_2 : ∀ i : grid1.Coords, EltTy.bits .f32 = 32 ∨ (Rect.block (s := S8192x1) S4096x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S8192x1.size a
  hwx1_3 : ∀ i : grid1.Coords, EltTy.bits .f32 = 32 ∨ (Rect.block (s := S8192x1) S1024x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x128.size a ≤ S8192x128.size a
  hwx1_6 : ∀ i : grid1.Coords, EltTy.bits .f32 = 32 ∨ (Rect.block (s := S8192x128) S1024x128.size (cc1_transform_6 i) (hinb1_6 i)).WholeWords (EltTy.packing .f32)

variable [Facts₀]

def scatter_S8192x8192_S131072x2_S131072_n_01_01_1 : ScatterDims S8192x8192 S131072x2 S131072 where
  updateWindowDims := []
  insertedWindowDims := [0, 1]
  scatterDimsToOperandDims := [0, 1]
  indexVectorDim := 1
  wf := scatter_S8192x8192_S131072x2_S131072_n_01_01_1_wf
def scatter_S8192x8192_S8192x2_S8192_n_01_01_1 : ScatterDims S8192x8192 S8192x2 S8192 where
  updateWindowDims := []
  insertedWindowDims := [0, 1]
  scatterDimsToOperandDims := [0, 1]
  indexVectorDim := 1
  wf := scatter_S8192x8192_S8192x2_S8192_n_01_01_1_wf
def dot_S1024x4096_S4096x128_S1024x128_1_0_0_1_n_n : DotDims S1024x4096 S4096x128 S1024x128 where
  lhsContracting := [1]
  rhsContracting := [0]
  lhsNonContracting := [0]
  rhsNonContracting := [1]
  lhsBatch := []
  rhsBatch := []
  wf := dot_S1024x4096_S4096x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_v38) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v39) S2048x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_v38) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S4096x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1024x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg2) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S1024x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S8192x128 : Shape := ⟨2, ![8192, 128]⟩
abbrev S2x131072 : Shape := ⟨2, ![2, 131072]⟩
abbrev S128x128 : Shape := ⟨2, ![128, 128]⟩
abbrev S128 : Shape := ⟨1, ![128]⟩
abbrev S1x131072 : Shape := ⟨2, ![1, 131072]⟩
abbrev S131072 : Shape := ⟨1, ![131072]⟩
abbrev S_ : Shape := ⟨0, ![]⟩
abbrev S8192x8192 : Shape := ⟨2, ![8192, 8192]⟩
abbrev S131072x1 : Shape := ⟨2, ![131072, 1]⟩
abbrev S131072x2 : Shape := ⟨2, ![131072, 2]⟩
abbrev S8192 : Shape := ⟨1, ![8192]⟩
abbrev S8192x1 : Shape := ⟨2, ![8192, 1]⟩
abbrev S1x8192 : Shape := ⟨2, ![1, 8192]⟩
abbrev S1x128 : Shape := ⟨2, ![1, 128]⟩

abbrev nBuf : Space → Nat
  | .hbm => 60
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S2x131072, .i32⟩
  | .hbm, ⟨2, _⟩ => ⟨S128x128, .f32⟩
  | .hbm, ⟨3, _⟩ => ⟨S128, .f32⟩
  | .hbm, ⟨4, _⟩ => ⟨S1x131072, .i32⟩
  | .hbm, ⟨5, _⟩ => ⟨S131072, .i32⟩
  | .hbm, ⟨6, _⟩ => ⟨S1x131072, .i32⟩
  | .hbm, ⟨7, _⟩ => ⟨S131072, .i32⟩
  | .hbm, ⟨8, _⟩ => ⟨S_, .f32⟩
  | .hbm, ⟨9, _⟩ => ⟨S8192x8192, .f32⟩
  | .hbm, ⟨10, _⟩ => ⟨S_, .i32⟩
  | .hbm, ⟨11, _⟩ => ⟨S131072, .i32⟩
  | .hbm, ⟨12, _⟩ => ⟨S131072, .i1⟩
  | .hbm, ⟨13, _⟩ => ⟨S_, .i32⟩
  | .hbm, ⟨14, _⟩ => ⟨S131072, .i32⟩
  | .hbm, ⟨15, _⟩ => ⟨S131072, .i32⟩
  | .hbm, ⟨16, _⟩ => ⟨S131072, .i32⟩
  | .hbm, ⟨17, _⟩ => ⟨S_, .i32⟩
  | .hbm, ⟨18, _⟩ => ⟨S131072, .i32⟩
  | .hbm, ⟨19, _⟩ => ⟨S131072, .i1⟩
  | .hbm, ⟨20, _⟩ => ⟨S_, .i32⟩
  | .hbm, ⟨21, _⟩ => ⟨S131072, .i32⟩
  | .hbm, ⟨22, _⟩ => ⟨S131072, .i32⟩
  | .hbm, ⟨23, _⟩ => ⟨S131072, .i32⟩
  | .hbm, ⟨24, _⟩ => ⟨S131072x1, .i32⟩
  | .hbm, ⟨25, _⟩ => ⟨S131072x1, .i32⟩
  | .hbm, ⟨26, _⟩ => ⟨S131072x2, .i32⟩
  | .hbm, ⟨27, _⟩ => ⟨S_, .f32⟩
  | .hbm, ⟨28, _⟩ => ⟨S131072, .f32⟩
  | .hbm, ⟨29, _⟩ => ⟨S8192x8192, .f32⟩
  | .hbm, ⟨30, _⟩ => ⟨S8192x8192, .f32⟩
  | .hbm, ⟨31, _⟩ => ⟨S8192x8192, .f32⟩
  | .hbm, ⟨32, _⟩ => ⟨S8192x8192, .i32⟩
  | .hbm, ⟨33, _⟩ => ⟨S8192x8192, .i32⟩
  | .hbm, ⟨34, _⟩ => ⟨S_, .i32⟩
  | .hbm, ⟨35, _⟩ => ⟨S8192x8192, .i32⟩
  | .hbm, ⟨36, _⟩ => ⟨S8192x8192, .i32⟩
  | .hbm, ⟨37, _⟩ => ⟨S8192x8192, .i1⟩
  | .hbm, ⟨38, _⟩ => ⟨S8192x8192, .f32⟩
  | .hbm, ⟨39, _⟩ => ⟨S8192x8192, .f32⟩
  | .hbm, ⟨40, _⟩ => ⟨S_, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S8192, .f32⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S8192x1, .f32⟩
  | .hbm, ⟨50, _⟩ => ⟨S8192x8192, .f32⟩
  | .hbm, ⟨51, _⟩ => ⟨S8192x8192, .f32⟩
  | .hbm, ⟨52, _⟩ => ⟨S1x8192, .f32⟩
  | .hbm, ⟨53, _⟩ => ⟨S8192x8192, .f32⟩
  | .hbm, ⟨54, _⟩ => ⟨S8192x8192, .f32⟩
  | .hbm, ⟨55, _⟩ => ⟨S8192x128, .f32⟩
  | .hbm, ⟨56, _⟩ => ⟨S8192x128, .f32⟩
  | .hbm, ⟨57, _⟩ => ⟨S1x128, .f32⟩
  | .hbm, ⟨58, _⟩ => ⟨S8192x128, .f32⟩
  | .hbm, ⟨59, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]

class Facts₀ : Prop where
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S_S8192x8192 : S_.BroadcastsInDim S8192x8192 (![] : Fin 0 → Fin S8192x8192.rank)
  bcast_S_S131072 : S_.BroadcastsInDim S131072 (![] : Fin 0 → Fin S131072.rank)
  bcast_S131072_S131072x1_0 : S131072.BroadcastsInDim S131072x1 (![0] : Fin 1 → Fin S131072x1.rank)
  concatenates_S131072x1_S131072x1_S131072x2_d1 : Shape.Concatenates [S131072x1, S131072x1] S131072x2 1
  transposes_S8192x8192_S8192x8192_1_0 : S8192x8192.Transposes [1, 0] S8192x8192
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  scatter_S8192x8192_S131072x2_S131072_n_01_01_1_wf : ScatterDims.WF S8192x8192 S131072x2 S131072 [] [0, 1] [0, 1] 1
  dot_S8192x8192_S8192x128_S8192x128_1_0_0_1_n_n_wf : DotDims.WF S8192x8192 S8192x128 S8192x128 [1] [0] [0] [1] [] []
  dot_S8192x128_S128x128_S8192x128_1_0_0_1_n_n_wf : DotDims.WF S8192x128 S128x128 S8192x128 [1] [0] [0] [1] [] []

variable [Facts₀]

def scatter_S8192x8192_S131072x2_S131072_n_01_01_1 : ScatterDims S8192x8192 S131072x2 S131072 where
  updateWindowDims := []
  insertedWindowDims := [0, 1]
  scatterDimsToOperandDims := [0, 1]
  indexVectorDim := 1
  wf := scatter_S8192x8192_S131072x2_S131072_n_01_01_1_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

class Facts : Prop extends Facts₀ where

variable [Facts]
-- ==== Proof.WDegShared.lean ====
import proofs.«107716_j57045755625628_1_alg».proof.Proof.Gen.Kernel.Launch
import proofs.«107716_j57045755625628_1_alg».proof.Proof.Gen.Kernel.Skeleton
import proofs.«107716_j57045755625628_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Deg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The degree kernel: what its three control cases share

The degree kernel walks a 4 x 4 grid of 2048 x 2048 blocks of the adjacency matrix, row block by row block.
Within one row block it keeps a running column of 2048 row sums in an accumulator buffer: the accumulator is
cleared at the first column block, every column block adds its row sums to it, and at the last column block
the column `1 / sqrt (sum + eps)` is stored into the output block. So a grid point is in one of three
situations, told apart by its position modulo 4: first of its row (clear, then add), in the middle (add),
last (add, then store the output). Everything below is stated at a parameter `V`: the contents of the
TensorCore buffers when the region is entered. -/

variable (V : (c : Dev nD) → (b : Ref sig .tc) → Buf (Elt F) ((c : Thread nD τ).loc b))

/-- The block of window `w` at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency window is fetched at every point and never idle, so whatever proof data has `V`'s array
    and leaves the block in place finds the block in the current staging buffer at every point. -/
theorem before_adj_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions of the body, in closed form over the grid -/

/-- "This is the first column block of its row": the condition under which the accumulator is cleared. -/
abbrev atRowStart (i : grid0.Coords) : Prop := (Scalar.cmpi .ne (Scalar.extui (Scalar.cmpi .eq (BitVec.ofNat 32 (i 1).val) 0#32)) 0#32) = 1#1
/-- It holds exactly at the points whose position is a multiple of 4. -/
theorem atRowStart_iff : ∀ t : Fin cfg0.N, atRowStart (grid0.coords t) ↔ t.val % 4 = 0 :=
  (by decide +kernel : ∀ t : Fin grid0.N, atRowStart (grid0.coords t) ↔ t.val % 4 = 0)

/-- "This is the last column block of its row": the condition under which the output block is stored. -/
abbrev atRowEnd (i : grid0.Coords) : Prop := k0_cond2 i = 1#1
/-- It holds exactly at the points whose position is 3 modulo 4. -/
theorem atRowEnd_iff : ∀ t : Fin cfg0.N, atRowEnd (grid0.coords t) ↔ t.val % 4 = 3 :=
  (by decide +kernel : ∀ t : Fin grid0.N, atRowEnd (grid0.coords t) ↔ t.val % 4 = 3)

/-! ## Where the windows are idle -/

/-- The adjacency window is an input: never idle. -/
theorem adj_live : ∀ t : Fin cfg0.N, cfg0.idle 0 (grid0.coords t) = false := by decide +kernel
/-- Away from the end of a row the output window is idle (nothing is stored into it) -/
theorem out_idle : ∀ t : Fin cfg0.N, ¬ t.val % 4 = 3 → cfg0.idle 1 (grid0.coords t) = true := by decide +kernel
/-- and is not written back. -/
theorem out_noflush : ∀ t : Fin cfg0.N, ¬ t.val % 4 = 3 → (cfg0.win 1).flush t = false := by decide +kernel
/-- At the end of a row the output window is live. -/
theorem out_live : ∀ t : Fin cfg0.N, t.val % 4 = 3 → cfg0.idle 1 (grid0.coords t) = false := by decide +kernel

/-! ## The memrefs the body is called with -/

/-- The accumulator: a whole scoped buffer of the kernel's own, carried from point to point. -/
abbrev accM : Memref sig .tc .vmem S2048x1 .f32 := Memref.whole cc0_scratch0
/-- The accumulator as a view, through which its contents are stated. -/
abbrev accV : View sig .tc .vmem S2048x1 .f32 := (accM).view
/-- One staging buffer of the output window, through which the output block's contents are stated. -/
abbrev outV : View sig .tc .vmem S2048x1 .f32 := (Memref.whole cc0_stg1_0 : Memref sig .tc .vmem S2048x1 .f32).view
/-- The current staging memrefs of the two windows at point `t`, and their wholeness. -/
abbrev adjM (t : Fin cfg0.N) : Memref sig .tc .vmem S2048x2048 .bf16 := win0_0.stage (cfg0.slots t 0)
abbrev adjW (t : Fin cfg0.N) : (adjM t).IsWhole := hstage0_0 ((cfg0.slots t 0).cast nbuf0_0)
abbrev outM (t : Fin cfg0.N) : Memref sig .tc .vmem S2048x1 .f32 := win0_1.stage (cfg0.slots t 1)
abbrev outW (t : Fin cfg0.N) : (outM t).IsWhole := hstage0_1 ((cfg0.slots t 1).cast nbuf0_1)

/-- The core's scoped buffers that belong to the other kernel of the program (its staging buffers and its
    accumulator), each whole at some contents: this kernel never touches them. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f))

/-- What the launch hands the region beside the windows: the accumulator owned at some contents, the other
    kernel's scoped buffers, and the generator register at some state. -/
theorem entryInv_eq (c : Dev nD) :
    (Pipeline.ΦA spec0 c : sProp 𝕄)
      = iprop(iprop((∃ d, owns (c : Thread nD τ) accM fullShare d) ∗ others c) ∗ (∃ r, prngReg c r)) := by
  unfold Pipeline.ΦA others; rw [scopedRest0_eq]; simp only [accM, owns_whole]; try rfl

end Cert.Kernel.Deg

end
-- ==== Proof.WDegRunA.lean ====
import proofs.«107716_j57045755625628_1_alg».proof.Proof.WDegShared

set_option maxRecDepth 16384

noncomputable section

namespace Cert.Kernel.Deg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The degree kernel at the first column block of a row

The accumulator is cleared (whatever it held before is overwritten) and the row sums of the block are added
to the cleared column; nothing is stored into the output block. -/

set_option maxHeartbeats 1000000 in
/-- The pieces the body's stores leave in the accumulator at the first column block of a row, last store first,
    together with the run itself: on whole staging memrefs — the adjacency block at `x0`, the output buffer at
    any contents `xo` (handed back untouched), the accumulator at anything — the body runs to a continuation that
    gets the adjacency and output buffers back as they were and the accumulator with the pieces written. The
    pieces are found by the symbolic run (they are fixed when the accumulator is handed to the continuation). -/
noncomputable def runRowStart (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hs : atRowStart i) (he : ¬ atRowEnd i)
    (x0 : Vec F S2048x2048 .bf16) :
    { Lacc : List (View.Piece (Elt F) S2048x1 .f32) //
      ∀ (xo : Vec F S2048x1 .f32) (E : Set ℕ) (K : PUnit → sProp 𝕄),
        iprop(owns (c : Thread nD τ) arg2 fullShare x0 ∗ owns (c : Thread nD τ) arg3 fullShare xo ∗ (∃ d, owns (c : Thread nD τ) arg4 fullShare d)
            ∗ (iprop(owns (c : Thread nD τ) arg2 fullShare x0 ∗ owns (c : Thread nD τ) arg3 fullShare xo ∗ (∃ f, arg4.view.loc (c : Thread nD τ) ↦[arg4.view.set]{fullShare} arg4.view.writes (Elt F) f Lacc)) -∗ K ⟨⟩))
          ⊢ wp frame (wpE (defs₀ (F := F)) Variants.none c none) E (cc0__degree_kernel i arg2 harg2 arg3 harg3 arg4 harg4) K } := by
  refine ⟨?_, fun xo E K => ?run⟩
  case run =>
    simp only [cc0__degree_kernel_eq_skeleton]; unfold cc0__degree_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hs | exact he)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

/-- The two stores of this case (the cleared column, then the sums) each fill the whole accumulator: every
    index is covered. -/
theorem rowStart_acc_cover (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hs : atRowStart i) (he : ¬ atRowEnd i)
    (x0 : Vec F S2048x2048 .bf16) (y : S2048x1.Idx) :
    ∃ pc ∈ (runRowStart c i arg2 harg2 arg3 harg3 arg4 harg4 hs he x0).1, y ∈ pc.1.set :=
  View.cover_of_tiledL (runRowStart c i arg2 harg2 arg3 harg3 arg4 harg4 hs he x0).1 S2048x1.size (by sl_kernel_rfl) y

/-- What the accumulator holds after the first column block of a row: the pieces read back. -/
def rowStart_acc (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hs : atRowStart i) (he : ¬ atRowEnd i)
    (x0 : Vec F S2048x2048 .bf16) : Vec F S2048x1 .f32 :=
  accV.read (Elt F) (accV.writes (Elt F) accV.junk (runRowStart c i arg2 harg2 arg3 harg3 arg4 harg4 hs he x0).1)

end Cert.Kernel.Deg

end
-- ==== Proof.WDegRunB.lean ====
import proofs.«107716_j57045755625628_1_alg».proof.Proof.WDegRunA

set_option maxRecDepth 16384

noncomputable section

namespace Cert.Kernel.Deg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The degree kernel at a middle column block of a row

The row sums of the block are added to what the accumulator held; nothing is stored into the output block. -/

set_option maxHeartbeats 1000000 in
/-- The pieces the body's one store leaves in the accumulator at a middle column block, together with the run:
    on whole staging memrefs — the adjacency block at `x0`, the output buffer at any contents `xo` (handed back
    untouched), the accumulator at what the point before left, `xs` — the body runs to a continuation that gets
    the adjacency and output buffers back as they were and the accumulator with the pieces written. -/
noncomputable def runRowMid (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hs : ¬ atRowStart i) (he : ¬ atRowEnd i)
    (x0 : Vec F S2048x2048 .bf16) (xs : Vec F S2048x1 .f32) :
    { Lacc : List (View.Piece (Elt F) S2048x1 .f32) //
      ∀ (xo : Vec F S2048x1 .f32) (E : Set ℕ) (K : PUnit → sProp 𝕄),
        iprop(owns (c : Thread nD τ) arg2 fullShare x0 ∗ owns (c : Thread nD τ) arg3 fullShare xo ∗ owns (c : Thread nD τ) arg4 fullShare xs
            ∗ (iprop(owns (c : Thread nD τ) arg2 fullShare x0 ∗ owns (c : Thread nD τ) arg3 fullShare xo ∗ (∃ f, arg4.view.loc (c : Thread nD τ) ↦[arg4.view.set]{fullShare} arg4.view.writes (Elt F) f Lacc)) -∗ K ⟨⟩))
          ⊢ wp frame (wpE (defs₀ (F := F)) Variants.none c none) E (cc0__degree_kernel i arg2 harg2 arg3 harg3 arg4 harg4) K } := by
  refine ⟨?_, fun xo E K => ?run⟩
  case run =>
    simp only [cc0__degree_kernel_eq_skeleton]; unfold cc0__degree_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hs | exact he)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

/-- The one store of this case fills the whole accumulator. -/
theorem rowMid_acc_cover (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hs : ¬ atRowStart i) (he : ¬ atRowEnd i)
    (x0 : Vec F S2048x2048 .bf16) (xs : Vec F S2048x1 .f32) (y : S2048x1.Idx) :
    ∃ pc ∈ (runRowMid c i arg2 harg2 arg3 harg3 arg4 harg4 hs he x0 xs).1, y ∈ pc.1.set :=
  View.cover_of_tiledL (runRowMid c i arg2 harg2 arg3 harg3 arg4 harg4 hs he x0 xs).1 S2048x1.size (by sl_kernel_rfl) y

/-- What the accumulator holds after a middle column block: the pieces read back. -/
def rowMid_acc (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hs : ¬ atRowStart i) (he : ¬ atRowEnd i)
    (x0 : Vec F S2048x2048 .bf16) (xs : Vec F S2048x1 .f32) : Vec F S2048x1 .f32 :=
  accV.read (Elt F) (accV.writes (Elt F) accV.junk (runRowMid c i arg2 harg2 arg3 harg3 arg4 harg4 hs he x0 xs).1)

end Cert.Kernel.Deg

end
-- ==== Proof.WDegRunC.lean ====
import proofs.«107716_j57045755625628_1_alg».proof.Proof.WDegRunB

set_option maxRecDepth 16384

noncomputable section

namespace Cert.Kernel.Deg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The degree kernel at the last column block of a row

The row sums of the block are added to what the accumulator held, and the output block is stored whole from
the finished sums (the body also loads the output buffer once before that store; the loaded value is unused). -/

set_option maxHeartbeats 1000000 in
/-- The pieces the body's stores leave in the output buffer and in the accumulator at the last column block,
    together with the run: on whole staging memrefs — the adjacency block at `x0`, the output buffer at anything,
    the accumulator at what the point before left, `xs` — the body runs to a continuation that gets the adjacency
    buffer back as it was, and the output buffer and the accumulator each with its pieces written. -/
noncomputable def runRowEnd (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hs : ¬ atRowStart i) (he : atRowEnd i)
    (x0 : Vec F S2048x2048 .bf16) (xs : Vec F S2048x1 .f32) :
    Σ' (Lout : List (View.Piece (Elt F) S2048x1 .f32)), { Lacc : List (View.Piece (Elt F) S2048x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs
            ∗ (iprop(owns (c : Thread nD τ) arg2 fullShare x0 ∗ (∃ f, arg3.view.loc (c : Thread nD τ) ↦[arg3.view.set]{fullShare} arg3.view.writes (Elt F) f Lout) ∗ (∃ f, arg4.view.loc (c : Thread nD τ) ↦[arg4.view.set]{fullShare} arg4.view.writes (Elt F) f Lacc)) -∗ K ⟨⟩))
          ⊢ wp frame (wpE (defs₀ (F := F)) Variants.none c none) E (cc0__degree_kernel i arg2 harg2 arg3 harg3 arg4 harg4) K } := by
  refine ⟨?_, ?_, fun E K => ?run⟩
  case run =>
    simp only [cc0__degree_kernel_eq_skeleton]; unfold cc0__degree_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hs | exact he)
    sl_step
    iapply Hk
    isplitl [H0]
    · iexists _; isplitr; · ipureintro; exact harg2.read_unread _
      iexact H0
    isplitl [H1]; · iexists _; iexact H1
    iexists _; iexact HS0

/-- The one store into the output buffer fills it. -/
theorem rowEnd_out_cover (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hs : ¬ atRowStart i) (he : atRowEnd i)
    (x0 : Vec F S2048x2048 .bf16) (xs : Vec F S2048x1 .f32) (y : S2048x1.Idx) :
    ∃ pc ∈ (runRowEnd c i arg2 harg2 arg3 harg3 arg4 harg4 hs he x0 xs).1, y ∈ pc.1.set :=
  View.cover_of_tiledL (runRowEnd c i arg2 harg2 arg3 harg3 arg4 harg4 hs he x0 xs).1 S2048x1.size (by sl_kernel_rfl) y

/-- What the output buffer holds after the last column block of a row: the pieces read back. -/
def rowEnd_out (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hs : ¬ atRowStart i) (he : atRowEnd i)
    (x0 : Vec F S2048x2048 .bf16) (xs : Vec F S2048x1 .f32) : Vec F S2048x1 .f32 :=
  outV.read (Elt F) (outV.writes (Elt F) outV.junk (runRowEnd c i arg2 harg2 arg3 harg3 arg4 harg4 hs he x0 xs).1)

/-- The one store into the accumulator fills it. -/
theorem rowEnd_acc_cover (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hs : ¬ atRowStart i) (he : atRowEnd i)
    (x0 : Vec F S2048x2048 .bf16) (xs : Vec F S2048x1 .f32) (y : S2048x1.Idx) :
    ∃ pc ∈ (runRowEnd c i arg2 harg2 arg3 harg3 arg4 harg4 hs he x0 xs).2.1, y ∈ pc.1.set :=
  View.cover_of_tiledL (runRowEnd c i arg2 harg2 arg3 harg3 arg4 harg4 hs he x0 xs).2.1 S2048x1.size (by sl_kernel_rfl) y

/-- What the accumulator holds after the last column block of a row: the pieces read back. -/
def rowEnd_acc (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hs : ¬ atRowStart i) (he : atRowEnd i)
    (x0 : Vec F S2048x2048 .bf16) (xs : Vec F S2048x1 .f32) : Vec F S2048x1 .f32 :=
  accV.read (Elt F) (accV.writes (Elt F) accV.junk (runRowEnd c i arg2 harg2 arg3 harg3 arg4 harg4 hs he x0 xs).2.1)

end Cert.Kernel.Deg

end
-- ==== Proof.WDegFrame.lean ====
import proofs.«107716_j57045755625628_1_alg».proof.Proof.WDegRunC

set_option maxRecDepth 16384

noncomputable section

namespace Cert.Kernel.Deg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The degree kernel over its whole grid: what each point leaves, the invariant, the body obligation

`V` is the contents of the TensorCore buffers when the region is entered. -/

variable (V : (c : Dev nD) → (b : Ref sig .tc) → Buf (Elt F) ((c : Thread nD τ).loc b))

/-- A point that is not the end of its row cannot also be one: position 0 modulo 4 is not position 3. -/
theorem notEnd_of_start (t : Fin cfg0.N) (h0 : t.val % 4 = 0) : ¬ atRowEnd (grid0.coords t) :=
  fun h => (fun h3 : t.val % 4 = 3 => by omega) ((atRowEnd_iff t).mp h)

/-- The accumulator after a point at the start of a row, from the point's adjacency block. -/
def startAcc (c : Dev nD) (t : Fin cfg0.N) (h0 : t.val % 4 = 0) : Vec F S2048x1 .f32 :=
  rowStart_acc c (grid0.coords t) (adjM t) (adjW t) (outM t) (outW t) accM (Memref.isWhole_whole _) ((atRowStart_iff t).mpr h0) (notEnd_of_start t h0) (iblk0 V c 0 t)

/-- The accumulator after a point in the middle of a row, from the point's adjacency block and what the
    accumulator held before. -/
def midAcc (c : Dev nD) (t : Fin cfg0.N) (h0 : ¬ t.val % 4 = 0) (h3 : ¬ t.val % 4 = 3) (xs : Vec F S2048x1 .f32) : Vec F S2048x1 .f32 :=
  rowMid_acc c (grid0.coords t) (adjM t) (adjW t) (outM t) (outW t) accM (Memref.isWhole_whole _) (fun h => h0 ((atRowStart_iff t).mp h)) (fun h => h3 ((atRowEnd_iff t).mp h)) (iblk0 V c 0 t) xs

/-- The accumulator after a point at the end of a row. -/
def endAcc (c : Dev nD) (t : Fin cfg0.N) (h0 : ¬ t.val % 4 = 0) (h3 : t.val % 4 = 3) (xs : Vec F S2048x1 .f32) : Vec F S2048x1 .f32 :=
  rowEnd_acc c (grid0.coords t) (adjM t) (adjW t) (outM t) (outW t) accM (Memref.isWhole_whole _) (fun h => h0 ((atRowStart_iff t).mp h)) ((atRowEnd_iff t).mpr h3) (iblk0 V c 0 t) xs

/-- The output block stored at a point at the end of a row. -/
def endOut (c : Dev nD) (t : Fin cfg0.N) (h0 : ¬ t.val % 4 = 0) (h3 : t.val % 4 = 3) (xs : Vec F S2048x1 .f32) : Vec F S2048x1 .f32 :=
  rowEnd_out c (grid0.coords t) (adjM t) (adjW t) (outM t) (outW t) accM (Memref.isWhole_whole _) (fun h => h0 ((atRowStart_iff t).mp h)) ((atRowEnd_iff t).mpr h3) (iblk0 V c 0 t) xs

/-- A stand-in for the output buffer's contents at the points that store nothing into it: there the window is
    idle and not written back, so nothing reads this value. -/
def idleOut : Vec F S2048x1 .f32 := outV.read (Elt F) (outV.junk (Val := Elt F))

/-- THE ACCUMULATION. What the output window's buffer and the accumulator hold after the body at position `n`:
    the situation the position modulo 4 selects, run at the point's block, over what the accumulator held after
    position `n - 1`. -/
def outsAt0 (c : Dev nD) : (n : ℕ) → n < cfg0.N → Vec F S2048x1 .f32 × Vec F S2048x1 .f32
  | 0, hn => (idleOut, startAcc V c ⟨0, hn⟩ (Nat.zero_mod _))
  | n + 1, hn =>
    if h0 : (n + 1) % 4 = 0 then
      (idleOut, startAcc V c ⟨n + 1, hn⟩ h0)
    else
      if h3 : (n + 1) % 4 = 3 then
        (endOut V c ⟨n + 1, hn⟩ h0 h3 (outsAt0 c n (Nat.lt_of_succ_lt hn)).2, endAcc V c ⟨n + 1, hn⟩ h0 h3 (outsAt0 c n (Nat.lt_of_succ_lt hn)).2)
      else
        (idleOut, midAcc V c ⟨n + 1, hn⟩ h0 h3 (outsAt0 c n (Nat.lt_of_succ_lt hn)).2)

/-- The position before `t` is still a position of the grid. -/
theorem pred_lt (t : Fin cfg0.N) : t.val - 1 < cfg0.N := Nat.lt_of_le_of_lt (Nat.sub_le _ _) t.isLt

theorem outsAt0_start (c : Dev nD) (t : Fin cfg0.N) (h0 : t.val % 4 = 0) :
    outsAt0 V c t.val t.isLt = (idleOut, startAcc V c t h0) := by
  obtain ⟨n, hn⟩ := t
  cases n with
  | zero => exact rfl
  | succ n => exact (dif_pos h0).trans rfl

theorem outsAt0_mid (c : Dev nD) (t : Fin cfg0.N) (h0 : ¬ t.val % 4 = 0) (h3 : ¬ t.val % 4 = 3) :
    outsAt0 V c t.val t.isLt = (idleOut, midAcc V c t h0 h3 (outsAt0 V c (t.val - 1) (pred_lt t)).2) := by
  obtain ⟨n, hn⟩ := t
  cases n with
  | zero => exact absurd (Nat.zero_mod _) h0
  | succ n => exact (dif_neg h0).trans ((dif_neg h3).trans rfl)

theorem outsAt0_end (c : Dev nD) (t : Fin cfg0.N) (h0 : ¬ t.val % 4 = 0) (h3 : t.val % 4 = 3) :
    outsAt0 V c t.val t.isLt = (endOut V c t h0 h3 (outsAt0 V c (t.val - 1) (pred_lt t)).2, endAcc V c t h0 h3 (outsAt0 V c (t.val - 1) (pred_lt t)).2) := by
  obtain ⟨n, hn⟩ := t
  cases n with
  | zero => exact absurd (Nat.zero_mod _) h0
  | succ n => exact (dif_neg h0).trans ((dif_pos h3).trans rfl)

/-- The region's invariant before position `n`: before the first point what the launch hands over (the
    accumulator at anything); afterwards the accumulator at what the point before left in it, beside the other
    kernel's scoped buffers and the generator register. -/
def PhiS (c : Dev nD) : (n : ℕ) → n ≤ cfg0.N → sProp 𝕄
  | 0, _ => Pipeline.ΦA spec0 c
  | n + 1, hn => iprop(iprop(owns (c : Thread nD τ) accM fullShare ((outsAt0 V c n hn).2) ∗ others c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) accM fullShare ((outsAt0 V c n hn).2) ∗ others c) ∗ (∃ r, prngReg c r)) := rfl

theorem PhiS_pos (c : Dev nD) (n : ℕ) (h : n ≤ cfg0.N) (hz : n ≠ 0) :
    PhiS V c n h = iprop(iprop(owns (c : Thread nD τ) accM fullShare ((outsAt0 V c (n - 1) (by omega)).2) ∗ others c) ∗ (∃ r, prngReg c r)) := by
  cases n with
  | zero => exact absurd rfl hz
  | succ n => rfl

/-! ## The proof data -/

/-- The proof data of the degree kernel's pipeline on core `c`: the arrays as the region finds them; after the
    body at point `t` the adjacency window's buffer at its block and the output window's at the accumulation's
    output component; the invariant carrying the accumulator; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]

theorem before0_0 (c : Dev nD) (t : Fin cfg0.N) (d) : (dat0 V c).before 0 t d = iblk0 V c 0 t :=
  before_adj_of V (dat0 V c) (A_eq0 V c 0) (after0_0 V c) t d

/-! ## The body obligation at a generic point -/

/-- What the body is called with at point `t`, -/
def bodyPre (c : Dev nD) (t : Fin cfg0.N) : sProp 𝕄 :=
  iprop((dat0 V c).Φ t.castSucc ∗ (dat0 V c).owesAt () t.castSucc
    ∗ (∃ d, owns (c : Thread nD τ) (adjM t) fullShare ((dat0 V c).before 0 t d))
    ∗ (∃ d, owns (c : Thread nD τ) (outM t) fullShare ((dat0 V c).before 1 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point. The adjacency buffer holds the point's block; the position modulo 4 says which of the
    three situations the point is in, and that situation's run applies: the invariant hands the body the
    accumulator (at what the point before left, or at anything before the first point) and takes it back at this
    point's contents, which the stores cover; away from a row's end the output buffer goes through untouched, at
    a row's end it comes back at the stored block. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0]
  rw [show (dat0 V c).owesAt () t.succ = (dat0 V c).owesAt () t.castSucc from rfl]
  rw [show (dat0 V c).Φ t.succ = PhiS V c (t.val + 1) t.isLt from rfl, PhiS_succ]
  have hN : t.val < 16 := lt_of_lt_of_eq t.isLt (show cfg0.N = 16 from N_0)
  rw [show (dat0 V c).leavesExact 0 t = owns (c : Thread nD τ) (adjM t) fullShare ((dat0 V c).after 0 t) from by
    unfold Dat.leavesExact; rw [adj_live t], after0_0]
  by_cases h0 : t.val % 4 = 0
  · have h3 : ¬ t.val % 4 = 3 := by omega
    rw [Dat.leavesExact_idle (dat0 V c) 1 t (out_idle t h3) (out_noflush t h3)]
    rw [outsAt0_start V c t h0]
    unfold startAcc rowStart_acc; (try dsimp only)
    by_cases hz : t.val = 0
    · rw [Phi_castSucc V c t, PhiS_zero V c _ _ hz, entryInv_eq]
      iintro ⟨⟨⟨HS0, Hoth⟩, Hg⟩, Ho, ⟨%d0, H0⟩, ⟨%d1, H1⟩⟩
      iapply ((runRowStart c (grid0.coords t) _ _ _ _ _ _ ((atRowStart_iff t).mpr h0) (notEnd_of_start t h0) (iblk0 V c 0 t)).2 _ Set.univ _)
      isplitl [H0]; · iexact H0
      isplitl [H1]; · iexact H1
      isplitl [HS0]; · iexact HS0
      iintro ⟨H0, H1, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (rowStart_acc_cover c _ _ _ _ _ _ _ _ _ _)
          iexact Hoth
        iexact Hg
      isplitl [Ho]; · iexact Ho
      isplitl [H0]; · iexact H0
      iexists _; iexact H1
    · rw [Phi_castSucc V c t, PhiS_pos V c _ _ hz]
      iintro ⟨⟨⟨HS0, Hoth⟩, Hg⟩, Ho, ⟨%d0, H0⟩, ⟨%d1, H1⟩⟩
      iapply ((runRowStart c (grid0.coords t) _ _ _ _ _ _ ((atRowStart_iff t).mpr h0) (notEnd_of_start t h0) (iblk0 V c 0 t)).2 _ Set.univ _)
      isplitl [H0]; · iexact H0
      isplitl [H1]; · iexact H1
      isplitl [HS0]; · iexists _; iexact HS0
      iintro ⟨H0, H1, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (rowStart_acc_cover c _ _ _ _ _ _ _ _ _ _)
          iexact Hoth
        iexact Hg
      isplitl [Ho]; · iexact Ho
      isplitl [H0]; · iexact H0
      iexists _; iexact H1
  · have hz : t.val ≠ 0 := fun h => h0 (by rw [h])
    by_cases h3 : t.val % 4 = 3
    · rw [show (dat0 V c).leavesExact 1 t = owns (c : Thread nD τ) (outM t) fullShare ((dat0 V c).after 1 t) from by
        unfold Dat.leavesExact; rw [out_live t h3], after0_1]
      rw [outsAt0_end V c t h0 h3]
      unfold endOut endAcc rowEnd_out rowEnd_acc; (try dsimp only)
      rw [Phi_castSucc V c t, PhiS_pos V c _ _ hz]
      iintro ⟨⟨⟨HS0, Hoth⟩, Hg⟩, Ho, ⟨%d0, H0⟩, ⟨%d1, H1⟩⟩
      iapply ((runRowEnd c (grid0.coords t) _ _ _ _ _ _ (fun h => h0 ((atRowStart_iff t).mp h)) ((atRowEnd_iff t).mpr h3) (iblk0 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (rowEnd_acc_cover c _ _ _ _ _ _ _ _ _ _ _)
          iexact Hoth
        iexact Hg
      isplitl [Ho]; · iexact Ho
      isplitl [H0]; · iexact H0
      unfold owns; iexists _; isplitr
      swap; · iexact H1
      ipureintro; exact View.read_writes_of_cover _ _ _ _ _ (rowEnd_out_cover c _ _ _ _ _ _ _ _ _ _ _)
    · rw [Dat.leavesExact_idle (dat0 V c) 1 t (out_idle t h3) (out_noflush t h3)]
      rw [outsAt0_mid V c t h0 h3]
      unfold midAcc rowMid_acc; (try dsimp only)
      rw [Phi_castSucc V c t, PhiS_pos V c _ _ hz]
      iintro ⟨⟨⟨HS0, Hoth⟩, Hg⟩, Ho, ⟨%d0, H0⟩, ⟨%d1, H1⟩⟩
      iapply ((runRowMid c (grid0.coords t) _ _ _ _ _ _ (fun h => h0 ((atRowStart_iff t).mp h)) (fun h => h3 ((atRowEnd_iff t).mp h)) (iblk0 V c 0 t) _).2 _ Set.univ _)
      isplitl [H0]; · iexact H0
      isplitl [H1]; · iexact H1
      isplitl [HS0]; · iexact HS0
      iintro ⟨H0, H1, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (rowMid_acc_cover c _ _ _ _ _ _ _ _ _ _ _)
          iexact Hoth
        iexact Hg
      isplitl [Ho]; · iexact Ho
      isplitl [H0]; · iexact H0
      iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives back what the launch handed over: the accumulator's contents are
    forgotten. -/
theorem Phi_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, entryInv_eq]
  iintro ⟨⟨HS0, Hoth⟩, Hg⟩
  isplitl [HS0 Hoth]
  · isplitl [HS0]
    · iexists _; iexact HS0
    iexact Hoth
  iexact Hg

/-- The same after the last point. -/
theorem hout0 (c : Dev nD) : (dat0 V c).Φ (Fin.last cfg0.N) ⊢ Pipeline.ΦA spec0 c :=
  Phi_out V c _ (by rw [Fin.val_last]; have : cfg0.N = 16 := N_0; omega)

end Cert.Kernel.Deg

end
-- ==== Proof.WAggShared.lean ====
import proofs.«107716_j57045755625628_1_alg».proof.Proof.Gen.Kernel.Launch
import proofs.«107716_j57045755625628_1_alg».proof.Proof.Gen.Kernel.Skeleton
import proofs.«107716_j57045755625628_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Agg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The aggregate-and-project region: what its two body runs share

The region walks an 8 x 2 grid of points (i, j), j fastest. At every point the body adds the product of the
adjacency block (i, j) with the j-th block of the scaled features to a scratch accumulator; at j = 0 it first
zeroes the accumulator, at j = 1 it scales the accumulated rows, projects them, adds the bias and stores the
i-th output block. Everything is stated at the contents V the arrays hold when the region is entered. -/

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## An input's staging buffer holds its block at every point

Fetched at the point or not: where it is not fetched its block index has not moved since the point before, and the
body leaves an input's buffer as it found it. One statement per input window, for any proof data whose array is
the entry contents' and whose after-contents are the block. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The two conditionals, decided over the grid -/

/-- The first conditional (j = 0: zero the accumulator), from the grid coordinates. -/
abbrev cond1_0 (i : grid1.Coords) : Prop := (Scalar.cmpi .ne (Scalar.extui (Scalar.cmpi .eq (BitVec.ofNat 32 (i 1).val) 0#32)) 0#32) = 1#1
/-- It holds exactly at the even points. -/
theorem hcond1_0 : ∀ t : Fin cfg1.N, cond1_0 (grid1.coords t) ↔ t.val % 2 = 0 :=
  (by decide +kernel : ∀ t : Fin grid1.N, cond1_0 (grid1.coords t) ↔ t.val % 2 = 0)

/-- The second conditional (j = 1: scale, project, add the bias, store the output block). -/
abbrev cond1_1 (i : grid1.Coords) : Prop := k1_cond2 i = 1#1
/-- It holds exactly at the odd points. -/
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- At an even point the body stores nothing into the output block: the window is idle there, -/
theorem idleAt1_6_A : ∀ t : Fin cfg1.N, cond1_0 (grid1.coords t) → ¬cond1_1 (grid1.coords t) → cfg1.idle 6 (grid1.coords t) = true := by decide +kernel
/-- and the block is not written back. -/
theorem noFlush1_6_A : ∀ t : Fin cfg1.N, cond1_0 (grid1.coords t) → ¬cond1_1 (grid1.coords t) → (cfg1.win 6).flush t = false := by decide +kernel
/-- At an odd point the body stores the output block: the window is live. -/
theorem liveAt1_6_B : ∀ t : Fin cfg1.N, ¬cond1_0 (grid1.coords t) → cond1_1 (grid1.coords t) → cfg1.idle 6 (grid1.coords t) = false := by decide +kernel

/-! ## The memrefs the body is called with -/

/-- One staging buffer of the output window, through which its contents are stated. -/
abbrev VO1_6 : View sig .tc .vmem S1024x128 .f32 := (Memref.whole cc1_stg6_0 : Memref sig .tc .vmem S1024x128 .f32).view
abbrev ms1_0 (t : Fin cfg1.N) : Memref sig .tc .vmem S1024x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4096x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x128 .f32 := win1_6.stage (cfg1.slots t 6)
abbrev hs1_6 (t : Fin cfg1.N) : (ms1_6 t).IsWhole := hstage1_6 ((cfg1.slots t 6).cast nbuf1_6)
/-- The accumulator: a whole scoped buffer of the kernel's own, carried from point to point. -/
abbrev scM1_0 : Memref sig .tc .vmem S1024x128 .f32 := Memref.whole cc1_scratch0
/-- The accumulator as a view. -/
abbrev VS1_0 : View sig .tc .vmem S1024x128 .f32 := scM1_0.view

/-- A scoped buffer of the core held whole at some contents. -/
abbrev anyAt (c : Dev nD) (b : Ref sig .tc) : sProp 𝕄 :=
  iprop(∃ f : Buf (Elt F) ((c : Thread nD τ).loc b), ((c : Thread nD τ).loc b) ↦{fullShare} f)

/-- The region's entry invariant spelled out: the five scoped buffers of the other region at anything, the
    accumulator owned at some contents, the generator register at some state. -/
theorem PhiA1_eq (c : Dev nD) :
    (Pipeline.ΦA spec1 c : sProp 𝕄)
      = iprop(iprop(anyAt c cc0_stg0_0 ∗ anyAt c cc0_stg0_1 ∗ anyAt c cc0_stg1_0 ∗ anyAt c cc0_stg1_1 ∗ anyAt c cc0_scratch0
          ∗ (∃ d, owns (c : Thread nD τ) scM1_0 fullShare d)) ∗ (∃ r, prngReg c r)) := by
  unfold Pipeline.ΦA; rw [scopedRest1_eq]; simp only [scM1_0, owns_whole]; try rfl

end Cert.Kernel.Agg

end
-- ==== Proof.WAggRunA.lean ====
import proofs.«107716_j57045755625628_1_alg».proof.Proof.WAggShared

set_option maxRecDepth 16384

noncomputable section

namespace Cert.Kernel.Agg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body at an even point (first conditional taken, second not): on whole staging memrefs, the inputs' at
    their contents, the output's at contents handed back untouched, the accumulator at anything, it runs to the
    continuation holding the inputs' and the output's buffers as they were and the accumulator with the pieces
    its two stores wrote (the zeroing, then the first partial product added) — the pieces are found by the
    symbolic run of the body's skeleton. -/
noncomputable def kernelRun1_A (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S4096x1 .f32) (harg4 : arg4.IsWhole) (arg5 : Memref sig .tc .vmem S1024x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond1_0 i) (hc1 : ¬cond1_1 i)
    (x0 : Vec F S1024x4096 .bf16) (x1 : Vec F S4096x128 .f32) (x2 : Vec F S4096x1 .f32) (x3 : Vec F S1024x1 .f32) (x4 : Vec F S128x128 .f32) (x5 : Vec F S1x128 .f32) :
    { LS0 : List (View.Piece (Elt F) S1024x128 .f32) //
      ∀ (xi6 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__agg_kernel i arg2 harg2 arg3 harg3 arg4 harg4 arg5 harg5 arg6 harg6 arg7 harg7 arg8 harg8 arg9 harg9) K } := by
  refine ⟨?_, fun xi6 E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Agg

end
-- ==== Proof.WAggRunB.lean ====
import proofs.«107716_j57045755625628_1_alg».proof.Proof.WAggRunA

set_option maxRecDepth 16384

noncomputable section

namespace Cert.Kernel.Agg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body at an odd point (first conditional not taken, second taken): on whole staging memrefs, the inputs' at
    their contents, the output's at anything, the accumulator at what the point before left, it runs to the
    continuation holding the inputs' buffers as they were, the accumulator with the piece its store wrote (the
    second partial product added) and the output's buffer with the piece its store wrote (the scaled, projected,
    biased rows) — the pieces are found by the symbolic run of the body's skeleton. -/
noncomputable def kernelRun1_B (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S4096x1 .f32) (harg4 : arg4.IsWhole) (arg5 : Memref sig .tc .vmem S1024x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec F S1024x4096 .bf16) (x1 : Vec F S4096x128 .f32) (x2 : Vec F S4096x1 .f32) (x3 : Vec F S1024x1 .f32) (x4 : Vec F S128x128 .f32) (x5 : Vec F S1x128 .f32) (xs0 : Vec F S1024x128 .f32) :
    Σ' (L6 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc1__agg_kernel i arg2 harg2 arg3 harg3 arg4 harg4 arg5 harg5 arg6 harg6 arg7 harg7 arg8 harg8 arg9 harg9) K } := by
  refine ⟨?_, ?_, fun E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.Kernel.Agg

end
-- ==== Proof.WAggFrame.lean ====
import proofs.«107716_j57045755625628_1_alg».proof.Proof.WAggRunB

set_option maxRecDepth 16384

noncomputable section

namespace Cert.Kernel.Agg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The aggregate-and-project region: its proof data, body obligation and invariant

What the accumulator and the output block hold after each point is read off the two body runs; the pipeline's
proof data name the inputs' blocks and these contents; the body obligation is discharged point by point by the
run of the point's parity. -/

variable (V : (c : Dev nD) → (b : Ref sig .tc) → Buf (Elt F) ((c : Thread nD τ).loc b))

/-! ## What each run leaves -/

/-- The even-point run's two stores cover the accumulator. -/
theorem scover1_A (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S4096x1 .f32) (harg4 : arg4.IsWhole) (arg5 : Memref sig .tc .vmem S1024x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond1_0 i) (hc1 : ¬cond1_1 i)
    (x0 : Vec F S1024x4096 .bf16) (x1 : Vec F S4096x128 .f32) (x2 : Vec F S4096x1 .f32) (x3 : Vec F S1024x1 .f32) (x4 : Vec F S128x128 .f32) (x5 : Vec F S1x128 .f32) (y : S1024x128.Idx) :
    ∃ pc ∈ (kernelRun1_A c i arg2 harg2 arg3 harg3 arg4 harg4 arg5 harg5 arg6 harg6 arg7 harg7 arg8 harg8 arg9 harg9 hc0 hc1 x0 x1 x2 x3 x4 x5).1, y ∈ pc.1.set :=
  View.cover_of_tiledL (kernelRun1_A c i arg2 harg2 arg3 harg3 arg4 harg4 arg5 harg5 arg6 harg6 arg7 harg7 arg8 harg8 arg9 harg9 hc0 hc1 x0 x1 x2 x3 x4 x5).1 S1024x128.size (by sl_kernel_rfl) y

/-- What an even point leaves in the accumulator: its pieces read back. -/
def sout1_A (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S4096x1 .f32) (harg4 : arg4.IsWhole) (arg5 : Memref sig .tc .vmem S1024x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond1_0 i) (hc1 : ¬cond1_1 i)
    (x0 : Vec F S1024x4096 .bf16) (x1 : Vec F S4096x128 .f32) (x2 : Vec F S4096x1 .f32) (x3 : Vec F S1024x1 .f32) (x4 : Vec F S128x128 .f32) (x5 : Vec F S1x128 .f32) : Vec F S1024x128 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3 x4 x5).1)

/-- The odd-point run's store covers the output block. -/
theorem cover1_B_6 (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S4096x1 .f32) (harg4 : arg4.IsWhole) (arg5 : Memref sig .tc .vmem S1024x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec F S1024x4096 .bf16) (x1 : Vec F S4096x128 .f32) (x2 : Vec F S4096x1 .f32) (x3 : Vec F S1024x1 .f32) (x4 : Vec F S128x128 .f32) (x5 : Vec F S1x128 .f32) (xs0 : Vec F S1024x128 .f32) (y : S1024x128.Idx) :
    ∃ pc ∈ (kernelRun1_B c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun1_B c i arg2 harg2 arg3 harg3 arg4 harg4 arg5 harg5 arg6 harg6 arg7 harg7 arg8 harg8 arg9 harg9 hc0 hc1 x0 x1 x2 x3 x4 x5 xs0).1 S1024x128.size (by sl_kernel_rfl) y

/-- What an odd point leaves in the output block's staging buffer. -/
def out1_B_6 (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S4096x1 .f32) (harg4 : arg4.IsWhole) (arg5 : Memref sig .tc .vmem S1024x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec F S1024x4096 .bf16) (x1 : Vec F S4096x128 .f32) (x2 : Vec F S4096x1 .f32) (x3 : Vec F S1024x1 .f32) (x4 : Vec F S128x128 .f32) (x5 : Vec F S1x128 .f32) (xs0 : Vec F S1024x128 .f32) : Vec F S1024x128 .f32 :=
  VO1_6.read (Elt F) (VO1_6.writes (Elt F) VO1_6.junk (kernelRun1_B c i arg2 harg2 arg3 harg3 arg4 harg4 arg5 harg5 arg6 harg6 arg7 harg7 arg8 harg8 arg9 harg9 hc0 hc1 x0 x1 x2 x3 x4 x5 xs0).1)

/-- The odd-point run's store covers the accumulator. -/
theorem scover1_B (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S4096x1 .f32) (harg4 : arg4.IsWhole) (arg5 : Memref sig .tc .vmem S1024x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec F S1024x4096 .bf16) (x1 : Vec F S4096x128 .f32) (x2 : Vec F S4096x1 .f32) (x3 : Vec F S1024x1 .f32) (x4 : Vec F S128x128 .f32) (x5 : Vec F S1x128 .f32) (xs0 : Vec F S1024x128 .f32) (y : S1024x128.Idx) :
    ∃ pc ∈ (kernelRun1_B c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 x4 x5 xs0).2.1 S1024x128.size (by sl_kernel_rfl) y

/-- What an odd point leaves in the accumulator. -/
def sout1_B (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S4096x1 .f32) (harg4 : arg4.IsWhole) (arg5 : Memref sig .tc .vmem S1024x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec F S1024x4096 .bf16) (x1 : Vec F S4096x128 .f32) (x2 : Vec F S4096x1 .f32) (x3 : Vec F S1024x1 .f32) (x4 : Vec F S128x128 .f32) (x5 : Vec F S1x128 .f32) (xs0 : Vec F S1024x128 .f32) : Vec F S1024x128 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 x3 x4 x5 xs0).2.1)

/-- A stand-in for the output block's buffer at an even point, where the body stores nothing into it, the window is
    idle and nothing is written back: never consulted. -/
def idle6 : Vec F S1024x128 .f32 := VO1_6.read (Elt F) (VO1_6.writes (Elt F) VO1_6.junk [])

/-! ## What the output block's buffer and the accumulator hold after each point -/

/-- After the body at position n: the pair (output block's buffer, accumulator). An even point zeroes the
    accumulator and adds the first partial product, whatever came before; an odd point adds the second partial
    product to what the even point before it left, and stores the output block computed from the sum. -/
def outsAt1 (c : Dev nD) : (n : ℕ) → n < cfg1.N → Vec F S1024x128 .f32 × Vec F S1024x128 .f32
  | 0, hn => (idle6, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 2 = 0 then
      (idle6, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr (by (try dsimp only); omega)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2,
       sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr (by (try dsimp only); omega)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)

/-- At an even point. -/
theorem outsAt1_A (c : Dev nD) (t : Fin cfg1.N) (h0 : t.val % 2 = 0) (h1 : ¬t.val % 2 = 1) :
    outsAt1 V c t.val t.isLt = (idle6, sout1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans rfl

/-- At an odd point, over what the point before left in the accumulator. -/
theorem outsAt1_B (c : Dev nD) (t : Fin cfg1.N) (h0 : ¬t.val % 2 = 0) (h1 : t.val % 2 = 1) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2,
      sout1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The invariant -/

/-- Before position n: at the first point what the launch hands over (every scoped buffer at anything); later the
    other region's scoped buffers at anything, the accumulator at what the point before left, the generator
    register at some state. -/
def PhiS (c : Dev nD) : (n : ℕ) → n ≤ cfg1.N → sProp 𝕄
  | 0, _ => Pipeline.ΦA spec1 c
  | n + 1, hn => iprop(iprop(anyAt c cc0_stg0_0 ∗ anyAt c cc0_stg0_1 ∗ anyAt c cc0_stg1_0 ∗ anyAt c cc0_stg1_1 ∗ anyAt c cc0_scratch0 ∗ owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(anyAt c cc0_stg0_0 ∗ anyAt c cc0_stg0_1 ∗ anyAt c cc0_stg1_0 ∗ anyAt c cc0_stg1_1 ∗ anyAt c cc0_scratch0 ∗ owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop(iprop(anyAt c cc0_stg0_0 ∗ anyAt c cc0_stg0_1 ∗ anyAt c cc0_stg1_0 ∗ anyAt c cc0_stg1_1 ∗ anyAt c cc0_scratch0 ∗ owns (c : Thread nD τ) scM1_0 fullShare ((outsAt1 V c (n - 1) (by omega)).2)) ∗ (∃ r, prngReg c r)) := by
  cases n with
  | zero => exact absurd rfl hz
  | succ n => rfl

/-- At any position the invariant gives back the entry invariant, spelled out: the accumulator's named contents
    are forgotten. -/
theorem PhiS_forget' (c : Dev nD) (n : ℕ) (h : n ≤ cfg1.N) :
    PhiS V c n h ⊢ iprop(iprop(anyAt c cc0_stg0_0 ∗ anyAt c cc0_stg0_1 ∗ anyAt c cc0_stg1_0 ∗ anyAt c cc0_stg1_1 ∗ anyAt c cc0_scratch0 ∗ (∃ d, owns (c : Thread nD τ) scM1_0 fullShare d)) ∗ (∃ r, prngReg c r)) := by
  cases n with
  | zero => rw [PhiS_zero V c 0 h rfl, PhiA1_eq]
  | succ n =>
    rw [PhiS_succ]
    iintro ⟨⟨HA, HB, HC, HD, HE, HS0⟩, Hg⟩
    isplitl [HA HB HC HD HE HS0]
    · isplitl [HA]; · iexact HA
      isplitl [HB]; · iexact HB
      isplitl [HC]; · iexact HC
      isplitl [HD]; · iexact HD
      isplitl [HE]; · iexact HE
      iexists _; iexact HS0
    iexact Hg

/-- The same against the entry invariant by name. -/
theorem PhiS_forget (c : Dev nD) (n : ℕ) (h : n ≤ cfg1.N) : PhiS V c n h ⊢ Pipeline.ΦA spec1 c := by
  rw [PhiA1_eq]; exact PhiS_forget' V c n h

/-! ## The proof data -/

/-- The pipeline's proof data on core c: the arrays as the region finds them; after the body each input's buffer
    at its block, the output's at what the point left; the invariant above; windows 2 and 3 read one array and
    hold half of it each; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS V c t.val (Nat.le_of_lt_succ t.isLt)
  q := fun w => match w with | ⟨2, _⟩ => fullShare.left | ⟨3, _⟩ => fullShare.right | _ => fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point: the inputs' buffers hold their blocks; the point's parity says which run applies; the
    invariant hands the body the accumulator (at anything at an even point, at what the even point before left at
    an odd one) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS V c (t.val + 1) t.isLt from rfl, PhiS_succ]
  have hN : t.val < 16 := lt_of_lt_of_eq t.isLt (show cfg1.N = 16 from N_1)
  by_cases h0 : t.val % 2 = 0
  · have h1 : ¬t.val % 2 = 1 := by omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [show (dat1 V c).leavesExact 4 t = owns (c : Thread nD τ) (ms1_4 t) fullShare ((dat1 V c).after 4 t) from by
      unfold Dat.leavesExact; rw [liveAt1_4 t], after1_4]
    rw [show (dat1 V c).leavesExact 5 t = owns (c : Thread nD τ) (ms1_5 t) fullShare ((dat1 V c).after 5 t) from by
      unfold Dat.leavesExact; rw [liveAt1_5 t], after1_5]
    rw [Dat.leavesExact_idle (dat1 V c) 6 t (idleAt1_6_A t ((hcond1_0 t).mpr h0) (fun h => h1 ((hcond1_1 t).mp h))) (noFlush1_6_A t ((hcond1_0 t).mpr h0) (fun h => h1 ((hcond1_1 t).mp h)))]
    rw [outsAt1_A V c t h0 h1]
    unfold sout1_A; (try dsimp only)
    rw [PhiS_castSucc V c t]
    iintro ⟨HP, Ho, ⟨%d0, H0⟩, ⟨%d1, H1⟩, ⟨%d2, H2⟩, ⟨%d3, H3⟩, ⟨%d4, H4⟩, ⟨%d5, H5⟩, ⟨%d6, H6⟩⟩
    ihave HQ := (PhiS_forget' V c _ _) $$ HP
    icases HQ with ⟨⟨HA, HB, HC, HD, HE, HS0⟩, Hg⟩
    iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    iintro ⟨H0, H1, H2, H3, H4, H5, H6, ⟨%es0, HS0⟩⟩
    isplitl [HA HB HC HD HE HS0 Hg]
    · isplitl [HA HB HC HD HE HS0]
      · isplitl [HA]; · iexact HA
        isplitl [HB]; · iexact HB
        isplitl [HC]; · iexact HC
        isplitl [HD]; · iexact HD
        isplitl [HE]; · iexact HE
        unfold owns; iexists _; isplitr
        swap; · iexact HS0
        ipureintro; exact View.read_writes_of_cover _ _ _ _ _ (scover1_A c _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have h1 : t.val % 2 = 1 := by omega
    have hz : t.val ≠ 0 := by omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [show (dat1 V c).leavesExact 4 t = owns (c : Thread nD τ) (ms1_4 t) fullShare ((dat1 V c).after 4 t) from by
      unfold Dat.leavesExact; rw [liveAt1_4 t], after1_4]
    rw [show (dat1 V c).leavesExact 5 t = owns (c : Thread nD τ) (ms1_5 t) fullShare ((dat1 V c).after 5 t) from by
      unfold Dat.leavesExact; rw [liveAt1_5 t], after1_5]
    rw [show (dat1 V c).leavesExact 6 t = owns (c : Thread nD τ) (ms1_6 t) fullShare ((dat1 V c).after 6 t) from by
      unfold Dat.leavesExact; rw [liveAt1_6_B t (fun h => h0 ((hcond1_0 t).mp h)) ((hcond1_1 t).mpr h1)], after1_6]
    rw [outsAt1_B V c t h0 h1]
    unfold out1_B_6 sout1_B; (try dsimp only)
    rw [PhiS_castSucc V c t, PhiS_pos V c _ _ hz]
    iintro ⟨⟨⟨HA, HB, HC, HD, HE, HS0⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun1_B c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    iintro ⟨H0, H1, H2, H3, H4, H5, ⟨%e6, H6⟩, ⟨%es0, HS0⟩⟩
    isplitl [HA HB HC HD HE HS0 Hg]
    · isplitl [HA HB HC HD HE HS0]
      · isplitl [HA]; · iexact HA
        isplitl [HB]; · iexact HB
        isplitl [HC]; · iexact HC
        isplitl [HD]; · iexact HD
        isplitl [HE]; · iexact HE
        unfold owns; iexists _; isplitr
        swap; · iexact HS0
        ipureintro; exact View.read_writes_of_cover _ _ _ _ _ (scover1_B c _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (cover1_B_6 c _ _ _ _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the entry invariant back. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl]
  exact PhiS_forget V c _ _

end Cert.Kernel.Agg

end
-- ==== Proof.WRun.lean ====
/- The kernel program's run through its two regions: every unscoped buffer is followed from the launch through the
   host operations and the two pipelines; each region is entered from the contents the items before it left, its arrays
   taken out of the core's buffers and put back at what its write-backs leave. Region 1 reads the degree column through
   two windows, each holding half of that array's share. -/
import proofs.«107716_j57045755625628_1_alg».proof.Proof.Gen.Kernel.Regions
import proofs.«107716_j57045755625628_1_alg».proof.Proof.WDegFrame
import proofs.«107716_j57045755625628_1_alg».proof.Proof.WAggFrame
import Idealize.ShloMosaic.Lib.Pipeline.RegionsLoop
import Idealize.ShloMosaic.Lib.Pipeline.Kit

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the boundaries -/

/-- What region 0 finds: the launch memory after the host operations before it, read at a TensorCore reference. -/
abbrev E1 (c : Dev nD) (b : Ref sig .tc) : Buf (Elt F) ((c : Thread nD τ).loc b) := Gen.V1 m c (Proc.devRef .tc b)

/-- What region 0 leaves in the degree column: its write-backs folded over the column it found. -/
def o2 (c : Dev nD) : Buf (Elt F) ((c : Thread nD τ).loc main_v39) := (Deg.dat0 (E1 m) c).arrAt 1 cfg0.N

/-- The regions' results, before region 1's is known: the degree column only. -/
def outsA : Gen.Outs (F := F) := fun _ r c => Function.update (fun r => m ((c : Thread nD τ).loc r)) main_v39 (o2 m c) r

/-- What region 1 finds. -/
abbrev E3 (c : Dev nD) (b : Ref sig .tc) : Buf (Elt F) ((c : Thread nD τ).loc b) := Gen.V3 m (outsA m) c (Proc.devRef .tc b)

/-- What region 1 leaves in the result array. -/
def o4 (c : Dev nD) : Buf (Elt F) ((c : Thread nD τ).loc main_v41) := (Agg.dat1 (E3 m) c).arrAt 6 cfg1.N

/-- The regions' results. -/
def outsB : Gen.Outs (F := F) := fun _ r c =>
  Function.update (Function.update (fun r => m ((c : Thread nD τ).loc r)) main_v39 (o2 m c)) main_v41 (o4 m c) r

theorem outsA_v39 (J : ℕ) (c : Dev nD) : outsA m J main_v39 c = o2 m c := by
  unfold outsA; exact Function.update_self _ _ _
theorem outsB_v39 (J : ℕ) (c : Dev nD) : outsB m J main_v39 c = o2 m c := by
  have hne : (main_v39 : Ref sig .tc) ≠ main_v41 := by decide
  unfold outsB; rw [Function.update_of_ne hne]; exact Function.update_self _ _ _
theorem outsB_v41 (J : ℕ) (c : Dev nD) : outsB m J main_v41 c = o4 m c := by
  unfold outsB; exact Function.update_self _ _ _

/-- Only the degree column of the first region's result enters the second region's entry contents. -/
theorem V2_outs (c : Dev nD) : Gen.V2 m (outsB m) c = Gen.V2 m (outsA m) c := by
  unfold Gen.V2; rw [outsB_v39, outsA_v39]
theorem V3_outs (c : Dev nD) : Gen.V3 m (outsB m) c = Gen.V3 m (outsA m) c := by
  unfold Gen.V3; rw [V2_outs]

/-! ## The proof data family and the thread state -/

/-- Every pipeline's proof data, each at its region's entry contents. -/
def pdats : (p : Fin 2) → (c : Dev nD) → Dat τ (Elt F) Unit ℕ (UR sig nD τ) ℕ (Pipeline.pin (pcfgs (F := F)) Gen.adm p) c
  | ⟨0, _⟩ => fun c => Deg.dat0 (E1 m) c
  | ⟨1, _⟩ => fun c => Agg.dat1 (E3 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)

/-! ## Region 0 -/

/-- After region 0 each of its arrays holds what the pipeline leaves: the adjacency as found, the degree column at its
    folded write-backs. -/
theorem hF0 (c : Dev nD) (w : Fin cfg0.W) :
    (Deg.dat0 (E1 m) c).arrAt w cfg0.N = Gen.V2 m (outsB m) c (Proc.devRef .tc (Pipeline.arrRef spec0 w)) := by
  match w with
  | ⟨0, _⟩ =>
    refine ((Deg.dat0 (E1 m) c).arrAt_in 0 rfl _).trans ((Deg.A_eq0 (E1 m) c 0).trans ?_)
    exact (Gen.V2_of m (outsB m) c main_v38 (by decide)).symm
  | ⟨1, _⟩ =>
    show _ = Function.update (Gen.V1 m c) (Proc.devRef .tc main_v39) (outsB m 2 main_v39 c) (Proc.devRef .tc main_v39)
    rw [Function.update_self, outsB_v39]; rfl

theorem hrest0 (c : Dev nD) : ∀ b, b ∉ Finset.univ.image (Pipeline.arrRef spec0) →
    Gen.V2 m (outsB m) c (Proc.devRef .tc b) = Gen.V1 m c (Proc.devRef .tc b) := fun b hb =>
  Gen.V2_of m (outsB m) c b (by
    intro h
    rw [List.mem_singleton] at h
    exact hb (Finset.mem_image.mpr ⟨1, Finset.mem_univ _, h.symm⟩))

/-- The generator register and the scoped buffers no window stages make the class invariant, and come back out of it. -/
theorem phiA0_intro (c : Dev nD) :
    iprop((∃ r, prngReg c r) ∗ Pipeline.scopedRest (Ix := Unit) (Name := ℕ) (U := UR sig nD τ) (Lvl := ℕ) (Val := Elt F) spec0 c)
      ⊢ (Pipeline.ΦA spec0 c : sProp 𝕄) := by
  unfold Pipeline.ΦA
  iintro ⟨Hp, Hr⟩
  isplitl [Hr]; · iexact Hr
  iexact Hp
theorem phiA0_elim (c : Dev nD) :
    (Pipeline.ΦA spec0 c : sProp 𝕄)
      ⊢ iprop((∃ r, prngReg c r) ∗ Pipeline.scopedRest (Ix := Unit) (Name := ℕ) (U := UR sig nD τ) (Lvl := ℕ) (Val := Elt F) spec0 c) := by
  unfold Pipeline.ΦA
  iintro ⟨Hr, Hp⟩
  isplitl [Hp]; · iexact Hp
  iexact Hr

set_option backward.isDefEq.respectTransparency.types false in
/-- REGION 0 over the thread state: entered from every unscoped buffer at the contents the first host stretch leaves,
    left with the degree column at what the pipeline wrote back. Its arrays are split out of the unscoped buffers and
    put back at the exit contents; the generator register goes into the invariant and comes out; nothing is owed. -/
def reg0 : Pipeline.RegionSeg (pcfgs (F := F)) Gen.adm (pdats m) () defs₀ 𝒱₀ L lv 0 := by
  refine
    { win := launch0.win.to₀
      block_pos := launch0.block_pos
      stage_whole := launch0.stage_whole
      K := PEmpty
      osem := fun k => k.elim
      ho := Pipeline.OwnSemFacts.none _
      hbody := fun c => (Deg.body_obligation0 (E1 m) c).loose
      hwaits := Pipeline.hwaits_of_owed_zero _ _ _ _ L lv 0 fun _ _ => rfl
      pre := fun c => iprop(StableHlo.held (c : Thread nD τ) (Pipeline.ucRefs τ sig) (Gen.V1 m c) ∗ R c)
      post := fun c => iprop(StableHlo.held (c : Thread nD τ) (Pipeline.ucRefs τ sig) (Gen.V2 m (outsB m) c) ∗ R c)
      X := fun c => iprop(∃ r, prngReg c r)
      Y := fun c => iprop(∃ r, prngReg c r)
      Z := fun c => Pipeline.unscopedRest (Ix := Unit) (Name := ℕ) (U := UR sig nD τ) (Lvl := ℕ) spec0 c (E1 m c)
      hentry := ?hentry, hin := ?hin, hout := ?hout, hexit := ?hexit }
  case hentry =>
    intro c
    rw [Pipeline.ownSems0_none]
    have hsplit := Pipeline.arrays_of_unscopedBufs (p := 0) (pcfgs (F := F)) Gen.adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  case hin =>
    intro c
    rw [show (pdats m 0 c).Φ 0 = (Deg.dat0 (E1 m) c).Φ 0 from rfl]
    iintro ⟨Hp, -, Hr⟩
    iapply (Deg.hin0 (E1 m) c)
    iapply (phiA0_intro c)
    isplitl [Hp]; · iexact Hp
    iexact Hr
  case hout =>
    intro c
    rw [Pipeline.ownSems0_none, show (pdats m 0 c).Φ (Fin.last _) = (Deg.dat0 (E1 m) c).Φ (Fin.last cfg0.N) from rfl]
    iintro H
    ihave H' := (Deg.hout0 (E1 m) c) $$ H
    ihave H'' := (phiA0_elim c) $$ H'
    icases H'' with ⟨Hp, Hr⟩
    isplitl [Hp]; · iexact Hp
    isplitr; · iempintro
    iexact Hr
  case hexit =>
    intro c
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E1 m c) (fun b => Gen.V2 m (outsB m) c (Proc.devRef .tc b)) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1: one array behind two windows -/

/-- The pipeline's arrays, each a whole buffer held at its window's share. -/
theorem arrays1_eq (c : Dev nD) (G : (w : Fin cfg1.W) → Buf (Elt F) ((cfg1.win w).arr.view.loc (c.tc : Thread nD τ))) :
    (pdats m 1 c).arrays G
      = bigSep Finset.univ fun w : Fin 7 => (((c.tc : Thread nD τ).loc (Pipeline.arrRef spec1 w)) ↦{(pdats m 1 c).share w} G w : sProp 𝕄) := by
  have harr : ∀ w, ((Pipeline.pin (pcfgs (F := F)) Gen.adm 1).win w).arr.IsWhole := arr_whole1
  unfold Pipeline.Dat.arrays
  exact bigSep_congr fun w _ => by rw [(harr w).set_eq_univ]; rfl

/-- The distinct buffers behind region 1's seven windows: six, the degree column counted once. -/
theorem arrImage1 : Finset.univ.image (Pipeline.arrRef spec1)
    = insert (Pipeline.arrRef spec1 0) (insert (Pipeline.arrRef spec1 1) (insert (Pipeline.arrRef spec1 2)
        (insert (Pipeline.arrRef spec1 4) (insert (Pipeline.arrRef spec1 5) {Pipeline.arrRef spec1 6})))) := by decide

theorem arrBufs1_eq (c : Dev nD) (V : (b : Ref sig .tc) → Buf (Elt F) ((c.tc : Thread nD τ).loc b)) :
    (Pipeline.arrBufs spec1 c V : sProp 𝕄)
      = iprop((((c.tc : Thread nD τ).loc (Pipeline.arrRef spec1 0)) ↦{fullShare} V (Pipeline.arrRef spec1 0))
          ∗ (((c.tc : Thread nD τ).loc (Pipeline.arrRef spec1 1)) ↦{fullShare} V (Pipeline.arrRef spec1 1))
          ∗ (((c.tc : Thread nD τ).loc (Pipeline.arrRef spec1 2)) ↦{fullShare} V (Pipeline.arrRef spec1 2))
          ∗ (((c.tc : Thread nD τ).loc (Pipeline.arrRef spec1 4)) ↦{fullShare} V (Pipeline.arrRef spec1 4))
          ∗ (((c.tc : Thread nD τ).loc (Pipeline.arrRef spec1 5)) ↦{fullShare} V (Pipeline.arrRef spec1 5))
          ∗ (((c.tc : Thread nD τ).loc (Pipeline.arrRef spec1 6)) ↦{fullShare} V (Pipeline.arrRef spec1 6))) := by
  unfold Pipeline.arrBufs
  rw [arrImage1, bigSep_insert (by decide), bigSep_insert (by decide), bigSep_insert (by decide), bigSep_insert (by decide),
    bigSep_insert (by decide), bigSep_singleton]
  rfl

/-- ENTRY: the six buffers, each whole at the full share, are the seven windows' arrays — the degree column split in
    two halves, one for the window that reads it by column block and one for the window that reads it by row block. -/
theorem split1 (c : Dev nD) (V : (b : Ref sig .tc) → Buf (Elt F) ((c.tc : Thread nD τ).loc b)) :
    (Pipeline.arrBufs spec1 c V : sProp 𝕄) ⊢ (pdats m 1 c).arrays (fun w => V (Pipeline.arrRef spec1 w)) := by
  rw [arrays1_eq, Gen.bigSep_W1, arrBufs1_eq]
  rw [show (pdats m 1 c).share 0 = fullShare from rfl, show (pdats m 1 c).share 1 = fullShare from rfl,
    show (pdats m 1 c).share 2 = fullShare.left from rfl, show (pdats m 1 c).share 3 = fullShare.right from rfl,
    show (pdats m 1 c).share 4 = fullShare from rfl, show (pdats m 1 c).share 5 = fullShare from rfl,
    show (pdats m 1 c).share 6 = fullShare from rfl]
  have hhalves := (pointsTo_share (nD := nD) (τ := τ) (sig := sig) (Ix := Unit) (Val := Elt F) (Name := ℕ) (U := UR sig nD τ) (Lvl := ℕ)
    (ℓ := (c.tc : Thread nD τ).loc (Pipeline.arrRef spec1 2)) (I := Finset.univ) (f := V (Pipeline.arrRef spec1 2))
    (PosShare.mem_left_op_right fullShare)).1
  iintro ⟨H0, H1, H2, H4, H5, H6⟩
  ihave H2' := hhalves $$ H2
  icases H2' with ⟨HL, HR⟩
  isplitl [H0]; · iexact H0
  isplitl [H1]; · iexact H1
  isplitl [HL]; · iexact HL
  isplitl [HR]; · iexact HR
  isplitl [H4]; · iexact H4
  isplitl [H5]; · iexact H5
  iexact H6

/-- EXIT: the converse, the two halves of the degree column joined. -/
theorem join1 (c : Dev nD) (V : (b : Ref sig .tc) → Buf (Elt F) ((c.tc : Thread nD τ).loc b)) :
    (pdats m 1 c).arrays (fun w => V (Pipeline.arrRef spec1 w)) ⊢ (Pipeline.arrBufs spec1 c V : sProp 𝕄) := by
  rw [arrays1_eq, Gen.bigSep_W1, arrBufs1_eq]
  rw [show (pdats m 1 c).share 0 = fullShare from rfl, show (pdats m 1 c).share 1 = fullShare from rfl,
    show (pdats m 1 c).share 2 = fullShare.left from rfl, show (pdats m 1 c).share 3 = fullShare.right from rfl,
    show (pdats m 1 c).share 4 = fullShare from rfl, show (pdats m 1 c).share 5 = fullShare from rfl,
    show (pdats m 1 c).share 6 = fullShare from rfl]
  have hwhole := (pointsTo_share (nD := nD) (τ := τ) (sig := sig) (Ix := Unit) (Val := Elt F) (Name := ℕ) (U := UR sig nD τ) (Lvl := ℕ)
    (ℓ := (c.tc : Thread nD τ).loc (Pipeline.arrRef spec1 2)) (I := Finset.univ) (f := V (Pipeline.arrRef spec1 2))
    (PosShare.mem_left_op_right fullShare)).2
  iintro ⟨H0, H1, HL, HR, H4, H5, H6⟩
  isplitl [H0]; · iexact H0
  isplitl [H1]; · iexact H1
  isplitl [HL HR]
  · iapply hwhole
    isplitl [HL]; · iexact HL
    iexact HR
  isplitl [H4]; · iexact H4
  isplitl [H5]; · iexact H5
  iexact H6

/-- After region 1 each of its arrays holds what the pipeline leaves: every input as found, the result array at its
    folded write-backs. -/
theorem hF1 (c : Dev nD) (w : Fin cfg1.W) :
    (Agg.dat1 (E3 m) c).arrAt w cfg1.N = Gen.V4 m (outsB m) c (Proc.devRef .tc (Pipeline.arrRef spec1 w)) := by
  have hin : ∀ (w : Fin cfg1.W) (hw : (cfg1.win w).isOut = false) (hne : Pipeline.arrRef spec1 w ∉ ([main_v41] : List (Ref sig .tc))),
      (Agg.dat1 (E3 m) c).arrAt w cfg1.N = Gen.V4 m (outsB m) c (Proc.devRef .tc (Pipeline.arrRef spec1 w)) := fun w hw hne =>
    ((Agg.dat1 (E3 m) c).arrAt_in w hw _).trans ((Agg.A_eq1 (E3 m) c w).trans
      ((congrFun (V3_outs m c) _).symm.trans (Gen.V4_of m (outsB m) c _ hne).symm))
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ => exact hin 5 rfl (by decide)
  | ⟨6, _⟩ =>
    show _ = Function.update (Gen.V3 m (outsB m) c) (Proc.devRef .tc main_v41) (outsB m 4 main_v41 c) (Proc.devRef .tc main_v41)
    rw [Function.update_self, outsB_v41]; rfl

theorem hrest1 (c : Dev nD) : ∀ b, b ∉ Finset.univ.image (Pipeline.arrRef spec1) →
    Gen.V4 m (outsB m) c (Proc.devRef .tc b) = E3 m c b := fun b hb =>
  (Gen.V4_of m (outsB m) c b (by
    intro h
    rw [List.mem_singleton] at h
    exact hb (Finset.mem_image.mpr ⟨6, Finset.mem_univ _, h.symm⟩))).trans (congrFun (V3_outs m c) _)

theorem phiA1_intro (c : Dev nD) :
    iprop((∃ r, prngReg c r) ∗ Pipeline.scopedRest (Ix := Unit) (Name := ℕ) (U := UR sig nD τ) (Lvl := ℕ) (Val := Elt F) spec1 c)
      ⊢ (Pipeline.ΦA spec1 c : sProp 𝕄) := by
  unfold Pipeline.ΦA
  iintro ⟨Hp, Hr⟩
  isplitl [Hr]; · iexact Hr
  iexact Hp
theorem phiA1_elim (c : Dev nD) :
    (Pipeline.ΦA spec1 c : sProp 𝕄)
      ⊢ iprop((∃ r, prngReg c r) ∗ Pipeline.scopedRest (Ix := Unit) (Name := ℕ) (U := UR sig nD τ) (Lvl := ℕ) (Val := Elt F) spec1 c) := by
  unfold Pipeline.ΦA
  iintro ⟨Hr, Hp⟩
  isplitl [Hp]; · iexact Hp
  iexact Hr

set_option maxHeartbeats 2000000 in
set_option backward.isDefEq.respectTransparency.types false in
/-- REGION 1 over the thread state: entered from what the second host stretch leaves, left with the result array at what
    the pipeline wrote back. The six buffers behind its seven windows are taken out of the unscoped buffers, the degree
    column in two halves, and put back whole. -/
def reg1 : Pipeline.RegionSeg (pcfgs (F := F)) Gen.adm (pdats m) () defs₀ 𝒱₀ L lv 1 := by
  refine
    { win := winFacts₀1
      block_pos := block_pos1
      stage_whole := stage_whole1
      K := PEmpty
      osem := fun k => k.elim
      ho := Pipeline.OwnSemFacts.none _
      hbody := fun c => (Agg.body_obligation1 (E3 m) c).loose
      hwaits := Pipeline.hwaits_of_owed_zero _ _ _ _ L lv 1 fun _ _ => rfl
      pre := fun c => iprop(StableHlo.held (c : Thread nD τ) (Pipeline.ucRefs τ sig) (Gen.V3 m (outsB m) c) ∗ R c)
      post := fun c => iprop(StableHlo.held (c : Thread nD τ) (Pipeline.ucRefs τ sig) (Gen.V4 m (outsB m) c) ∗ R c)
      X := fun c => iprop(∃ r, prngReg c r)
      Y := fun c => iprop(∃ r, prngReg c r)
      Z := fun c => Pipeline.unscopedRest (Ix := Unit) (Name := ℕ) (U := UR sig nD τ) (Lvl := ℕ) spec1 c (E3 m c)
      hentry := ?hentry, hin := ?hin, hout := ?hout, hexit := ?hexit }
  case hentry =>
    intro c
    rw [Pipeline.ownSems0_none, V3_outs]
    have hs := Pipeline.unscopedBufs_split₀ (Ix := Unit) (Name := ℕ) (U := UR sig nD τ) (Lvl := ℕ)
      (Pipeline.pin (pcfgs (F := F)) Gen.adm) 1 winFacts₀1.arr_unscoped c (E3 m c)
    rw [Pipeline.unscopedBufs_held] at hs
    have hG : (fun w => E3 m c (Pipeline.arrRef spec1 w)) = fun w => (pdats m 1 c).arrAt w 0 :=
      funext fun w => (Agg.A_eq1 (E3 m) c w).symm
    have hsp : (Pipeline.arrBufs spec1 c (E3 m c) : sProp 𝕄) ⊢ (pdats m 1 c).arrays (fun w => (pdats m 1 c).arrAt w 0) :=
      Eq.subst (motive := fun G => (Pipeline.arrBufs spec1 c (E3 m c) : sProp 𝕄) ⊢ (pdats m 1 c).arrays G) hG (split1 m c (E3 m c))
    rw [hs]
    iintro ⟨⟨⟨Hab, Hrest⟩, Hp, HO⟩, -, -⟩
    ihave Ha := hsp $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  case hin =>
    intro c
    rw [show (pdats m 1 c).Φ 0 = (Agg.dat1 (E3 m) c).Φ 0 from rfl]
    iintro ⟨Hp, -, Hr⟩
    iapply (Agg.hin1 (E3 m) c)
    iapply (phiA1_intro c)
    isplitl [Hp]; · iexact Hp
    iexact Hr
  case hout =>
    intro c
    rw [Pipeline.ownSems0_none, show (pdats m 1 c).Φ (Fin.last _) = (Agg.dat1 (E3 m) c).Φ (Fin.last cfg1.N) from rfl]
    iintro H
    ihave H' := (Agg.hout1 (E3 m) c) $$ H
    ihave H'' := (phiA1_elim c) $$ H'
    icases H'' with ⟨Hp, Hr⟩
    isplitl [Hp]; · iexact Hp
    isplitr; · iempintro
    iexact Hr
  case hexit =>
    intro c
    have hs := Pipeline.unscopedBufs_split₀ (Ix := Unit) (Name := ℕ) (U := UR sig nD τ) (Lvl := ℕ)
      (Pipeline.pin (pcfgs (F := F)) Gen.adm) 1 winFacts₀1.arr_unscoped c (fun b => Gen.V4 m (outsB m) c (Proc.devRef .tc b))
    rw [Pipeline.unscopedBufs_held] at hs
    have hG : (fun w => Gen.V4 m (outsB m) c (Proc.devRef .tc (Pipeline.arrRef spec1 w))) = fun w => (pdats m 1 c).arrAt w cfg1.N :=
      funext fun w => (hF1 m c w).symm
    have hj : (pdats m 1 c).arrays (fun w => (pdats m 1 c).arrAt w cfg1.N)
        ⊢ (Pipeline.arrBufs spec1 c (fun b => Gen.V4 m (outsB m) c (Proc.devRef .tc b)) : sProp 𝕄) :=
      Eq.subst (motive := fun G => (pdats m 1 c).arrays G
        ⊢ (Pipeline.arrBufs spec1 c (fun b => Gen.V4 m (outsB m) c (Proc.devRef .tc b)) : sProp 𝕄)) hG
        (join1 m c (fun b => Gen.V4 m (outsB m) c (Proc.devRef .tc b)))
    have hr : (Pipeline.unscopedRest (Ix := Unit) (Name := ℕ) (U := UR sig nD τ) (Lvl := ℕ) spec1 c (E3 m c) : sProp 𝕄)
        = Pipeline.unscopedRest spec1 c (fun b => Gen.V4 m (outsB m) c (Proc.devRef .tc b)) := by
      unfold Pipeline.unscopedRest
      exact bigSep_congr fun b hb => congrArg (fun v => (((c.tc : Thread nD τ).loc b) ↦{fullShare} v : sProp 𝕄))
        (hrest1 m c b (Finset.mem_sdiff.mp hb).2).symm
    rw [hs]
    iintro ⟨Ha, HO, HY, Hrest⟩
    imodintro
    isplitl [Ha Hrest]
    · isplitl [Ha]
      · iapply hj; iexact Ha
      ihave Hrest' := (Entails.of_eq hr) $$ Hrest
      iexact Hrest'
    isplitl [HY]; · iexact HY
    unfold Pipeline.Dat.owesAt Pipeline.owesWithin
    icases HO with ⟨%W, -, HO⟩; iexists W; iexact HO

/-! ## The run -/

/-- The last item's state regrouped: the buffers and the generator register on one side, the dues on the other. -/
theorem post_regroup (c : Dev nD) :
    iprop(StableHlo.held (c : Thread nD τ) (Pipeline.ucRefs τ sig) (Gen.V4 m (outsB m) c) ∗ R c)
      ⊢ (iprop(iprop(StableHlo.held (c : Thread nD τ) (Pipeline.ucRefs τ sig) (Gen.V4 m (outsB m) c) ∗ ∃ r, prngReg c r)
          ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

/-- The rest riding beside the buffers is the same between any two items. -/
abbrev Ej : Fin 3 → Dev nD → sProp 𝕄 := fun _ c => R c

-- the launch theorem's implicit arguments are found by unifying its conclusion with this one, which takes unfolding
-- plain definitions in a metavariable's type
set_option backward.isDefEq.respectTransparency.types false in
/-- From any memory with zero counters every weakly fair execution of the program terminates, nothing faulting; the
    result array ends at what region 1's write-backs leave and every argument array as launched. -/
theorem run_main : θ_run defs (onTc (τ := τ) (main (F := F))) ⟨m, fun _ => 0, ρ⟩ (fun r => ∀ c : Dev nD,
      r.2.mem ((c.tc : Thread nD τ).loc main_v41) = o4 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) Gen.adm (pdats m) () cellOf_inj emb₁ defs₀ 𝒱₀ L lv m ρ main
    (Gen.segs m (outsB m) 𝒱₀ L lv Ej () (pdats m) (reg0 m) (reg1 m))
    (fun c Q => by
      rewrite [main_chain c, Pipeline.Seg.run_eq_chain,
        show (Gen.segs m (outsB m) 𝒱₀ L lv Ej () (pdats m) (reg0 m) (reg1 m) c).map Pipeline.Seg.prog = [
          StableHlo.seq hostOps0,
          Prog.lift (.customCall (Pipeline.entry 0) ()),
          StableHlo.seq hostOps1,
          Prog.lift (.customCall (Pipeline.entry 1) ()) ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (Gen.V4 m (outsB m) c) ∗ ∃ r, prngReg c r))
    (hch := fun c => ⟨.rfl, .rfl, .rfl, .rfl, post_regroup m c⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V4 m (outsB m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V4 m (outsB m) c) s')
      isplitl [Hh] <;> iassumption)
    (hQ := fun s h c =>
      have mem_uc : ∀ (b : Ref sig .tc), ¬ (Proc.devRef .tc b : DevRef τ sig).isScoped → Proc.devRef .tc b ∈ Pipeline.ucRefs τ sig :=
        fun b hb => Finset.mem_filter.mpr ⟨StableHlo.devRef_mem_tcRefs b, hb⟩
      ⟨(h c _ (mem_uc main_v41 (by decide))).trans ((Function.update_self _ _ _).trans (outsB_v41 m 4 c)),
        (h c _ (mem_uc main_arg0 (by decide))).trans (Gen.V4_main_arg0 m (outsB m) c),
        (h c _ (mem_uc main_arg1 (by decide))).trans (Gen.V4_main_arg1 m (outsB m) c),
        (h c _ (mem_uc main_arg2 (by decide))).trans (Gen.V4_main_arg2 m (outsB m) c),
        (h c _ (mem_uc main_arg3 (by decide))).trans (Gen.V4_main_arg3 m (outsB m) c)⟩)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_main m ρ)

end Cert.Kernel.Run

end
-- ==== Proof.DegShared.lean ====
import proofs.«107716_j57045755625628_1_alg».proof.Proof.Gen.KernelIdeal.Launch
import proofs.«107716_j57045755625628_1_alg».proof.Proof.Gen.KernelIdeal.Skeleton
import proofs.«107716_j57045755625628_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Deg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The degree kernel: what its three control cases share

The degree kernel walks a 4 x 4 grid of 2048 x 2048 blocks of the adjacency matrix, row block by row block.
Within one row block it keeps a running column of 2048 row sums in an accumulator buffer: the accumulator is
cleared at the first column block, every column block adds its row sums to it, and at the last column block
the column `1 / sqrt (sum + eps)` is stored into the output block. So a grid point is in one of three
situations, told apart by its position modulo 4: first of its row (clear, then add), in the middle (add),
last (add, then store the output). Everything below is stated at a parameter `V`: the contents of the
TensorCore buffers when the region is entered. -/

variable (V : (c : Dev nD) → (b : Ref sig .tc) → Buf (Elt F) ((c : Thread nD τ).loc b))

/-- The block of window `w` at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency window is fetched at every point and never idle, so whatever proof data has `V`'s array
    and leaves the block in place finds the block in the current staging buffer at every point. -/
theorem before_adj_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions of the body, in closed form over the grid -/

/-- "This is the first column block of its row": the condition under which the accumulator is cleared. -/
abbrev atRowStart (i : grid0.Coords) : Prop := (Scalar.cmpi .ne (Scalar.extui (Scalar.cmpi .eq (BitVec.ofNat 32 (i 1).val) 0#32)) 0#32) = 1#1
/-- It holds exactly at the points whose position is a multiple of 4. -/
theorem atRowStart_iff : ∀ t : Fin cfg0.N, atRowStart (grid0.coords t) ↔ t.val % 4 = 0 :=
  (by decide +kernel : ∀ t : Fin grid0.N, atRowStart (grid0.coords t) ↔ t.val % 4 = 0)

/-- "This is the last column block of its row": the condition under which the output block is stored. -/
abbrev atRowEnd (i : grid0.Coords) : Prop := k0_cond2 i = 1#1
/-- It holds exactly at the points whose position is 3 modulo 4. -/
theorem atRowEnd_iff : ∀ t : Fin cfg0.N, atRowEnd (grid0.coords t) ↔ t.val % 4 = 3 :=
  (by decide +kernel : ∀ t : Fin grid0.N, atRowEnd (grid0.coords t) ↔ t.val % 4 = 3)

/-! ## Where the windows are idle -/

/-- The adjacency window is an input: never idle. -/
theorem adj_live : ∀ t : Fin cfg0.N, cfg0.idle 0 (grid0.coords t) = false := by decide +kernel
/-- Away from the end of a row the output window is idle (nothing is stored into it) -/
theorem out_idle : ∀ t : Fin cfg0.N, ¬ t.val % 4 = 3 → cfg0.idle 1 (grid0.coords t) = true := by decide +kernel
/-- and is not written back. -/
theorem out_noflush : ∀ t : Fin cfg0.N, ¬ t.val % 4 = 3 → (cfg0.win 1).flush t = false := by decide +kernel
/-- At the end of a row the output window is live. -/
theorem out_live : ∀ t : Fin cfg0.N, t.val % 4 = 3 → cfg0.idle 1 (grid0.coords t) = false := by decide +kernel

/-! ## The memrefs the body is called with -/

/-- The accumulator: a whole scoped buffer of the kernel's own, carried from point to point. -/
abbrev accM : Memref sig .tc .vmem S2048x1 .f32 := Memref.whole cc0_scratch0
/-- The accumulator as a view, through which its contents are stated. -/
abbrev accV : View sig .tc .vmem S2048x1 .f32 := (accM).view
/-- One staging buffer of the output window, through which the output block's contents are stated. -/
abbrev outV : View sig .tc .vmem S2048x1 .f32 := (Memref.whole cc0_stg1_0 : Memref sig .tc .vmem S2048x1 .f32).view
/-- The current staging memrefs of the two windows at point `t`, and their wholeness. -/
abbrev adjM (t : Fin cfg0.N) : Memref sig .tc .vmem S2048x2048 .bf16 := win0_0.stage (cfg0.slots t 0)
abbrev adjW (t : Fin cfg0.N) : (adjM t).IsWhole := hstage0_0 ((cfg0.slots t 0).cast nbuf0_0)
abbrev outM (t : Fin cfg0.N) : Memref sig .tc .vmem S2048x1 .f32 := win0_1.stage (cfg0.slots t 1)
abbrev outW (t : Fin cfg0.N) : (outM t).IsWhole := hstage0_1 ((cfg0.slots t 1).cast nbuf0_1)

/-- The core's scoped buffers that belong to the other kernel of the program (its staging buffers and its
    accumulator), each whole at some contents: this kernel never touches them. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f))

/-- What the launch hands the region beside the windows: the accumulator owned at some contents, the other
    kernel's scoped buffers, and the generator register at some state. -/
theorem entryInv_eq (c : Dev nD) :
    (Pipeline.ΦA spec0 c : sProp 𝕄)
      = iprop(iprop((∃ d, owns (c : Thread nD τ) accM fullShare d) ∗ others c) ∗ (∃ r, prngReg c r)) := by
  unfold Pipeline.ΦA others; rw [scopedRest0_eq]; simp only [accM, owns_whole]; try rfl

end Cert.KernelIdeal.Deg

end
-- ==== Proof.DegRunA.lean ====
import proofs.«107716_j57045755625628_1_alg».proof.Proof.DegShared

set_option maxRecDepth 16384

noncomputable section

namespace Cert.KernelIdeal.Deg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The degree kernel at the first column block of a row

The accumulator is cleared (whatever it held before is overwritten) and the row sums of the block are added
to the cleared column; nothing is stored into the output block. -/

set_option maxHeartbeats 1000000 in
/-- The pieces the body's stores leave in the accumulator at the first column block of a row, last store first,
    together with the run itself: on whole staging memrefs — the adjacency block at `x0`, the output buffer at
    any contents `xo` (handed back untouched), the accumulator at anything — the body runs to a continuation that
    gets the adjacency and output buffers back as they were and the accumulator with the pieces written. The
    pieces are found by the symbolic run (they are fixed when the accumulator is handed to the continuation). -/
noncomputable def runRowStart (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hs : atRowStart i) (he : ¬ atRowEnd i)
    (x0 : Vec F S2048x2048 .bf16) :
    { Lacc : List (View.Piece (Elt F) S2048x1 .f32) //
      ∀ (xo : Vec F S2048x1 .f32) (E : Set ℕ) (K : PUnit → sProp 𝕄),
        iprop(owns (c : Thread nD τ) arg2 fullShare x0 ∗ owns (c : Thread nD τ) arg3 fullShare xo ∗ (∃ d, owns (c : Thread nD τ) arg4 fullShare d)
            ∗ (iprop(owns (c : Thread nD τ) arg2 fullShare x0 ∗ owns (c : Thread nD τ) arg3 fullShare xo ∗ (∃ f, arg4.view.loc (c : Thread nD τ) ↦[arg4.view.set]{fullShare} arg4.view.writes (Elt F) f Lacc)) -∗ K ⟨⟩))
          ⊢ wp frame (wpE (defs₀ (F := F)) Variants.none c none) E (cc0__degree_kernel i arg2 harg2 arg3 harg3 arg4 harg4) K } := by
  refine ⟨?_, fun xo E K => ?run⟩
  case run =>
    simp only [cc0__degree_kernel_eq_skeleton]; unfold cc0__degree_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hs | exact he)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

/-- The two stores of this case (the cleared column, then the sums) each fill the whole accumulator: every
    index is covered. -/
theorem rowStart_acc_cover (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hs : atRowStart i) (he : ¬ atRowEnd i)
    (x0 : Vec F S2048x2048 .bf16) (y : S2048x1.Idx) :
    ∃ pc ∈ (runRowStart c i arg2 harg2 arg3 harg3 arg4 harg4 hs he x0).1, y ∈ pc.1.set :=
  View.cover_of_tiledL (runRowStart c i arg2 harg2 arg3 harg3 arg4 harg4 hs he x0).1 S2048x1.size (by sl_kernel_rfl) y

/-- What the accumulator holds after the first column block of a row: the pieces read back. -/
def rowStart_acc (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hs : atRowStart i) (he : ¬ atRowEnd i)
    (x0 : Vec F S2048x2048 .bf16) : Vec F S2048x1 .f32 :=
  accV.read (Elt F) (accV.writes (Elt F) accV.junk (runRowStart c i arg2 harg2 arg3 harg3 arg4 harg4 hs he x0).1)

end Cert.KernelIdeal.Deg

end
-- ==== Proof.DegRunB.lean ====
import proofs.«107716_j57045755625628_1_alg».proof.Proof.DegRunA

set_option maxRecDepth 16384

noncomputable section

namespace Cert.KernelIdeal.Deg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The degree kernel at a middle column block of a row

The row sums of the block are added to what the accumulator held; nothing is stored into the output block. -/

set_option maxHeartbeats 1000000 in
/-- The pieces the body's one store leaves in the accumulator at a middle column block, together with the run:
    on whole staging memrefs — the adjacency block at `x0`, the output buffer at any contents `xo` (handed back
    untouched), the accumulator at what the point before left, `xs` — the body runs to a continuation that gets
    the adjacency and output buffers back as they were and the accumulator with the pieces written. -/
noncomputable def runRowMid (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hs : ¬ atRowStart i) (he : ¬ atRowEnd i)
    (x0 : Vec F S2048x2048 .bf16) (xs : Vec F S2048x1 .f32) :
    { Lacc : List (View.Piece (Elt F) S2048x1 .f32) //
      ∀ (xo : Vec F S2048x1 .f32) (E : Set ℕ) (K : PUnit → sProp 𝕄),
        iprop(owns (c : Thread nD τ) arg2 fullShare x0 ∗ owns (c : Thread nD τ) arg3 fullShare xo ∗ owns (c : Thread nD τ) arg4 fullShare xs
            ∗ (iprop(owns (c : Thread nD τ) arg2 fullShare x0 ∗ owns (c : Thread nD τ) arg3 fullShare xo ∗ (∃ f, arg4.view.loc (c : Thread nD τ) ↦[arg4.view.set]{fullShare} arg4.view.writes (Elt F) f Lacc)) -∗ K ⟨⟩))
          ⊢ wp frame (wpE (defs₀ (F := F)) Variants.none c none) E (cc0__degree_kernel i arg2 harg2 arg3 harg3 arg4 harg4) K } := by
  refine ⟨?_, fun xo E K => ?run⟩
  case run =>
    simp only [cc0__degree_kernel_eq_skeleton]; unfold cc0__degree_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hs | exact he)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

/-- The one store of this case fills the whole accumulator. -/
theorem rowMid_acc_cover (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hs : ¬ atRowStart i) (he : ¬ atRowEnd i)
    (x0 : Vec F S2048x2048 .bf16) (xs : Vec F S2048x1 .f32) (y : S2048x1.Idx) :
    ∃ pc ∈ (runRowMid c i arg2 harg2 arg3 harg3 arg4 harg4 hs he x0 xs).1, y ∈ pc.1.set :=
  View.cover_of_tiledL (runRowMid c i arg2 harg2 arg3 harg3 arg4 harg4 hs he x0 xs).1 S2048x1.size (by sl_kernel_rfl) y

/-- What the accumulator holds after a middle column block: the pieces read back. -/
def rowMid_acc (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hs : ¬ atRowStart i) (he : ¬ atRowEnd i)
    (x0 : Vec F S2048x2048 .bf16) (xs : Vec F S2048x1 .f32) : Vec F S2048x1 .f32 :=
  accV.read (Elt F) (accV.writes (Elt F) accV.junk (runRowMid c i arg2 harg2 arg3 harg3 arg4 harg4 hs he x0 xs).1)

end Cert.KernelIdeal.Deg

end
-- ==== Proof.DegRunC.lean ====
import proofs.«107716_j57045755625628_1_alg».proof.Proof.DegRunB

set_option maxRecDepth 16384

noncomputable section

namespace Cert.KernelIdeal.Deg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The degree kernel at the last column block of a row

The row sums of the block are added to what the accumulator held, and the output block is stored whole from
the finished sums (the body also loads the output buffer once before that store; the loaded value is unused). -/

set_option maxHeartbeats 1000000 in
/-- The pieces the body's stores leave in the output buffer and in the accumulator at the last column block,
    together with the run: on whole staging memrefs — the adjacency block at `x0`, the output buffer at anything,
    the accumulator at what the point before left, `xs` — the body runs to a continuation that gets the adjacency
    buffer back as it was, and the output buffer and the accumulator each with its pieces written. -/
noncomputable def runRowEnd (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hs : ¬ atRowStart i) (he : atRowEnd i)
    (x0 : Vec F S2048x2048 .bf16) (xs : Vec F S2048x1 .f32) :
    Σ' (Lout : List (View.Piece (Elt F) S2048x1 .f32)), { Lacc : List (View.Piece (Elt F) S2048x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs
            ∗ (iprop(owns (c : Thread nD τ) arg2 fullShare x0 ∗ (∃ f, arg3.view.loc (c : Thread nD τ) ↦[arg3.view.set]{fullShare} arg3.view.writes (Elt F) f Lout) ∗ (∃ f, arg4.view.loc (c : Thread nD τ) ↦[arg4.view.set]{fullShare} arg4.view.writes (Elt F) f Lacc)) -∗ K ⟨⟩))
          ⊢ wp frame (wpE (defs₀ (F := F)) Variants.none c none) E (cc0__degree_kernel i arg2 harg2 arg3 harg3 arg4 harg4) K } := by
  refine ⟨?_, ?_, fun E K => ?run⟩
  case run =>
    simp only [cc0__degree_kernel_eq_skeleton]; unfold cc0__degree_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hs | exact he)
    sl_step
    iapply Hk
    isplitl [H0]
    · iexists _; isplitr; · ipureintro; exact harg2.read_unread _
      iexact H0
    isplitl [H1]; · iexists _; iexact H1
    iexists _; iexact HS0

/-- The one store into the output buffer fills it. -/
theorem rowEnd_out_cover (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hs : ¬ atRowStart i) (he : atRowEnd i)
    (x0 : Vec F S2048x2048 .bf16) (xs : Vec F S2048x1 .f32) (y : S2048x1.Idx) :
    ∃ pc ∈ (runRowEnd c i arg2 harg2 arg3 harg3 arg4 harg4 hs he x0 xs).1, y ∈ pc.1.set :=
  View.cover_of_tiledL (runRowEnd c i arg2 harg2 arg3 harg3 arg4 harg4 hs he x0 xs).1 S2048x1.size (by sl_kernel_rfl) y

/-- What the output buffer holds after the last column block of a row: the pieces read back. -/
def rowEnd_out (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hs : ¬ atRowStart i) (he : atRowEnd i)
    (x0 : Vec F S2048x2048 .bf16) (xs : Vec F S2048x1 .f32) : Vec F S2048x1 .f32 :=
  outV.read (Elt F) (outV.writes (Elt F) outV.junk (runRowEnd c i arg2 harg2 arg3 harg3 arg4 harg4 hs he x0 xs).1)

/-- The one store into the accumulator fills it. -/
theorem rowEnd_acc_cover (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hs : ¬ atRowStart i) (he : atRowEnd i)
    (x0 : Vec F S2048x2048 .bf16) (xs : Vec F S2048x1 .f32) (y : S2048x1.Idx) :
    ∃ pc ∈ (runRowEnd c i arg2 harg2 arg3 harg3 arg4 harg4 hs he x0 xs).2.1, y ∈ pc.1.set :=
  View.cover_of_tiledL (runRowEnd c i arg2 harg2 arg3 harg3 arg4 harg4 hs he x0 xs).2.1 S2048x1.size (by sl_kernel_rfl) y

/-- What the accumulator holds after the last column block of a row: the pieces read back. -/
def rowEnd_acc (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hs : ¬ atRowStart i) (he : atRowEnd i)
    (x0 : Vec F S2048x2048 .bf16) (xs : Vec F S2048x1 .f32) : Vec F S2048x1 .f32 :=
  accV.read (Elt F) (accV.writes (Elt F) accV.junk (runRowEnd c i arg2 harg2 arg3 harg3 arg4 harg4 hs he x0 xs).2.1)

end Cert.KernelIdeal.Deg

end
-- ==== Proof.DegFrame.lean ====
import proofs.«107716_j57045755625628_1_alg».proof.Proof.DegRunC

set_option maxRecDepth 16384

noncomputable section

namespace Cert.KernelIdeal.Deg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The degree kernel over its whole grid: what each point leaves, the invariant, the body obligation

`V` is the contents of the TensorCore buffers when the region is entered. -/

variable (V : (c : Dev nD) → (b : Ref sig .tc) → Buf (Elt F) ((c : Thread nD τ).loc b))

/-- A point that is not the end of its row cannot also be one: position 0 modulo 4 is not position 3. -/
theorem notEnd_of_start (t : Fin cfg0.N) (h0 : t.val % 4 = 0) : ¬ atRowEnd (grid0.coords t) :=
  fun h => (fun h3 : t.val % 4 = 3 => by omega) ((atRowEnd_iff t).mp h)

/-- The accumulator after a point at the start of a row, from the point's adjacency block. -/
def startAcc (c : Dev nD) (t : Fin cfg0.N) (h0 : t.val % 4 = 0) : Vec F S2048x1 .f32 :=
  rowStart_acc c (grid0.coords t) (adjM t) (adjW t) (outM t) (outW t) accM (Memref.isWhole_whole _) ((atRowStart_iff t).mpr h0) (notEnd_of_start t h0) (iblk0 V c 0 t)

/-- The accumulator after a point in the middle of a row, from the point's adjacency block and what the
    accumulator held before. -/
def midAcc (c : Dev nD) (t : Fin cfg0.N) (h0 : ¬ t.val % 4 = 0) (h3 : ¬ t.val % 4 = 3) (xs : Vec F S2048x1 .f32) : Vec F S2048x1 .f32 :=
  rowMid_acc c (grid0.coords t) (adjM t) (adjW t) (outM t) (outW t) accM (Memref.isWhole_whole _) (fun h => h0 ((atRowStart_iff t).mp h)) (fun h => h3 ((atRowEnd_iff t).mp h)) (iblk0 V c 0 t) xs

/-- The accumulator after a point at the end of a row. -/
def endAcc (c : Dev nD) (t : Fin cfg0.N) (h0 : ¬ t.val % 4 = 0) (h3 : t.val % 4 = 3) (xs : Vec F S2048x1 .f32) : Vec F S2048x1 .f32 :=
  rowEnd_acc c (grid0.coords t) (adjM t) (adjW t) (outM t) (outW t) accM (Memref.isWhole_whole _) (fun h => h0 ((atRowStart_iff t).mp h)) ((atRowEnd_iff t).mpr h3) (iblk0 V c 0 t) xs

/-- The output block stored at a point at the end of a row. -/
def endOut (c : Dev nD) (t : Fin cfg0.N) (h0 : ¬ t.val % 4 = 0) (h3 : t.val % 4 = 3) (xs : Vec F S2048x1 .f32) : Vec F S2048x1 .f32 :=
  rowEnd_out c (grid0.coords t) (adjM t) (adjW t) (outM t) (outW t) accM (Memref.isWhole_whole _) (fun h => h0 ((atRowStart_iff t).mp h)) ((atRowEnd_iff t).mpr h3) (iblk0 V c 0 t) xs

/-- A stand-in for the output buffer's contents at the points that store nothing into it: there the window is
    idle and not written back, so nothing reads this value. -/
def idleOut : Vec F S2048x1 .f32 := outV.read (Elt F) (outV.junk (Val := Elt F))

/-- THE ACCUMULATION. What the output window's buffer and the accumulator hold after the body at position `n`:
    the situation the position modulo 4 selects, run at the point's block, over what the accumulator held after
    position `n - 1`. -/
def outsAt0 (c : Dev nD) : (n : ℕ) → n < cfg0.N → Vec F S2048x1 .f32 × Vec F S2048x1 .f32
  | 0, hn => (idleOut, startAcc V c ⟨0, hn⟩ (Nat.zero_mod _))
  | n + 1, hn =>
    if h0 : (n + 1) % 4 = 0 then
      (idleOut, startAcc V c ⟨n + 1, hn⟩ h0)
    else
      if h3 : (n + 1) % 4 = 3 then
        (endOut V c ⟨n + 1, hn⟩ h0 h3 (outsAt0 c n (Nat.lt_of_succ_lt hn)).2, endAcc V c ⟨n + 1, hn⟩ h0 h3 (outsAt0 c n (Nat.lt_of_succ_lt hn)).2)
      else
        (idleOut, midAcc V c ⟨n + 1, hn⟩ h0 h3 (outsAt0 c n (Nat.lt_of_succ_lt hn)).2)

/-- The position before `t` is still a position of the grid. -/
theorem pred_lt (t : Fin cfg0.N) : t.val - 1 < cfg0.N := Nat.lt_of_le_of_lt (Nat.sub_le _ _) t.isLt

theorem outsAt0_start (c : Dev nD) (t : Fin cfg0.N) (h0 : t.val % 4 = 0) :
    outsAt0 V c t.val t.isLt = (idleOut, startAcc V c t h0) := by
  obtain ⟨n, hn⟩ := t
  cases n with
  | zero => exact rfl
  | succ n => exact (dif_pos h0).trans rfl

theorem outsAt0_mid (c : Dev nD) (t : Fin cfg0.N) (h0 : ¬ t.val % 4 = 0) (h3 : ¬ t.val % 4 = 3) :
    outsAt0 V c t.val t.isLt = (idleOut, midAcc V c t h0 h3 (outsAt0 V c (t.val - 1) (pred_lt t)).2) := by
  obtain ⟨n, hn⟩ := t
  cases n with
  | zero => exact absurd (Nat.zero_mod _) h0
  | succ n => exact (dif_neg h0).trans ((dif_neg h3).trans rfl)

theorem outsAt0_end (c : Dev nD) (t : Fin cfg0.N) (h0 : ¬ t.val % 4 = 0) (h3 : t.val % 4 = 3) :
    outsAt0 V c t.val t.isLt = (endOut V c t h0 h3 (outsAt0 V c (t.val - 1) (pred_lt t)).2, endAcc V c t h0 h3 (outsAt0 V c (t.val - 1) (pred_lt t)).2) := by
  obtain ⟨n, hn⟩ := t
  cases n with
  | zero => exact absurd (Nat.zero_mod _) h0
  | succ n => exact (dif_neg h0).trans ((dif_pos h3).trans rfl)

/-- The region's invariant before position `n`: before the first point what the launch hands over (the
    accumulator at anything); afterwards the accumulator at what the point before left in it, beside the other
    kernel's scoped buffers and the generator register. -/
def PhiS (c : Dev nD) : (n : ℕ) → n ≤ cfg0.N → sProp 𝕄
  | 0, _ => Pipeline.ΦA spec0 c
  | n + 1, hn => iprop(iprop(owns (c : Thread nD τ) accM fullShare ((outsAt0 V c n hn).2) ∗ others c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) accM fullShare ((outsAt0 V c n hn).2) ∗ others c) ∗ (∃ r, prngReg c r)) := rfl

theorem PhiS_pos (c : Dev nD) (n : ℕ) (h : n ≤ cfg0.N) (hz : n ≠ 0) :
    PhiS V c n h = iprop(iprop(owns (c : Thread nD τ) accM fullShare ((outsAt0 V c (n - 1) (by omega)).2) ∗ others c) ∗ (∃ r, prngReg c r)) := by
  cases n with
  | zero => exact absurd rfl hz
  | succ n => rfl

/-! ## The proof data -/

/-- The proof data of the degree kernel's pipeline on core `c`: the arrays as the region finds them; after the
    body at point `t` the adjacency window's buffer at its block and the output window's at the accumulation's
    output component; the invariant carrying the accumulator; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]

theorem before0_0 (c : Dev nD) (t : Fin cfg0.N) (d) : (dat0 V c).before 0 t d = iblk0 V c 0 t :=
  before_adj_of V (dat0 V c) (A_eq0 V c 0) (after0_0 V c) t d

/-! ## The body obligation at a generic point -/

/-- What the body is called with at point `t`, -/
def bodyPre (c : Dev nD) (t : Fin cfg0.N) : sProp 𝕄 :=
  iprop((dat0 V c).Φ t.castSucc ∗ (dat0 V c).owesAt () t.castSucc
    ∗ (∃ d, owns (c : Thread nD τ) (adjM t) fullShare ((dat0 V c).before 0 t d))
    ∗ (∃ d, owns (c : Thread nD τ) (outM t) fullShare ((dat0 V c).before 1 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point. The adjacency buffer holds the point's block; the position modulo 4 says which of the
    three situations the point is in, and that situation's run applies: the invariant hands the body the
    accumulator (at what the point before left, or at anything before the first point) and takes it back at this
    point's contents, which the stores cover; away from a row's end the output buffer goes through untouched, at
    a row's end it comes back at the stored block. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0]
  rw [show (dat0 V c).owesAt () t.succ = (dat0 V c).owesAt () t.castSucc from rfl]
  rw [show (dat0 V c).Φ t.succ = PhiS V c (t.val + 1) t.isLt from rfl, PhiS_succ]
  have hN : t.val < 16 := lt_of_lt_of_eq t.isLt (show cfg0.N = 16 from N_0)
  rw [show (dat0 V c).leavesExact 0 t = owns (c : Thread nD τ) (adjM t) fullShare ((dat0 V c).after 0 t) from by
    unfold Dat.leavesExact; rw [adj_live t], after0_0]
  by_cases h0 : t.val % 4 = 0
  · have h3 : ¬ t.val % 4 = 3 := by omega
    rw [Dat.leavesExact_idle (dat0 V c) 1 t (out_idle t h3) (out_noflush t h3)]
    rw [outsAt0_start V c t h0]
    unfold startAcc rowStart_acc; (try dsimp only)
    by_cases hz : t.val = 0
    · rw [Phi_castSucc V c t, PhiS_zero V c _ _ hz, entryInv_eq]
      iintro ⟨⟨⟨HS0, Hoth⟩, Hg⟩, Ho, ⟨%d0, H0⟩, ⟨%d1, H1⟩⟩
      iapply ((runRowStart c (grid0.coords t) _ _ _ _ _ _ ((atRowStart_iff t).mpr h0) (notEnd_of_start t h0) (iblk0 V c 0 t)).2 _ Set.univ _)
      isplitl [H0]; · iexact H0
      isplitl [H1]; · iexact H1
      isplitl [HS0]; · iexact HS0
      iintro ⟨H0, H1, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (rowStart_acc_cover c _ _ _ _ _ _ _ _ _ _)
          iexact Hoth
        iexact Hg
      isplitl [Ho]; · iexact Ho
      isplitl [H0]; · iexact H0
      iexists _; iexact H1
    · rw [Phi_castSucc V c t, PhiS_pos V c _ _ hz]
      iintro ⟨⟨⟨HS0, Hoth⟩, Hg⟩, Ho, ⟨%d0, H0⟩, ⟨%d1, H1⟩⟩
      iapply ((runRowStart c (grid0.coords t) _ _ _ _ _ _ ((atRowStart_iff t).mpr h0) (notEnd_of_start t h0) (iblk0 V c 0 t)).2 _ Set.univ _)
      isplitl [H0]; · iexact H0
      isplitl [H1]; · iexact H1
      isplitl [HS0]; · iexists _; iexact HS0
      iintro ⟨H0, H1, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (rowStart_acc_cover c _ _ _ _ _ _ _ _ _ _)
          iexact Hoth
        iexact Hg
      isplitl [Ho]; · iexact Ho
      isplitl [H0]; · iexact H0
      iexists _; iexact H1
  · have hz : t.val ≠ 0 := fun h => h0 (by rw [h])
    by_cases h3 : t.val % 4 = 3
    · rw [show (dat0 V c).leavesExact 1 t = owns (c : Thread nD τ) (outM t) fullShare ((dat0 V c).after 1 t) from by
        unfold Dat.leavesExact; rw [out_live t h3], after0_1]
      rw [outsAt0_end V c t h0 h3]
      unfold endOut endAcc rowEnd_out rowEnd_acc; (try dsimp only)
      rw [Phi_castSucc V c t, PhiS_pos V c _ _ hz]
      iintro ⟨⟨⟨HS0, Hoth⟩, Hg⟩, Ho, ⟨%d0, H0⟩, ⟨%d1, H1⟩⟩
      iapply ((runRowEnd c (grid0.coords t) _ _ _ _ _ _ (fun h => h0 ((atRowStart_iff t).mp h)) ((atRowEnd_iff t).mpr h3) (iblk0 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (rowEnd_acc_cover c _ _ _ _ _ _ _ _ _ _ _)
          iexact Hoth
        iexact Hg
      isplitl [Ho]; · iexact Ho
      isplitl [H0]; · iexact H0
      unfold owns; iexists _; isplitr
      swap; · iexact H1
      ipureintro; exact View.read_writes_of_cover _ _ _ _ _ (rowEnd_out_cover c _ _ _ _ _ _ _ _ _ _ _)
    · rw [Dat.leavesExact_idle (dat0 V c) 1 t (out_idle t h3) (out_noflush t h3)]
      rw [outsAt0_mid V c t h0 h3]
      unfold midAcc rowMid_acc; (try dsimp only)
      rw [Phi_castSucc V c t, PhiS_pos V c _ _ hz]
      iintro ⟨⟨⟨HS0, Hoth⟩, Hg⟩, Ho, ⟨%d0, H0⟩, ⟨%d1, H1⟩⟩
      iapply ((runRowMid c (grid0.coords t) _ _ _ _ _ _ (fun h => h0 ((atRowStart_iff t).mp h)) (fun h => h3 ((atRowEnd_iff t).mp h)) (iblk0 V c 0 t) _).2 _ Set.univ _)
      isplitl [H0]; · iexact H0
      isplitl [H1]; · iexact H1
      isplitl [HS0]; · iexact HS0
      iintro ⟨H0, H1, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (rowMid_acc_cover c _ _ _ _ _ _ _ _ _ _ _)
          iexact Hoth
        iexact Hg
      isplitl [Ho]; · iexact Ho
      isplitl [H0]; · iexact H0
      iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives back what the launch handed over: the accumulator's contents are
    forgotten. -/
theorem Phi_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, entryInv_eq]
  iintro ⟨⟨HS0, Hoth⟩, Hg⟩
  isplitl [HS0 Hoth]
  · isplitl [HS0]
    · iexists _; iexact HS0
    iexact Hoth
  iexact Hg

/-- The same after the last point. -/
theorem hout0 (c : Dev nD) : (dat0 V c).Φ (Fin.last cfg0.N) ⊢ Pipeline.ΦA spec0 c :=
  Phi_out V c _ (by rw [Fin.val_last]; have : cfg0.N = 16 := N_0; omega)

end Cert.KernelIdeal.Deg

end
-- ==== Proof.AggShared.lean ====
import proofs.«107716_j57045755625628_1_alg».proof.Proof.Gen.KernelIdeal.Launch
import proofs.«107716_j57045755625628_1_alg».proof.Proof.Gen.KernelIdeal.Skeleton
import proofs.«107716_j57045755625628_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Agg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The aggregate-and-project region: what its two body runs share

The region walks an 8 x 2 grid of points (i, j), j fastest. At every point the body adds the product of the
adjacency block (i, j) with the j-th block of the scaled features to a scratch accumulator; at j = 0 it first
zeroes the accumulator, at j = 1 it scales the accumulated rows, projects them, adds the bias and stores the
i-th output block. Everything is stated at the contents V the arrays hold when the region is entered. -/

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## An input's staging buffer holds its block at every point

Fetched at the point or not: where it is not fetched its block index has not moved since the point before, and the
body leaves an input's buffer as it found it. One statement per input window, for any proof data whose array is
the entry contents' and whose after-contents are the block. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The two conditionals, decided over the grid -/

/-- The first conditional (j = 0: zero the accumulator), from the grid coordinates. -/
abbrev cond1_0 (i : grid1.Coords) : Prop := (Scalar.cmpi .ne (Scalar.extui (Scalar.cmpi .eq (BitVec.ofNat 32 (i 1).val) 0#32)) 0#32) = 1#1
/-- It holds exactly at the even points. -/
theorem hcond1_0 : ∀ t : Fin cfg1.N, cond1_0 (grid1.coords t) ↔ t.val % 2 = 0 :=
  (by decide +kernel : ∀ t : Fin grid1.N, cond1_0 (grid1.coords t) ↔ t.val % 2 = 0)

/-- The second conditional (j = 1: scale, project, add the bias, store the output block). -/
abbrev cond1_1 (i : grid1.Coords) : Prop := k1_cond2 i = 1#1
/-- It holds exactly at the odd points. -/
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- At an even point the body stores nothing into the output block: the window is idle there, -/
theorem idleAt1_6_A : ∀ t : Fin cfg1.N, cond1_0 (grid1.coords t) → ¬cond1_1 (grid1.coords t) → cfg1.idle 6 (grid1.coords t) = true := by decide +kernel
/-- and the block is not written back. -/
theorem noFlush1_6_A : ∀ t : Fin cfg1.N, cond1_0 (grid1.coords t) → ¬cond1_1 (grid1.coords t) → (cfg1.win 6).flush t = false := by decide +kernel
/-- At an odd point the body stores the output block: the window is live. -/
theorem liveAt1_6_B : ∀ t : Fin cfg1.N, ¬cond1_0 (grid1.coords t) → cond1_1 (grid1.coords t) → cfg1.idle 6 (grid1.coords t) = false := by decide +kernel

/-! ## The memrefs the body is called with -/

/-- One staging buffer of the output window, through which its contents are stated. -/
abbrev VO1_6 : View sig .tc .vmem S1024x128 .f32 := (Memref.whole cc1_stg6_0 : Memref sig .tc .vmem S1024x128 .f32).view
abbrev ms1_0 (t : Fin cfg1.N) : Memref sig .tc .vmem S1024x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4096x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x128 .f32 := win1_6.stage (cfg1.slots t 6)
abbrev hs1_6 (t : Fin cfg1.N) : (ms1_6 t).IsWhole := hstage1_6 ((cfg1.slots t 6).cast nbuf1_6)
/-- The accumulator: a whole scoped buffer of the kernel's own, carried from point to point. -/
abbrev scM1_0 : Memref sig .tc .vmem S1024x128 .f32 := Memref.whole cc1_scratch0
/-- The accumulator as a view. -/
abbrev VS1_0 : View sig .tc .vmem S1024x128 .f32 := scM1_0.view

/-- A scoped buffer of the core held whole at some contents. -/
abbrev anyAt (c : Dev nD) (b : Ref sig .tc) : sProp 𝕄 :=
  iprop(∃ f : Buf (Elt F) ((c : Thread nD τ).loc b), ((c : Thread nD τ).loc b) ↦{fullShare} f)

/-- The region's entry invariant spelled out: the five scoped buffers of the other region at anything, the
    accumulator owned at some contents, the generator register at some state. -/
theorem PhiA1_eq (c : Dev nD) :
    (Pipeline.ΦA spec1 c : sProp 𝕄)
      = iprop(iprop(anyAt c cc0_stg0_0 ∗ anyAt c cc0_stg0_1 ∗ anyAt c cc0_stg1_0 ∗ anyAt c cc0_stg1_1 ∗ anyAt c cc0_scratch0
          ∗ (∃ d, owns (c : Thread nD τ) scM1_0 fullShare d)) ∗ (∃ r, prngReg c r)) := by
  unfold Pipeline.ΦA; rw [scopedRest1_eq]; simp only [scM1_0, owns_whole]; try rfl

end Cert.KernelIdeal.Agg

end
-- ==== Proof.AggRunA.lean ====
import proofs.«107716_j57045755625628_1_alg».proof.Proof.AggShared

set_option maxRecDepth 16384

noncomputable section

namespace Cert.KernelIdeal.Agg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body at an even point (first conditional taken, second not): on whole staging memrefs, the inputs' at
    their contents, the output's at contents handed back untouched, the accumulator at anything, it runs to the
    continuation holding the inputs' and the output's buffers as they were and the accumulator with the pieces
    its two stores wrote (the zeroing, then the first partial product added) — the pieces are found by the
    symbolic run of the body's skeleton. -/
noncomputable def kernelRun1_A (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S4096x1 .f32) (harg4 : arg4.IsWhole) (arg5 : Memref sig .tc .vmem S1024x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond1_0 i) (hc1 : ¬cond1_1 i)
    (x0 : Vec F S1024x4096 .bf16) (x1 : Vec F S4096x128 .f32) (x2 : Vec F S4096x1 .f32) (x3 : Vec F S1024x1 .f32) (x4 : Vec F S128x128 .f32) (x5 : Vec F S1x128 .f32) :
    { LS0 : List (View.Piece (Elt F) S1024x128 .f32) //
      ∀ (xi6 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__agg_kernel i arg2 harg2 arg3 harg3 arg4 harg4 arg5 harg5 arg6 harg6 arg7 harg7 arg8 harg8 arg9 harg9) K } := by
  refine ⟨?_, fun xi6 E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Agg

end
-- ==== Proof.AggRunB.lean ====
import proofs.«107716_j57045755625628_1_alg».proof.Proof.AggRunA

set_option maxRecDepth 16384

noncomputable section

namespace Cert.KernelIdeal.Agg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body at an odd point (first conditional not taken, second taken): on whole staging memrefs, the inputs' at
    their contents, the output's at anything, the accumulator at what the point before left, it runs to the
    continuation holding the inputs' buffers as they were, the accumulator with the piece its store wrote (the
    second partial product added) and the output's buffer with the piece its store wrote (the scaled, projected,
    biased rows) — the pieces are found by the symbolic run of the body's skeleton. -/
noncomputable def kernelRun1_B (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S4096x1 .f32) (harg4 : arg4.IsWhole) (arg5 : Memref sig .tc .vmem S1024x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec F S1024x4096 .bf16) (x1 : Vec F S4096x128 .f32) (x2 : Vec F S4096x1 .f32) (x3 : Vec F S1024x1 .f32) (x4 : Vec F S128x128 .f32) (x5 : Vec F S1x128 .f32) (xs0 : Vec F S1024x128 .f32) :
    Σ' (L6 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc1__agg_kernel i arg2 harg2 arg3 harg3 arg4 harg4 arg5 harg5 arg6 harg6 arg7 harg7 arg8 harg8 arg9 harg9) K } := by
  refine ⟨?_, ?_, fun E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.KernelIdeal.Agg

end
-- ==== Proof.AggFrame.lean ====
import proofs.«107716_j57045755625628_1_alg».proof.Proof.AggRunB

set_option maxRecDepth 16384

noncomputable section

namespace Cert.KernelIdeal.Agg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The aggregate-and-project region: its proof data, body obligation and invariant

What the accumulator and the output block hold after each point is read off the two body runs; the pipeline's
proof data name the inputs' blocks and these contents; the body obligation is discharged point by point by the
run of the point's parity. -/

variable (V : (c : Dev nD) → (b : Ref sig .tc) → Buf (Elt F) ((c : Thread nD τ).loc b))

/-! ## What each run leaves -/

/-- The even-point run's two stores cover the accumulator. -/
theorem scover1_A (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S4096x1 .f32) (harg4 : arg4.IsWhole) (arg5 : Memref sig .tc .vmem S1024x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond1_0 i) (hc1 : ¬cond1_1 i)
    (x0 : Vec F S1024x4096 .bf16) (x1 : Vec F S4096x128 .f32) (x2 : Vec F S4096x1 .f32) (x3 : Vec F S1024x1 .f32) (x4 : Vec F S128x128 .f32) (x5 : Vec F S1x128 .f32) (y : S1024x128.Idx) :
    ∃ pc ∈ (kernelRun1_A c i arg2 harg2 arg3 harg3 arg4 harg4 arg5 harg5 arg6 harg6 arg7 harg7 arg8 harg8 arg9 harg9 hc0 hc1 x0 x1 x2 x3 x4 x5).1, y ∈ pc.1.set :=
  View.cover_of_tiledL (kernelRun1_A c i arg2 harg2 arg3 harg3 arg4 harg4 arg5 harg5 arg6 harg6 arg7 harg7 arg8 harg8 arg9 harg9 hc0 hc1 x0 x1 x2 x3 x4 x5).1 S1024x128.size (by sl_kernel_rfl) y

/-- What an even point leaves in the accumulator: its pieces read back. -/
def sout1_A (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S4096x1 .f32) (harg4 : arg4.IsWhole) (arg5 : Memref sig .tc .vmem S1024x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond1_0 i) (hc1 : ¬cond1_1 i)
    (x0 : Vec F S1024x4096 .bf16) (x1 : Vec F S4096x128 .f32) (x2 : Vec F S4096x1 .f32) (x3 : Vec F S1024x1 .f32) (x4 : Vec F S128x128 .f32) (x5 : Vec F S1x128 .f32) : Vec F S1024x128 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3 x4 x5).1)

/-- The odd-point run's store covers the output block. -/
theorem cover1_B_6 (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S4096x1 .f32) (harg4 : arg4.IsWhole) (arg5 : Memref sig .tc .vmem S1024x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec F S1024x4096 .bf16) (x1 : Vec F S4096x128 .f32) (x2 : Vec F S4096x1 .f32) (x3 : Vec F S1024x1 .f32) (x4 : Vec F S128x128 .f32) (x5 : Vec F S1x128 .f32) (xs0 : Vec F S1024x128 .f32) (y : S1024x128.Idx) :
    ∃ pc ∈ (kernelRun1_B c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun1_B c i arg2 harg2 arg3 harg3 arg4 harg4 arg5 harg5 arg6 harg6 arg7 harg7 arg8 harg8 arg9 harg9 hc0 hc1 x0 x1 x2 x3 x4 x5 xs0).1 S1024x128.size (by sl_kernel_rfl) y

/-- What an odd point leaves in the output block's staging buffer. -/
def out1_B_6 (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S4096x1 .f32) (harg4 : arg4.IsWhole) (arg5 : Memref sig .tc .vmem S1024x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec F S1024x4096 .bf16) (x1 : Vec F S4096x128 .f32) (x2 : Vec F S4096x1 .f32) (x3 : Vec F S1024x1 .f32) (x4 : Vec F S128x128 .f32) (x5 : Vec F S1x128 .f32) (xs0 : Vec F S1024x128 .f32) : Vec F S1024x128 .f32 :=
  VO1_6.read (Elt F) (VO1_6.writes (Elt F) VO1_6.junk (kernelRun1_B c i arg2 harg2 arg3 harg3 arg4 harg4 arg5 harg5 arg6 harg6 arg7 harg7 arg8 harg8 arg9 harg9 hc0 hc1 x0 x1 x2 x3 x4 x5 xs0).1)

/-- The odd-point run's store covers the accumulator. -/
theorem scover1_B (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S4096x1 .f32) (harg4 : arg4.IsWhole) (arg5 : Memref sig .tc .vmem S1024x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec F S1024x4096 .bf16) (x1 : Vec F S4096x128 .f32) (x2 : Vec F S4096x1 .f32) (x3 : Vec F S1024x1 .f32) (x4 : Vec F S128x128 .f32) (x5 : Vec F S1x128 .f32) (xs0 : Vec F S1024x128 .f32) (y : S1024x128.Idx) :
    ∃ pc ∈ (kernelRun1_B c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 x4 x5 xs0).2.1 S1024x128.size (by sl_kernel_rfl) y

/-- What an odd point leaves in the accumulator. -/
def sout1_B (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S4096x1 .f32) (harg4 : arg4.IsWhole) (arg5 : Memref sig .tc .vmem S1024x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec F S1024x4096 .bf16) (x1 : Vec F S4096x128 .f32) (x2 : Vec F S4096x1 .f32) (x3 : Vec F S1024x1 .f32) (x4 : Vec F S128x128 .f32) (x5 : Vec F S1x128 .f32) (xs0 : Vec F S1024x128 .f32) : Vec F S1024x128 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 x3 x4 x5 xs0).2.1)

/-- A stand-in for the output block's buffer at an even point, where the body stores nothing into it, the window is
    idle and nothing is written back: never consulted. -/
def idle6 : Vec F S1024x128 .f32 := VO1_6.read (Elt F) (VO1_6.writes (Elt F) VO1_6.junk [])

/-! ## What the output block's buffer and the accumulator hold after each point -/

/-- After the body at position n: the pair (output block's buffer, accumulator). An even point zeroes the
    accumulator and adds the first partial product, whatever came before; an odd point adds the second partial
    product to what the even point before it left, and stores the output block computed from the sum. -/
def outsAt1 (c : Dev nD) : (n : ℕ) → n < cfg1.N → Vec F S1024x128 .f32 × Vec F S1024x128 .f32
  | 0, hn => (idle6, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 2 = 0 then
      (idle6, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr (by (try dsimp only); omega)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2,
       sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr (by (try dsimp only); omega)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)

/-- At an even point. -/
theorem outsAt1_A (c : Dev nD) (t : Fin cfg1.N) (h0 : t.val % 2 = 0) (h1 : ¬t.val % 2 = 1) :
    outsAt1 V c t.val t.isLt = (idle6, sout1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans rfl

/-- At an odd point, over what the point before left in the accumulator. -/
theorem outsAt1_B (c : Dev nD) (t : Fin cfg1.N) (h0 : ¬t.val % 2 = 0) (h1 : t.val % 2 = 1) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2,
      sout1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The invariant -/

/-- Before position n: at the first point what the launch hands over (every scoped buffer at anything); later the
    other region's scoped buffers at anything, the accumulator at what the point before left, the generator
    register at some state. -/
def PhiS (c : Dev nD) : (n : ℕ) → n ≤ cfg1.N → sProp 𝕄
  | 0, _ => Pipeline.ΦA spec1 c
  | n + 1, hn => iprop(iprop(anyAt c cc0_stg0_0 ∗ anyAt c cc0_stg0_1 ∗ anyAt c cc0_stg1_0 ∗ anyAt c cc0_stg1_1 ∗ anyAt c cc0_scratch0 ∗ owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(anyAt c cc0_stg0_0 ∗ anyAt c cc0_stg0_1 ∗ anyAt c cc0_stg1_0 ∗ anyAt c cc0_stg1_1 ∗ anyAt c cc0_scratch0 ∗ owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop(iprop(anyAt c cc0_stg0_0 ∗ anyAt c cc0_stg0_1 ∗ anyAt c cc0_stg1_0 ∗ anyAt c cc0_stg1_1 ∗ anyAt c cc0_scratch0 ∗ owns (c : Thread nD τ) scM1_0 fullShare ((outsAt1 V c (n - 1) (by omega)).2)) ∗ (∃ r, prngReg c r)) := by
  cases n with
  | zero => exact absurd rfl hz
  | succ n => rfl

/-- At any position the invariant gives back the entry invariant, spelled out: the accumulator's named contents
    are forgotten. -/
theorem PhiS_forget' (c : Dev nD) (n : ℕ) (h : n ≤ cfg1.N) :
    PhiS V c n h ⊢ iprop(iprop(anyAt c cc0_stg0_0 ∗ anyAt c cc0_stg0_1 ∗ anyAt c cc0_stg1_0 ∗ anyAt c cc0_stg1_1 ∗ anyAt c cc0_scratch0 ∗ (∃ d, owns (c : Thread nD τ) scM1_0 fullShare d)) ∗ (∃ r, prngReg c r)) := by
  cases n with
  | zero => rw [PhiS_zero V c 0 h rfl, PhiA1_eq]
  | succ n =>
    rw [PhiS_succ]
    iintro ⟨⟨HA, HB, HC, HD, HE, HS0⟩, Hg⟩
    isplitl [HA HB HC HD HE HS0]
    · isplitl [HA]; · iexact HA
      isplitl [HB]; · iexact HB
      isplitl [HC]; · iexact HC
      isplitl [HD]; · iexact HD
      isplitl [HE]; · iexact HE
      iexists _; iexact HS0
    iexact Hg

/-- The same against the entry invariant by name. -/
theorem PhiS_forget (c : Dev nD) (n : ℕ) (h : n ≤ cfg1.N) : PhiS V c n h ⊢ Pipeline.ΦA spec1 c := by
  rw [PhiA1_eq]; exact PhiS_forget' V c n h

/-! ## The proof data -/

/-- The pipeline's proof data on core c: the arrays as the region finds them; after the body each input's buffer
    at its block, the output's at what the point left; the invariant above; windows 2 and 3 read one array and
    hold half of it each; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS V c t.val (Nat.le_of_lt_succ t.isLt)
  q := fun w => match w with | ⟨2, _⟩ => fullShare.left | ⟨3, _⟩ => fullShare.right | _ => fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point: the inputs' buffers hold their blocks; the point's parity says which run applies; the
    invariant hands the body the accumulator (at anything at an even point, at what the even point before left at
    an odd one) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS V c (t.val + 1) t.isLt from rfl, PhiS_succ]
  have hN : t.val < 16 := lt_of_lt_of_eq t.isLt (show cfg1.N = 16 from N_1)
  by_cases h0 : t.val % 2 = 0
  · have h1 : ¬t.val % 2 = 1 := by omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [show (dat1 V c).leavesExact 4 t = owns (c : Thread nD τ) (ms1_4 t) fullShare ((dat1 V c).after 4 t) from by
      unfold Dat.leavesExact; rw [liveAt1_4 t], after1_4]
    rw [show (dat1 V c).leavesExact 5 t = owns (c : Thread nD τ) (ms1_5 t) fullShare ((dat1 V c).after 5 t) from by
      unfold Dat.leavesExact; rw [liveAt1_5 t], after1_5]
    rw [Dat.leavesExact_idle (dat1 V c) 6 t (idleAt1_6_A t ((hcond1_0 t).mpr h0) (fun h => h1 ((hcond1_1 t).mp h))) (noFlush1_6_A t ((hcond1_0 t).mpr h0) (fun h => h1 ((hcond1_1 t).mp h)))]
    rw [outsAt1_A V c t h0 h1]
    unfold sout1_A; (try dsimp only)
    rw [PhiS_castSucc V c t]
    iintro ⟨HP, Ho, ⟨%d0, H0⟩, ⟨%d1, H1⟩, ⟨%d2, H2⟩, ⟨%d3, H3⟩, ⟨%d4, H4⟩, ⟨%d5, H5⟩, ⟨%d6, H6⟩⟩
    ihave HQ := (PhiS_forget' V c _ _) $$ HP
    icases HQ with ⟨⟨HA, HB, HC, HD, HE, HS0⟩, Hg⟩
    iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    iintro ⟨H0, H1, H2, H3, H4, H5, H6, ⟨%es0, HS0⟩⟩
    isplitl [HA HB HC HD HE HS0 Hg]
    · isplitl [HA HB HC HD HE HS0]
      · isplitl [HA]; · iexact HA
        isplitl [HB]; · iexact HB
        isplitl [HC]; · iexact HC
        isplitl [HD]; · iexact HD
        isplitl [HE]; · iexact HE
        unfold owns; iexists _; isplitr
        swap; · iexact HS0
        ipureintro; exact View.read_writes_of_cover _ _ _ _ _ (scover1_A c _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have h1 : t.val % 2 = 1 := by omega
    have hz : t.val ≠ 0 := by omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [show (dat1 V c).leavesExact 4 t = owns (c : Thread nD τ) (ms1_4 t) fullShare ((dat1 V c).after 4 t) from by
      unfold Dat.leavesExact; rw [liveAt1_4 t], after1_4]
    rw [show (dat1 V c).leavesExact 5 t = owns (c : Thread nD τ) (ms1_5 t) fullShare ((dat1 V c).after 5 t) from by
      unfold Dat.leavesExact; rw [liveAt1_5 t], after1_5]
    rw [show (dat1 V c).leavesExact 6 t = owns (c : Thread nD τ) (ms1_6 t) fullShare ((dat1 V c).after 6 t) from by
      unfold Dat.leavesExact; rw [liveAt1_6_B t (fun h => h0 ((hcond1_0 t).mp h)) ((hcond1_1 t).mpr h1)], after1_6]
    rw [outsAt1_B V c t h0 h1]
    unfold out1_B_6 sout1_B; (try dsimp only)
    rw [PhiS_castSucc V c t, PhiS_pos V c _ _ hz]
    iintro ⟨⟨⟨HA, HB, HC, HD, HE, HS0⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun1_B c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    iintro ⟨H0, H1, H2, H3, H4, H5, ⟨%e6, H6⟩, ⟨%es0, HS0⟩⟩
    isplitl [HA HB HC HD HE HS0 Hg]
    · isplitl [HA HB HC HD HE HS0]
      · isplitl [HA]; · iexact HA
        isplitl [HB]; · iexact HB
        isplitl [HC]; · iexact HC
        isplitl [HD]; · iexact HD
        isplitl [HE]; · iexact HE
        unfold owns; iexists _; isplitr
        swap; · iexact HS0
        ipureintro; exact View.read_writes_of_cover _ _ _ _ _ (scover1_B c _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (cover1_B_6 c _ _ _ _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the entry invariant back. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl]
  exact PhiS_forget V c _ _

end Cert.KernelIdeal.Agg

end
-- ==== Proof.KIRun.lean ====
/- The kernel program's run through its two regions: every unscoped buffer is followed from the launch through the
   host operations and the two pipelines; each region is entered from the contents the items before it left, its arrays
   taken out of the core's buffers and put back at what its write-backs leave. Region 1 reads the degree column through
   two windows, each holding half of that array's share. -/
import proofs.«107716_j57045755625628_1_alg».proof.Proof.Gen.KernelIdeal.Regions
import proofs.«107716_j57045755625628_1_alg».proof.Proof.DegFrame
import proofs.«107716_j57045755625628_1_alg».proof.Proof.AggFrame
import Idealize.ShloMosaic.Lib.Pipeline.RegionsLoop
import Idealize.ShloMosaic.Lib.Pipeline.Kit

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the boundaries -/

/-- What region 0 finds: the launch memory after the host operations before it, read at a TensorCore reference. -/
abbrev E1 (c : Dev nD) (b : Ref sig .tc) : Buf (Elt F) ((c : Thread nD τ).loc b) := Gen.V1 m c (Proc.devRef .tc b)

/-- What region 0 leaves in the degree column: its write-backs folded over the column it found. -/
def o2 (c : Dev nD) : Buf (Elt F) ((c : Thread nD τ).loc main_v39) := (Deg.dat0 (E1 m) c).arrAt 1 cfg0.N

/-- The regions' results, before region 1's is known: the degree column only. -/
def outsA : Gen.Outs (F := F) := fun _ r c => Function.update (fun r => m ((c : Thread nD τ).loc r)) main_v39 (o2 m c) r

/-- What region 1 finds. -/
abbrev E3 (c : Dev nD) (b : Ref sig .tc) : Buf (Elt F) ((c : Thread nD τ).loc b) := Gen.V3 m (outsA m) c (Proc.devRef .tc b)

/-- What region 1 leaves in the result array. -/
def o4 (c : Dev nD) : Buf (Elt F) ((c : Thread nD τ).loc main_v41) := (Agg.dat1 (E3 m) c).arrAt 6 cfg1.N

/-- The regions' results. -/
def outsB : Gen.Outs (F := F) := fun _ r c =>
  Function.update (Function.update (fun r => m ((c : Thread nD τ).loc r)) main_v39 (o2 m c)) main_v41 (o4 m c) r

theorem outsA_v39 (J : ℕ) (c : Dev nD) : outsA m J main_v39 c = o2 m c := by
  unfold outsA; exact Function.update_self _ _ _
theorem outsB_v39 (J : ℕ) (c : Dev nD) : outsB m J main_v39 c = o2 m c := by
  have hne : (main_v39 : Ref sig .tc) ≠ main_v41 := by decide
  unfold outsB; rw [Function.update_of_ne hne]; exact Function.update_self _ _ _
theorem outsB_v41 (J : ℕ) (c : Dev nD) : outsB m J main_v41 c = o4 m c := by
  unfold outsB; exact Function.update_self _ _ _

/-- Only the degree column of the first region's result enters the second region's entry contents. -/
theorem V2_outs (c : Dev nD) : Gen.V2 m (outsB m) c = Gen.V2 m (outsA m) c := by
  unfold Gen.V2; rw [outsB_v39, outsA_v39]
theorem V3_outs (c : Dev nD) : Gen.V3 m (outsB m) c = Gen.V3 m (outsA m) c := by
  unfold Gen.V3; rw [V2_outs]

/-! ## The proof data family and the thread state -/

/-- Every pipeline's proof data, each at its region's entry contents. -/
def pdats : (p : Fin 2) → (c : Dev nD) → Dat τ (Elt F) Unit ℕ (UR sig nD τ) ℕ (Pipeline.pin (pcfgs (F := F)) Gen.adm p) c
  | ⟨0, _⟩ => fun c => Deg.dat0 (E1 m) c
  | ⟨1, _⟩ => fun c => Agg.dat1 (E3 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)

/-! ## Region 0 -/

/-- After region 0 each of its arrays holds what the pipeline leaves: the adjacency as found, the degree column at its
    folded write-backs. -/
theorem hF0 (c : Dev nD) (w : Fin cfg0.W) :
    (Deg.dat0 (E1 m) c).arrAt w cfg0.N = Gen.V2 m (outsB m) c (Proc.devRef .tc (Pipeline.arrRef spec0 w)) := by
  match w with
  | ⟨0, _⟩ =>
    refine ((Deg.dat0 (E1 m) c).arrAt_in 0 rfl _).trans ((Deg.A_eq0 (E1 m) c 0).trans ?_)
    exact (Gen.V2_of m (outsB m) c main_v38 (by decide)).symm
  | ⟨1, _⟩ =>
    show _ = Function.update (Gen.V1 m c) (Proc.devRef .tc main_v39) (outsB m 2 main_v39 c) (Proc.devRef .tc main_v39)
    rw [Function.update_self, outsB_v39]; rfl

theorem hrest0 (c : Dev nD) : ∀ b, b ∉ Finset.univ.image (Pipeline.arrRef spec0) →
    Gen.V2 m (outsB m) c (Proc.devRef .tc b) = Gen.V1 m c (Proc.devRef .tc b) := fun b hb =>
  Gen.V2_of m (outsB m) c b (by
    intro h
    rw [List.mem_singleton] at h
    exact hb (Finset.mem_image.mpr ⟨1, Finset.mem_univ _, h.symm⟩))

/-- The generator register and the scoped buffers no window stages make the class invariant, and come back out of it. -/
theorem phiA0_intro (c : Dev nD) :
    iprop((∃ r, prngReg c r) ∗ Pipeline.scopedRest (Ix := Unit) (Name := ℕ) (U := UR sig nD τ) (Lvl := ℕ) (Val := Elt F) spec0 c)
      ⊢ (Pipeline.ΦA spec0 c : sProp 𝕄) := by
  unfold Pipeline.ΦA
  iintro ⟨Hp, Hr⟩
  isplitl [Hr]; · iexact Hr
  iexact Hp
theorem phiA0_elim (c : Dev nD) :
    (Pipeline.ΦA spec0 c : sProp 𝕄)
      ⊢ iprop((∃ r, prngReg c r) ∗ Pipeline.scopedRest (Ix := Unit) (Name := ℕ) (U := UR sig nD τ) (Lvl := ℕ) (Val := Elt F) spec0 c) := by
  unfold Pipeline.ΦA
  iintro ⟨Hr, Hp⟩
  isplitl [Hp]; · iexact Hp
  iexact Hr

set_option backward.isDefEq.respectTransparency.types false in
/-- REGION 0 over the thread state: entered from every unscoped buffer at the contents the first host stretch leaves,
    left with the degree column at what the pipeline wrote back. Its arrays are split out of the unscoped buffers and
    put back at the exit contents; the generator register goes into the invariant and comes out; nothing is owed. -/
def reg0 : Pipeline.RegionSeg (pcfgs (F := F)) Gen.adm (pdats m) () defs₀ 𝒱₀ L lv 0 := by
  refine
    { win := launch0.win.to₀
      block_pos := launch0.block_pos
      stage_whole := launch0.stage_whole
      K := PEmpty
      osem := fun k => k.elim
      ho := Pipeline.OwnSemFacts.none _
      hbody := fun c => (Deg.body_obligation0 (E1 m) c).loose
      hwaits := Pipeline.hwaits_of_owed_zero _ _ _ _ L lv 0 fun _ _ => rfl
      pre := fun c => iprop(StableHlo.held (c : Thread nD τ) (Pipeline.ucRefs τ sig) (Gen.V1 m c) ∗ R c)
      post := fun c => iprop(StableHlo.held (c : Thread nD τ) (Pipeline.ucRefs τ sig) (Gen.V2 m (outsB m) c) ∗ R c)
      X := fun c => iprop(∃ r, prngReg c r)
      Y := fun c => iprop(∃ r, prngReg c r)
      Z := fun c => Pipeline.unscopedRest (Ix := Unit) (Name := ℕ) (U := UR sig nD τ) (Lvl := ℕ) spec0 c (E1 m c)
      hentry := ?hentry, hin := ?hin, hout := ?hout, hexit := ?hexit }
  case hentry =>
    intro c
    rw [Pipeline.ownSems0_none]
    have hsplit := Pipeline.arrays_of_unscopedBufs (p := 0) (pcfgs (F := F)) Gen.adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  case hin =>
    intro c
    rw [show (pdats m 0 c).Φ 0 = (Deg.dat0 (E1 m) c).Φ 0 from rfl]
    iintro ⟨Hp, -, Hr⟩
    iapply (Deg.hin0 (E1 m) c)
    iapply (phiA0_intro c)
    isplitl [Hp]; · iexact Hp
    iexact Hr
  case hout =>
    intro c
    rw [Pipeline.ownSems0_none, show (pdats m 0 c).Φ (Fin.last _) = (Deg.dat0 (E1 m) c).Φ (Fin.last cfg0.N) from rfl]
    iintro H
    ihave H' := (Deg.hout0 (E1 m) c) $$ H
    ihave H'' := (phiA0_elim c) $$ H'
    icases H'' with ⟨Hp, Hr⟩
    isplitl [Hp]; · iexact Hp
    isplitr; · iempintro
    iexact Hr
  case hexit =>
    intro c
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E1 m c) (fun b => Gen.V2 m (outsB m) c (Proc.devRef .tc b)) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1: one array behind two windows -/

/-- The pipeline's arrays, each a whole buffer held at its window's share. -/
theorem arrays1_eq (c : Dev nD) (G : (w : Fin cfg1.W) → Buf (Elt F) ((cfg1.win w).arr.view.loc (c.tc : Thread nD τ))) :
    (pdats m 1 c).arrays G
      = bigSep Finset.univ fun w : Fin 7 => (((c.tc : Thread nD τ).loc (Pipeline.arrRef spec1 w)) ↦{(pdats m 1 c).share w} G w : sProp 𝕄) := by
  have harr : ∀ w, ((Pipeline.pin (pcfgs (F := F)) Gen.adm 1).win w).arr.IsWhole := arr_whole1
  unfold Pipeline.Dat.arrays
  exact bigSep_congr fun w _ => by rw [(harr w).set_eq_univ]; rfl

/-- The distinct buffers behind region 1's seven windows: six, the degree column counted once. -/
theorem arrImage1 : Finset.univ.image (Pipeline.arrRef spec1)
    = insert (Pipeline.arrRef spec1 0) (insert (Pipeline.arrRef spec1 1) (insert (Pipeline.arrRef spec1 2)
        (insert (Pipeline.arrRef spec1 4) (insert (Pipeline.arrRef spec1 5) {Pipeline.arrRef spec1 6})))) := by decide

theorem arrBufs1_eq (c : Dev nD) (V : (b : Ref sig .tc) → Buf (Elt F) ((c.tc : Thread nD τ).loc b)) :
    (Pipeline.arrBufs spec1 c V : sProp 𝕄)
      = iprop((((c.tc : Thread nD τ).loc (Pipeline.arrRef spec1 0)) ↦{fullShare} V (Pipeline.arrRef spec1 0))
          ∗ (((c.tc : Thread nD τ).loc (Pipeline.arrRef spec1 1)) ↦{fullShare} V (Pipeline.arrRef spec1 1))
          ∗ (((c.tc : Thread nD τ).loc (Pipeline.arrRef spec1 2)) ↦{fullShare} V (Pipeline.arrRef spec1 2))
          ∗ (((c.tc : Thread nD τ).loc (Pipeline.arrRef spec1 4)) ↦{fullShare} V (Pipeline.arrRef spec1 4))
          ∗ (((c.tc : Thread nD τ).loc (Pipeline.arrRef spec1 5)) ↦{fullShare} V (Pipeline.arrRef spec1 5))
          ∗ (((c.tc : Thread nD τ).loc (Pipeline.arrRef spec1 6)) ↦{fullShare} V (Pipeline.arrRef spec1 6))) := by
  unfold Pipeline.arrBufs
  rw [arrImage1, bigSep_insert (by decide), bigSep_insert (by decide), bigSep_insert (by decide), bigSep_insert (by decide),
    bigSep_insert (by decide), bigSep_singleton]
  rfl

/-- ENTRY: the six buffers, each whole at the full share, are the seven windows' arrays — the degree column split in
    two halves, one for the window that reads it by column block and one for the window that reads it by row block. -/
theorem split1 (c : Dev nD) (V : (b : Ref sig .tc) → Buf (Elt F) ((c.tc : Thread nD τ).loc b)) :
    (Pipeline.arrBufs spec1 c V : sProp 𝕄) ⊢ (pdats m 1 c).arrays (fun w => V (Pipeline.arrRef spec1 w)) := by
  rw [arrays1_eq, Gen.bigSep_W1, arrBufs1_eq]
  rw [show (pdats m 1 c).share 0 = fullShare from rfl, show (pdats m 1 c).share 1 = fullShare from rfl,
    show (pdats m 1 c).share 2 = fullShare.left from rfl, show (pdats m 1 c).share 3 = fullShare.right from rfl,
    show (pdats m 1 c).share 4 = fullShare from rfl, show (pdats m 1 c).share 5 = fullShare from rfl,
    show (pdats m 1 c).share 6 = fullShare from rfl]
  have hhalves := (pointsTo_share (nD := nD) (τ := τ) (sig := sig) (Ix := Unit) (Val := Elt F) (Name := ℕ) (U := UR sig nD τ) (Lvl := ℕ)
    (ℓ := (c.tc : Thread nD τ).loc (Pipeline.arrRef spec1 2)) (I := Finset.univ) (f := V (Pipeline.arrRef spec1 2))
    (PosShare.mem_left_op_right fullShare)).1
  iintro ⟨H0, H1, H2, H4, H5, H6⟩
  ihave H2' := hhalves $$ H2
  icases H2' with ⟨HL, HR⟩
  isplitl [H0]; · iexact H0
  isplitl [H1]; · iexact H1
  isplitl [HL]; · iexact HL
  isplitl [HR]; · iexact HR
  isplitl [H4]; · iexact H4
  isplitl [H5]; · iexact H5
  iexact H6

/-- EXIT: the converse, the two halves of the degree column joined. -/
theorem join1 (c : Dev nD) (V : (b : Ref sig .tc) → Buf (Elt F) ((c.tc : Thread nD τ).loc b)) :
    (pdats m 1 c).arrays (fun w => V (Pipeline.arrRef spec1 w)) ⊢ (Pipeline.arrBufs spec1 c V : sProp 𝕄) := by
  rw [arrays1_eq, Gen.bigSep_W1, arrBufs1_eq]
  rw [show (pdats m 1 c).share 0 = fullShare from rfl, show (pdats m 1 c).share 1 = fullShare from rfl,
    show (pdats m 1 c).share 2 = fullShare.left from rfl, show (pdats m 1 c).share 3 = fullShare.right from rfl,
    show (pdats m 1 c).share 4 = fullShare from rfl, show (pdats m 1 c).share 5 = fullShare from rfl,
    show (pdats m 1 c).share 6 = fullShare from rfl]
  have hwhole := (pointsTo_share (nD := nD) (τ := τ) (sig := sig) (Ix := Unit) (Val := Elt F) (Name := ℕ) (U := UR sig nD τ) (Lvl := ℕ)
    (ℓ := (c.tc : Thread nD τ).loc (Pipeline.arrRef spec1 2)) (I := Finset.univ) (f := V (Pipeline.arrRef spec1 2))
    (PosShare.mem_left_op_right fullShare)).2
  iintro ⟨H0, H1, HL, HR, H4, H5, H6⟩
  isplitl [H0]; · iexact H0
  isplitl [H1]; · iexact H1
  isplitl [HL HR]
  · iapply hwhole
    isplitl [HL]; · iexact HL
    iexact HR
  isplitl [H4]; · iexact H4
  isplitl [H5]; · iexact H5
  iexact H6

/-- After region 1 each of its arrays holds what the pipeline leaves: every input as found, the result array at its
    folded write-backs. -/
theorem hF1 (c : Dev nD) (w : Fin cfg1.W) :
    (Agg.dat1 (E3 m) c).arrAt w cfg1.N = Gen.V4 m (outsB m) c (Proc.devRef .tc (Pipeline.arrRef spec1 w)) := by
  have hin : ∀ (w : Fin cfg1.W) (hw : (cfg1.win w).isOut = false) (hne : Pipeline.arrRef spec1 w ∉ ([main_v41] : List (Ref sig .tc))),
      (Agg.dat1 (E3 m) c).arrAt w cfg1.N = Gen.V4 m (outsB m) c (Proc.devRef .tc (Pipeline.arrRef spec1 w)) := fun w hw hne =>
    ((Agg.dat1 (E3 m) c).arrAt_in w hw _).trans ((Agg.A_eq1 (E3 m) c w).trans
      ((congrFun (V3_outs m c) _).symm.trans (Gen.V4_of m (outsB m) c _ hne).symm))
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ => exact hin 5 rfl (by decide)
  | ⟨6, _⟩ =>
    show _ = Function.update (Gen.V3 m (outsB m) c) (Proc.devRef .tc main_v41) (outsB m 4 main_v41 c) (Proc.devRef .tc main_v41)
    rw [Function.update_self, outsB_v41]; rfl

theorem hrest1 (c : Dev nD) : ∀ b, b ∉ Finset.univ.image (Pipeline.arrRef spec1) →
    Gen.V4 m (outsB m) c (Proc.devRef .tc b) = E3 m c b := fun b hb =>
  (Gen.V4_of m (outsB m) c b (by
    intro h
    rw [List.mem_singleton] at h
    exact hb (Finset.mem_image.mpr ⟨6, Finset.mem_univ _, h.symm⟩))).trans (congrFun (V3_outs m c) _)

theorem phiA1_intro (c : Dev nD) :
    iprop((∃ r, prngReg c r) ∗ Pipeline.scopedRest (Ix := Unit) (Name := ℕ) (U := UR sig nD τ) (Lvl := ℕ) (Val := Elt F) spec1 c)
      ⊢ (Pipeline.ΦA spec1 c : sProp 𝕄) := by
  unfold Pipeline.ΦA
  iintro ⟨Hp, Hr⟩
  isplitl [Hr]; · iexact Hr
  iexact Hp
theorem phiA1_elim (c : Dev nD) :
    (Pipeline.ΦA spec1 c : sProp 𝕄)
      ⊢ iprop((∃ r, prngReg c r) ∗ Pipeline.scopedRest (Ix := Unit) (Name := ℕ) (U := UR sig nD τ) (Lvl := ℕ) (Val := Elt F) spec1 c) := by
  unfold Pipeline.ΦA
  iintro ⟨Hr, Hp⟩
  isplitl [Hp]; · iexact Hp
  iexact Hr

set_option maxHeartbeats 2000000 in
set_option backward.isDefEq.respectTransparency.types false in
/-- REGION 1 over the thread state: entered from what the second host stretch leaves, left with the result array at what
    the pipeline wrote back. The six buffers behind its seven windows are taken out of the unscoped buffers, the degree
    column in two halves, and put back whole. -/
def reg1 : Pipeline.RegionSeg (pcfgs (F := F)) Gen.adm (pdats m) () defs₀ 𝒱₀ L lv 1 := by
  refine
    { win := winFacts₀1
      block_pos := block_pos1
      stage_whole := stage_whole1
      K := PEmpty
      osem := fun k => k.elim
      ho := Pipeline.OwnSemFacts.none _
      hbody := fun c => (Agg.body_obligation1 (E3 m) c).loose
      hwaits := Pipeline.hwaits_of_owed_zero _ _ _ _ L lv 1 fun _ _ => rfl
      pre := fun c => iprop(StableHlo.held (c : Thread nD τ) (Pipeline.ucRefs τ sig) (Gen.V3 m (outsB m) c) ∗ R c)
      post := fun c => iprop(StableHlo.held (c : Thread nD τ) (Pipeline.ucRefs τ sig) (Gen.V4 m (outsB m) c) ∗ R c)
      X := fun c => iprop(∃ r, prngReg c r)
      Y := fun c => iprop(∃ r, prngReg c r)
      Z := fun c => Pipeline.unscopedRest (Ix := Unit) (Name := ℕ) (U := UR sig nD τ) (Lvl := ℕ) spec1 c (E3 m c)
      hentry := ?hentry, hin := ?hin, hout := ?hout, hexit := ?hexit }
  case hentry =>
    intro c
    rw [Pipeline.ownSems0_none, V3_outs]
    have hs := Pipeline.unscopedBufs_split₀ (Ix := Unit) (Name := ℕ) (U := UR sig nD τ) (Lvl := ℕ)
      (Pipeline.pin (pcfgs (F := F)) Gen.adm) 1 winFacts₀1.arr_unscoped c (E3 m c)
    rw [Pipeline.unscopedBufs_held] at hs
    have hG : (fun w => E3 m c (Pipeline.arrRef spec1 w)) = fun w => (pdats m 1 c).arrAt w 0 :=
      funext fun w => (Agg.A_eq1 (E3 m) c w).symm
    have hsp : (Pipeline.arrBufs spec1 c (E3 m c) : sProp 𝕄) ⊢ (pdats m 1 c).arrays (fun w => (pdats m 1 c).arrAt w 0) :=
      Eq.subst (motive := fun G => (Pipeline.arrBufs spec1 c (E3 m c) : sProp 𝕄) ⊢ (pdats m 1 c).arrays G) hG (split1 m c (E3 m c))
    rw [hs]
    iintro ⟨⟨⟨Hab, Hrest⟩, Hp, HO⟩, -, -⟩
    ihave Ha := hsp $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  case hin =>
    intro c
    rw [show (pdats m 1 c).Φ 0 = (Agg.dat1 (E3 m) c).Φ 0 from rfl]
    iintro ⟨Hp, -, Hr⟩
    iapply (Agg.hin1 (E3 m) c)
    iapply (phiA1_intro c)
    isplitl [Hp]; · iexact Hp
    iexact Hr
  case hout =>
    intro c
    rw [Pipeline.ownSems0_none, show (pdats m 1 c).Φ (Fin.last _) = (Agg.dat1 (E3 m) c).Φ (Fin.last cfg1.N) from rfl]
    iintro H
    ihave H' := (Agg.hout1 (E3 m) c) $$ H
    ihave H'' := (phiA1_elim c) $$ H'
    icases H'' with ⟨Hp, Hr⟩
    isplitl [Hp]; · iexact Hp
    isplitr; · iempintro
    iexact Hr
  case hexit =>
    intro c
    have hs := Pipeline.unscopedBufs_split₀ (Ix := Unit) (Name := ℕ) (U := UR sig nD τ) (Lvl := ℕ)
      (Pipeline.pin (pcfgs (F := F)) Gen.adm) 1 winFacts₀1.arr_unscoped c (fun b => Gen.V4 m (outsB m) c (Proc.devRef .tc b))
    rw [Pipeline.unscopedBufs_held] at hs
    have hG : (fun w => Gen.V4 m (outsB m) c (Proc.devRef .tc (Pipeline.arrRef spec1 w))) = fun w => (pdats m 1 c).arrAt w cfg1.N :=
      funext fun w => (hF1 m c w).symm
    have hj : (pdats m 1 c).arrays (fun w => (pdats m 1 c).arrAt w cfg1.N)
        ⊢ (Pipeline.arrBufs spec1 c (fun b => Gen.V4 m (outsB m) c (Proc.devRef .tc b)) : sProp 𝕄) :=
      Eq.subst (motive := fun G => (pdats m 1 c).arrays G
        ⊢ (Pipeline.arrBufs spec1 c (fun b => Gen.V4 m (outsB m) c (Proc.devRef .tc b)) : sProp 𝕄)) hG
        (join1 m c (fun b => Gen.V4 m (outsB m) c (Proc.devRef .tc b)))
    have hr : (Pipeline.unscopedRest (Ix := Unit) (Name := ℕ) (U := UR sig nD τ) (Lvl := ℕ) spec1 c (E3 m c) : sProp 𝕄)
        = Pipeline.unscopedRest spec1 c (fun b => Gen.V4 m (outsB m) c (Proc.devRef .tc b)) := by
      unfold Pipeline.unscopedRest
      exact bigSep_congr fun b hb => congrArg (fun v => (((c.tc : Thread nD τ).loc b) ↦{fullShare} v : sProp 𝕄))
        (hrest1 m c b (Finset.mem_sdiff.mp hb).2).symm
    rw [hs]
    iintro ⟨Ha, HO, HY, Hrest⟩
    imodintro
    isplitl [Ha Hrest]
    · isplitl [Ha]
      · iapply hj; iexact Ha
      ihave Hrest' := (Entails.of_eq hr) $$ Hrest
      iexact Hrest'
    isplitl [HY]; · iexact HY
    unfold Pipeline.Dat.owesAt Pipeline.owesWithin
    icases HO with ⟨%W, -, HO⟩; iexists W; iexact HO

/-! ## The run -/

/-- The last item's state regrouped: the buffers and the generator register on one side, the dues on the other. -/
theorem post_regroup (c : Dev nD) :
    iprop(StableHlo.held (c : Thread nD τ) (Pipeline.ucRefs τ sig) (Gen.V4 m (outsB m) c) ∗ R c)
      ⊢ (iprop(iprop(StableHlo.held (c : Thread nD τ) (Pipeline.ucRefs τ sig) (Gen.V4 m (outsB m) c) ∗ ∃ r, prngReg c r)
          ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

/-- The rest riding beside the buffers is the same between any two items. -/
abbrev Ej : Fin 3 → Dev nD → sProp 𝕄 := fun _ c => R c

-- the launch theorem's implicit arguments are found by unifying its conclusion with this one, which takes unfolding
-- plain definitions in a metavariable's type
set_option backward.isDefEq.respectTransparency.types false in
/-- From any memory with zero counters every weakly fair execution of the program terminates, nothing faulting; the
    result array ends at what region 1's write-backs leave and every argument array as launched. -/
theorem run_main : θ_run defs (onTc (τ := τ) (main (F := F))) ⟨m, fun _ => 0, ρ⟩ (fun r => ∀ c : Dev nD,
      r.2.mem ((c.tc : Thread nD τ).loc main_v41) = o4 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) Gen.adm (pdats m) () cellOf_inj emb₁ defs₀ 𝒱₀ L lv m ρ main
    (Gen.segs m (outsB m) 𝒱₀ L lv Ej () (pdats m) (reg0 m) (reg1 m))
    (fun c Q => by
      rewrite [main_chain c, Pipeline.Seg.run_eq_chain,
        show (Gen.segs m (outsB m) 𝒱₀ L lv Ej () (pdats m) (reg0 m) (reg1 m) c).map Pipeline.Seg.prog = [
          StableHlo.seq hostOps0,
          Prog.lift (.customCall (Pipeline.entry 0) ()),
          StableHlo.seq hostOps1,
          Prog.lift (.customCall (Pipeline.entry 1) ()) ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (Gen.V4 m (outsB m) c) ∗ ∃ r, prngReg c r))
    (hch := fun c => ⟨.rfl, .rfl, .rfl, .rfl, post_regroup m c⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V4 m (outsB m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V4 m (outsB m) c) s')
      isplitl [Hh] <;> iassumption)
    (hQ := fun s h c =>
      have mem_uc : ∀ (b : Ref sig .tc), ¬ (Proc.devRef .tc b : DevRef τ sig).isScoped → Proc.devRef .tc b ∈ Pipeline.ucRefs τ sig :=
        fun b hb => Finset.mem_filter.mpr ⟨StableHlo.devRef_mem_tcRefs b, hb⟩
      ⟨(h c _ (mem_uc main_v41 (by decide))).trans ((Function.update_self _ _ _).trans (outsB_v41 m 4 c)),
        (h c _ (mem_uc main_arg0 (by decide))).trans (Gen.V4_main_arg0 m (outsB m) c),
        (h c _ (mem_uc main_arg1 (by decide))).trans (Gen.V4_main_arg1 m (outsB m) c),
        (h c _ (mem_uc main_arg2 (by decide))).trans (Gen.V4_main_arg2 m (outsB m) c),
        (h c _ (mem_uc main_arg3 (by decide))).trans (Gen.V4_main_arg3 m (outsB m) c)⟩)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_main m ρ)

end Cert.KernelIdeal.Run

end
-- ==== Proof.Spec.lean ====
import Mathlib
import Idealize.ShloMosaic.PureOps.Ideal
import Idealize.ShloMosaic.PureOps.Ideal.Laws
import Idealize.ShloMosaic.Lib.ValueIdx

/-!
The algebra behind the normalised aggregation  D^{-1/2} (A + I) D^{-1/2} X W + b.

One arrangement scales the features by the degree factor before the product with the
adjacency and scales the rows afterwards; the other scales the adjacency on both sides first.
On the extended reals multiplication does not distribute over sums at the infinities, so the
two arrangements are compared in the reals: every adjacency entry, every feature and every
degree factor is a real number, and there the law is distributivity.
-/

open Idealize.ShloMosaic
open scoped BigOperators

namespace Cert.Spec

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real entries is a real. -/
theorem sum_real {ι : Type*} (s : Finset ι) (f : ι → EReal) (h : ∀ i, ∃ a : ℝ, f i = (a : EReal)) :
    ∃ a : ℝ, ∑ i ∈ s, f i = (a : EReal) := by
  choose a ha using h
  exact ⟨∑ i ∈ s, a i, by rw [coe_sum]; exact Finset.sum_congr rfl fun i _ => ha i⟩

/-- A finite sum of nonnegative real entries is a nonnegative real. -/
theorem sum_nonneg_real {ι : Type*} (s : Finset ι) (f : ι → EReal)
    (h : ∀ i, ∃ a : ℝ, 0 ≤ a ∧ f i = (a : EReal)) :
    ∃ a : ℝ, 0 ≤ a ∧ ∑ i ∈ s, f i = (a : EReal) := by
  choose a ha0 ha using h
  exact ⟨∑ i ∈ s, a i, Finset.sum_nonneg fun i _ => ha0 i,
    by rw [coe_sum]; exact Finset.sum_congr rfl fun i _ => ha i⟩

/-- The inner law: scaling the features by d_k before the sum over k and the row by d_i after it
    is the sum of the doubly scaled adjacency against the features, when all entries are real. -/
theorem inner_law {n p : ℕ} (A : Fin n → Fin n → EReal) (x : Fin n → Fin p → EReal) (d : Fin n → EReal)
    (hA : ∀ i k, ∃ a : ℝ, A i k = (a : EReal)) (hx : ∀ k c, ∃ r : ℝ, x k c = (r : EReal))
    (hd : ∀ i, ∃ r : ℝ, d i = (r : EReal)) (i : Fin n) (c : Fin p) :
    (∑ k, A i k * (x k c * d k)) * d i = ∑ k, ((d i * A i k) * d k) * x k c := by
  choose a ha using hA
  choose r hr using hx
  choose e he using hd
  simp only [ha, hr, he, ← EReal.coe_mul, ← coe_sum]
  congr 1
  rw [Finset.sum_mul]
  refine Finset.sum_congr rfl fun k _ => ?_
  ring

/-- The same law over two different finite index types for rows and for the contracted axis. -/
theorem inner_law' {κ : Type*} [Fintype κ] (A : κ → EReal) (x : κ → EReal) (dk : κ → EReal) (di : EReal)
    (hA : ∀ k, ∃ a : ℝ, A k = (a : EReal)) (hx : ∀ k, ∃ r : ℝ, x k = (r : EReal))
    (hdk : ∀ k, ∃ r : ℝ, dk k = (r : EReal)) (hdi : ∃ r : ℝ, di = (r : EReal)) :
    (∑ k, A k * (x k * dk k)) * di = ∑ k, ((di * A k) * dk k) * x k := by
  choose a ha using hA
  choose r hr using hx
  choose e he using hdk
  obtain ⟨f, hf⟩ := hdi
  simp only [ha, hr, he, hf, ← EReal.coe_mul, ← coe_sum]
  congr 1
  rw [Finset.sum_mul]
  refine Finset.sum_congr rfl fun k _ => ?_
  ring

/-- The word 0x3F800000 is the real number one. -/
theorem one_word : Ideal.ofBits .f32 0x3F800000#32 = ((1 : ℝ) : EReal) := by
  simp [Ideal.ofBits, Ideal.ieee, -EReal.coe_mul]; norm_num

/-- The word 0x3727C5AC is a positive real. -/
theorem eps_word : ∃ e : ℝ, 0 < e ∧ Ideal.ofBits .f32 0x3727C5AC#32 = (e : EReal) := by
  refine ⟨_, ?_, by simp only [Ideal.ofBits, Ideal.ieee]; simp [-EReal.coe_mul]; rfl⟩
  positivity

/-- The degree factor 1 / sqrt (s + eps) of a nonnegative real row sum s is a real number. -/
theorem deg_real (s : ℝ) (hs : 0 ≤ s) :
    ∃ r : ℝ, Ideal.div (Ideal.ofBits .f32 0x3F800000#32)
      (Ideal.sqrt ((s : EReal) + Ideal.ofBits .f32 0x3727C5AC#32)) = (r : EReal) := by
  obtain ⟨e, he0, he⟩ := eps_word
  have hpos : 0 < s + e := by linarith
  have hsq : Real.sqrt (s + e) ≠ 0 := (Real.sqrt_pos.mpr hpos).ne'
  rw [he, ← EReal.coe_add, Ideal.sqrt_coe, if_neg (not_lt.mpr hpos.le), Ideal.div_coe hsq, one_word,
    ← EReal.coe_mul]
  exact ⟨_, rfl⟩

end Cert.Spec
-- ==== Proof.LibScatter.lean ====
import Mathlib
import Idealize.ShloMosaic.PureOps.Ideal
import Idealize.ShloMosaic.PureOps.Ideal.Laws
import Idealize.ShloMosaic.PureOps.Contract
import Idealize.ShloMosaic.Lib.ValueIdx

/-!
Two facts about the host's scatters.

A scatter whose body returns the update (an overwrite) is a left fold of pointwise overwrites:
every entry of its result is an entry of the operand or one of the updates, so a property that
all of those have is a property of every entry of the result.

An accumulating scatter, read on the extended reals, is the operand's entry plus the sum of the
updates that land on it; when exactly one update lands there the sum is that update, and when
none does it is zero.
-/

open Idealize.ShloMosaic
open scoped BigOperators

namespace Cert.ScatterFacts

/-- A property of the start value that every step preserves holds of a left fold. -/
theorem foldl_inv {β γ : Type*} (Q : β → Prop) (f : β → γ → β) (hf : ∀ b c, Q b → Q (f b c))
    (l : List γ) (b : β) (hb : Q b) : Q (l.foldl f b) := by
  induction l generalizing b with
  | nil => exact hb
  | cons c l ih => exact ih _ (hf b c hb)

/-- Every entry of an overwriting scatter has any property shared by the operand's entries and the updates. -/
theorem scatter_set_pred {α : Type} {s si u : Shape} {w : Nat} (d : ScatterDims s si u) (P : α → Prop)
    (x : s.Idx → α) (idx : IVec si w) (upd : u.Idx → α) (hx : ∀ i, P (x i)) (hu : ∀ j, P (upd j))
    (i : s.Idx) : P (Host.scatter d (fun _ b => b) x idx upd i) := by
  unfold Host.scatter
  refine foldl_inv (fun r : s.Idx → α => ∀ i, P (r i)) _ ?_ (List.finRange u.numel) x hx i
  intro r n hr i'
  generalize d.resultIdx? (u.rowMajor.symm n) idx = o
  cases o with
  | none => exact hr _
  | some i0 =>
    show P (if i' = i0 then upd (u.rowMajor.symm n) else r i')
    split_ifs
    · exact hu _
    · exact hr _

/-- An accumulating scatter on the extended reals: the operand's entry plus the sum of the updates landing on it. -/
theorem scatterAdd_apply {s si u : Shape} {φ : FTy} {w : Nat} (d : ScatterDims s si u) (x : FVec Ideal s φ)
    (idx : IVec si w) (upd : FVec Ideal u φ) (i : s.Idx) :
    Host.scatterAdd (F := Ideal) d x idx upd i
      = x i + ∑ j ∈ Finset.univ.filter (fun j => d.resultIdx? j idx = some i), upd j := rfl

/-- When exactly the update j0 lands on the entry i, the sum of the updates landing there is that update. -/
theorem sum_hits_single {s si u : Shape} {w : Nat} (d : ScatterDims s si u) (idx : IVec si w)
    (upd : u.Idx → EReal) (i : s.Idx) (j0 : u.Idx) (h : ∀ j, d.resultIdx? j idx = some i ↔ j = j0) :
    ∑ j ∈ Finset.univ.filter (fun j => d.resultIdx? j idx = some i), upd j = upd j0 := by
  have : Finset.univ.filter (fun j => d.resultIdx? j idx = some i) = {j0} := by
    ext j; simp [h]
  rw [this, Finset.sum_singleton]

/-- When no update lands on the entry i, the sum of the updates landing there is zero. -/
theorem sum_hits_none {s si u : Shape} {w : Nat} (d : ScatterDims s si u) (idx : IVec si w)
    (upd : u.Idx → EReal) (i : s.Idx) (h : ∀ j, d.resultIdx? j idx ≠ some i) :
    ∑ j ∈ Finset.univ.filter (fun j => d.resultIdx? j idx = some i), upd j = 0 := by
  have : Finset.univ.filter (fun j => d.resultIdx? j idx = some i) = ∅ := by
    ext j; simp [h]
  rw [this, Finset.sum_empty]

end Cert.ScatterFacts
-- ==== Proof.HostAdj.lean ====
import proofs.«107716_j57045755625628_1_alg».proof.Proof.Gen.KernelIdeal
import proofs.«107716_j57045755625628_1_alg».proof.Proof.Gen.ReferenceIdeal.Read
import proofs.«107716_j57045755625628_1_alg».proof.Proof.Spec
import proofs.«107716_j57045755625628_1_alg».proof.Proof.LibScatter
import Idealize.ShloMosaic.Lib.Pipeline.Value
import Idealize.ShloMosaic.Lib.ValueIdx

/-!
The adjacency matrix with self loops, as each of the two programs builds it from the edge list.

Both programs write a one at every listed pair (i, j) into a matrix of zeros and take the entrywise
maximum with the transpose: the symmetrised edge matrix, whose entries are 0 or 1. The kernel's
program then adds one on the diagonal by an accumulating scatter at the index pairs (n, n); the
reference adds the matrix of the condition "row = column". Both give the symmetrised matrix plus the
identity, entry by entry, so every entry is one of the real numbers 0, 1, 2.
-/

noncomputable section

open Idealize.ShloMosaic Idealize.ShloMosaic.ValueIdx
open scoped BigOperators

namespace Cert.HostAdj
open Cert.KernelIdeal Cert.KernelIdeal.Gen

/-! ## The symmetrised edge matrix -/

/-- The list of edges as index pairs: each endpoint, a negative one counted from the end. -/
def edgePairs (e : IVec S2x131072 32) : IVec S131072x2 32 :=
  have v0 : IVec S1x131072 32 := extractStridedSlice S1x131072 ![0, 0] e slices_S2x131072_S1x131072_0_0
  have v1 : IVec S131072 32 := shapeCast S131072 v0 shapeCasts_S1x131072_S131072
  have v2 : IVec S1x131072 32 := extractStridedSlice S1x131072 ![1, 0] e slices_S2x131072_S1x131072_1_0
  have v3 : IVec S131072 32 := shapeCast S131072 v2 shapeCasts_S1x131072_S131072
  have v5 : IVec S131072 32 := broadcastInDim S131072 ![] bcast_S_S131072 (constantI S_ 32 0#32)
  have v6 : IVec S131072 1 := cmpi .slt v1 v5
  have v7 : IVec S131072 32 := broadcastInDim S131072 ![] bcast_S_S131072 (constantI S_ 32 8192#32)
  have v8 : IVec S131072 32 := addi v1 v7
  have v9 : IVec S131072 32 := select v6 v8 v1
  have v10 : IVec S131072 32 := broadcastInDim S131072 ![] bcast_S_S131072 (constantI S_ 32 0#32)
  have v11 : IVec S131072 1 := cmpi .slt v3 v10
  have v12 : IVec S131072 32 := broadcastInDim S131072 ![] bcast_S_S131072 (constantI S_ 32 8192#32)
  have v13 : IVec S131072 32 := addi v3 v12
  have v14 : IVec S131072 32 := select v11 v13 v3
  have v15 : IVec S131072x1 32 := broadcastInDim S131072x1 ![0] bcast_S131072_S131072x1_0 v9
  have v16 : IVec S131072x1 32 := broadcastInDim S131072x1 ![0] bcast_S131072_S131072x1_0 v14
  concatenate S131072x2 1 [⟨S131072x1, v15⟩, ⟨S131072x1, v16⟩] concatenates_S131072x1_S131072x1_S131072x2_d1

/-- The edge matrix: zero everywhere, then one written at every listed pair. -/
def edgeMat (e : IVec S2x131072 32) : FVec Ideal S8192x8192 .f32 :=
  Host.scatter scatter_S8192x8192_S131072x2_S131072_n_01_01_1 (fun _ b => b)
    (broadcastInDim S8192x8192 ![] bcast_S_S8192x8192 (constant (F := Ideal) S_ .f32 0x00000000#32))
    (edgePairs e)
    (broadcastInDim S131072 ![] bcast_S_S131072 (constant (F := Ideal) S_ .f32 0x3F800000#32))

/-- The symmetrised edge matrix: the entrywise maximum of the edge matrix and its transpose. -/
def symAdj (e : IVec S2x131072 32) : FVec Ideal S8192x8192 .f32 :=
  maximumf (edgeMat e) (transpose S8192x8192 [1, 0] (edgeMat e) transposes_S8192x8192_S8192x8192_1_0)

/-- The reference program builds the same symmetrised edge matrix, by the same operations. -/
theorem symAdj_eq_ref (e : IVec S2x131072 32) :
    symAdj e = Cert.ReferenceIdeal.Read.val_main_v21 (F := Ideal) e := rfl

/-- Every entry of the edge matrix is 0 or 1. -/
theorem edgeMat_01 (e : IVec S2x131072 32) (i : S8192x8192.Idx) : edgeMat e i = 0 ∨ edgeMat e i = 1 := by
  unfold edgeMat
  refine Cert.ScatterFacts.scatter_set_pred _ (fun v : EReal => v = 0 ∨ v = 1) _ _ _ (fun _ => ?_) (fun _ => ?_) i
  · left
    show Ideal.ofBits .f32 0x00000000#32 = 0
    exact Ideal.ofBits_zero_f32
  · right
    show Ideal.ofBits .f32 0x3F800000#32 = 1
    rw [Cert.Spec.one_word, EReal.coe_one]

/-- The entrywise maximum of a matrix of zeros and ones with its transpose is a matrix of zeros and ones. -/
theorem max_transpose_01 (M : FVec Ideal S8192x8192 .f32) (hM : ∀ i, M i = 0 ∨ M i = 1) (i : S8192x8192.Idx) :
    maximumf M (transpose S8192x8192 [1, 0] M transposes_S8192x8192_S8192x8192_1_0) i = 0
      ∨ maximumf M (transpose S8192x8192 [1, 0] M transposes_S8192x8192_S8192x8192_1_0) i = 1 := by
  have ht : transpose S8192x8192 [1, 0] M transposes_S8192x8192_S8192x8192_1_0 i = M (ix2 (i 1) (i 0)) :=
    transpose_apply [1, 0] M transposes_S8192x8192_S8192x8192_1_0 i (ix2 (i 1) (i 0))
      (fun b => match b with | ⟨0, _⟩ => rfl | ⟨1, _⟩ => rfl)
  rw [maximumf_apply, ht]
  rcases hM i with h | h <;> rcases hM (ix2 (i 1) (i 0)) with h' | h' <;> rw [h, h'] <;> simp

/-- Every entry of the symmetrised edge matrix is 0 or 1. -/
theorem symAdj_01 (e : IVec S2x131072 32) (i : S8192x8192.Idx) : symAdj e i = 0 ∨ symAdj e i = 1 := by
  unfold symAdj
  exact max_transpose_01 (edgeMat e) (edgeMat_01 e) i

/-! ## The diagonal's index pairs -/

theorem toInt_ofNat_small (n : ℕ) (h : n < 8192) : (BitVec.ofNat 32 n).toInt = (n : Int) := by
  have h1 : (BitVec.ofNat 32 n).toNat = n := by
    rw [BitVec.toNat_ofNat]; omega
  rw [BitVec.toInt_eq_toNat_cond, h1]
  split <;> omega

/-- A row number below 8192 is not negative as a signed word, so counting it from the end leaves it. -/
theorem wrap_small (n : ℕ) (h : n < 8192) :
    Scalar.select (IntOp.cmpi .slt (BitVec.ofNat 32 n) 0#32) (IntOp.addi (BitVec.ofNat 32 n) 8192#32)
      (BitVec.ofNat 32 n) = BitVec.ofNat 32 n := by
  have hs : (BitVec.ofNat 32 n).slt 0#32 = false := by
    rw [BitVec.slt_eq_decide, toInt_ofNat_small n h]
    simp
  unfold Scalar.select IntOp.cmpi
  simp only [hs]
  rfl

/-- The index pairs (n, n), n = 0 … 8191, as the kernel's program builds them. -/
def diagPairs : IVec S8192x2 32 :=
  have v22 : IVec S8192 32 := iotaInDim S8192 32 0
  have v23 : IVec S8192 32 := broadcastInDim S8192 ![] bcast_S_S8192 (constantI S_ 32 0#32)
  have v24 : IVec S8192 1 := cmpi .slt v22 v23
  have v25 : IVec S8192 32 := broadcastInDim S8192 ![] bcast_S_S8192 (constantI S_ 32 8192#32)
  have v26 : IVec S8192 32 := addi v22 v25
  have v27 : IVec S8192 32 := select v24 v26 v22
  have v28 : IVec S8192 32 := broadcastInDim S8192 ![] bcast_S_S8192 (constantI S_ 32 0#32)
  have v29 : IVec S8192 1 := cmpi .slt v22 v28
  have v30 : IVec S8192 32 := broadcastInDim S8192 ![] bcast_S_S8192 (constantI S_ 32 8192#32)
  have v31 : IVec S8192 32 := addi v22 v30
  have v32 : IVec S8192 32 := select v29 v31 v22
  have v33 : IVec S8192x1 32 := broadcastInDim S8192x1 ![0] bcast_S8192_S8192x1_0 v27
  have v34 : IVec S8192x1 32 := broadcastInDim S8192x1 ![0] bcast_S8192_S8192x1_0 v32
  concatenate S8192x2 1 [⟨S8192x1, v33⟩, ⟨S8192x1, v34⟩] concatenates_S8192x1_S8192x1_S8192x2_d1

theorem wrapped_iota (n : Fin 8192) :
    (select (cmpi .slt (iotaInDim S8192 32 0) (broadcastInDim S8192 ![] bcast_S_S8192 (constantI S_ 32 0#32)))
      (addi (iotaInDim S8192 32 0) (broadcastInDim S8192 ![] bcast_S_S8192 (constantI S_ 32 8192#32)))
      (iotaInDim S8192 32 0) : IVec S8192 32) (ix1 n) = BitVec.ofNat 32 n.val :=
  wrap_small n.val n.isLt

/-- Row n of the diagonal's index pairs holds n in both columns. -/
theorem diagPairs_apply (n : Fin 8192) (a : Fin 2) : diagPairs (ix2 n a) = BitVec.ofNat 32 n.val := by
  unfold diagPairs
  match a with
  | ⟨0, _⟩ =>
    refine (concatenate_pair_apply_left (t := S8192x2) (s₁ := S8192x1) (s₂ := S8192x1) 1 _ _
      concatenates_S8192x1_S8192x1_S8192x2_d1 (ix2 n 0) rfl (ix2 n 0)
      (fun b => match b with | ⟨0, _⟩ => rfl | ⟨1, _⟩ => rfl)).trans ?_
    refine (broadcastInDim_apply ![0] bcast_S8192_S8192x1_0 _ (ix2 n 0) (ix1 n) (fun b => match b with
      | ⟨0, _⟩ => by show n.val = if (8192 : Nat) = 1 then 0 else n.val; rw [if_neg (by decide)])).trans ?_
    exact wrapped_iota n
  | ⟨1, _⟩ =>
    refine (concatenate_pair_apply_right (t := S8192x2) (s₁ := S8192x1) (s₂ := S8192x1) 1 _ _
      concatenates_S8192x1_S8192x1_S8192x2_d1 (ix2 n 1) rfl rfl (ix2 n 0)
      (fun b hb => match b with | ⟨0, _⟩ => rfl | ⟨1, _⟩ => absurd rfl hb) rfl).trans ?_
    refine (broadcastInDim_apply ![0] bcast_S8192_S8192x1_0 _ (ix2 n 0) (ix1 n) (fun b => match b with
      | ⟨0, _⟩ => by show n.val = if (8192 : Nat) = 1 then 0 else n.val; rw [if_neg (by decide)])).trans ?_
    exact wrapped_iota n

/-! ## Where the diagonal's updates land -/

theorem diag_siIdx (j : S8192.Idx) (c : Fin 2) :
    scatter_S8192x8192_S8192x2_S8192_n_01_01_1.siIdx j ⟨c.val, c.isLt⟩ = ix2 (j 0) c := by
  funext b
  match b with
  | ⟨0, _⟩ => rfl
  | ⟨1, _⟩ => rfl

theorem diag_start (j : S8192.Idx) (idx : IVec S8192x2 32) (a : Fin 2) :
    scatter_S8192x8192_S8192x2_S8192_n_01_01_1.start j idx a = (idx (ix2 (j 0) a)).toInt := by
  unfold ScatterDims.start
  match a with
  | ⟨0, _⟩ =>
    rw [dif_pos (by show (0 : Fin 2) ∈ ([0, 1] : List (Fin 2)); simp)]
    exact congrArg (fun t => (idx t).toInt) (diag_siIdx j 0)
  | ⟨1, _⟩ =>
    rw [dif_pos (by show (1 : Fin 2) ∈ ([0, 1] : List (Fin 2)); simp)]
    exact congrArg (fun t => (idx t).toInt) (diag_siIdx j 1)

theorem diag_window (j : S8192.Idx) (a : Fin 2) :
    scatter_S8192x8192_S8192x2_S8192_n_01_01_1.window j a = 0 := by
  unfold ScatterDims.window
  rw [dif_neg (by show a ∉ ([] : List (Fin 2)); simp)]

/-- Update j lands on the entry i exactly when the two words of its index pair are i's coordinates. -/
theorem diag_resultIdx (j : S8192.Idx) (idx : IVec S8192x2 32) (i : S8192x8192.Idx) :
    scatter_S8192x8192_S8192x2_S8192_n_01_01_1.resultIdx? j idx = some i
      ↔ ∀ a : Fin 2, (idx (ix2 (j 0) a)).toInt = ((i a).val : Int) := by
  unfold ScatterDims.resultIdx?
  split
  · rename_i h
    rw [Option.some.injEq]
    constructor
    · intro e a
      have ha := h a
      rw [diag_start, diag_window] at ha
      have hv := congrArg (fun f : S8192x8192.Idx => (f a).val) e
      dsimp only at hv
      rw [diag_start, diag_window] at hv
      omega
    · intro e
      funext a
      apply Fin.ext
      show (scatter_S8192x8192_S8192x2_S8192_n_01_01_1.start j idx a
        + ((scatter_S8192x8192_S8192x2_S8192_n_01_01_1.window j a : ℕ) : Int)).toNat = (i a).val
      rw [diag_start, diag_window, e a]
      omega
  · rename_i h
    constructor
    · intro e; cases e
    · intro e
      exfalso
      apply h
      intro a
      rw [diag_start, diag_window, e a]
      have := (i a).isLt
      omega

/-- With the diagonal's index pairs, update n lands on (r, k) exactly when n = r = k. -/
theorem diag_hits (n r k : Fin 8192) :
    scatter_S8192x8192_S8192x2_S8192_n_01_01_1.resultIdx? (ix1 n) diagPairs = some (ix2 r k)
      ↔ n.val = r.val ∧ n.val = k.val := by
  rw [diag_resultIdx]
  constructor
  · intro h
    have h0 : (diagPairs (ix2 n 0)).toInt = (r.val : Int) := h 0
    have h1 : (diagPairs (ix2 n 1)).toInt = (k.val : Int) := h 1
    rw [diagPairs_apply, toInt_ofNat_small _ n.isLt] at h0 h1
    exact ⟨by exact_mod_cast h0, by exact_mod_cast h1⟩
  · rintro ⟨h0, h1⟩ a
    match a with
    | ⟨0, _⟩ =>
      show (diagPairs (ix2 n 0)).toInt = (r.val : Int)
      rw [diagPairs_apply, toInt_ofNat_small _ n.isLt]
      exact_mod_cast h0
    | ⟨1, _⟩ =>
      show (diagPairs (ix2 n 1)).toInt = (k.val : Int)
      rw [diagPairs_apply, toInt_ofNat_small _ n.isLt]
      exact_mod_cast h1

/-! ## The adjacency with self loops, on both sides -/

/-- The kernel's program: one added on the diagonal by an accumulating scatter, then the change of
    format (the identity on the extended reals). -/
def kAdj (e : IVec S2x131072 32) : FVec Ideal S8192x8192 .bf16 :=
  truncf .bf16 (Host.scatterAdd scatter_S8192x8192_S8192x2_S8192_n_01_01_1 (symAdj e) diagPairs
    (broadcastInDim S8192 ![] bcast_S_S8192 (constant (F := Ideal) S_ .f32 0x3F800000#32))) bitsLt_bf16_f32

/-- Adding one at the index pairs (n, n) by the accumulating scatter adds one on the diagonal. -/
theorem diagAdd_apply (M : FVec Ideal S8192x8192 .f32) (r k : Fin 8192) :
    (truncf .bf16 (Host.scatterAdd scatter_S8192x8192_S8192x2_S8192_n_01_01_1 M diagPairs
      (broadcastInDim S8192 ![] bcast_S_S8192 (constant (F := Ideal) S_ .f32 0x3F800000#32))) bitsLt_bf16_f32
        : FVec Ideal S8192x8192 .bf16) (ix2 r k)
      = M (ix2 r k) + (if r = k then 1 else 0) := by
  rw [truncf_apply, Cert.ScatterFacts.scatterAdd_apply]
  refine congrArg (M (ix2 r k) + ·) ?_
  by_cases hrk : r = k
  · rw [if_pos hrk]
    rw [Cert.ScatterFacts.sum_hits_single _ _ _ _ (ix1 r) (fun j => by
      obtain ⟨n, rfl⟩ : ∃ n : Fin 8192, j = ix1 n := ⟨j 0, eq_ix1 j⟩
      rw [diag_hits]
      constructor
      · rintro ⟨h0, _⟩
        exact congrArg ix1 (Fin.ext h0)
      · intro hj
        have hn : n = r := congrFun hj 0
        subst hn
        exact ⟨rfl, congrArg Fin.val hrk⟩)]
    show Ideal.ofBits .f32 0x3F800000#32 = 1
    rw [Cert.Spec.one_word, EReal.coe_one]
  · rw [if_neg hrk]
    exact Cert.ScatterFacts.sum_hits_none _ _ _ _ (fun j hj => by
      obtain ⟨n, rfl⟩ : ∃ n : Fin 8192, j = ix1 n := ⟨j 0, eq_ix1 j⟩
      rw [diag_hits] at hj
      exact hrk (Fin.ext (hj.1.symm.trans hj.2)))

/-- The kernel's adjacency entry: the symmetrised entry, plus one on the diagonal. -/
theorem kAdj_apply (e : IVec S2x131072 32) (r k : Fin 8192) :
    kAdj e (ix2 r k) = symAdj e (ix2 r k) + (if r = k then 1 else 0) := by
  unfold kAdj
  exact diagAdd_apply (symAdj e) r k

/-- The condition "row = column" as a number: one on the diagonal, zero off it. -/
theorem eye_apply (r k : Fin 8192) :
    Cert.ReferenceIdeal.Read.val_main_v27 (F := Ideal) (ix2 r k) = (if r = k then 1 else 0) := by
  show (((IntOp.cmpi .eq (IntOp.addi (BitVec.ofNat 32 r.val) 0#32) (BitVec.ofNat 32 k.val)).toNat : ℝ) : EReal) = _
  have hr : r.val < 8192 := r.isLt
  have hk : k.val < 8192 := k.isLt
  have hadd : IntOp.addi (BitVec.ofNat 32 r.val) 0#32 = BitVec.ofNat 32 r.val := by
    unfold IntOp.addi; simp
  rw [hadd]
  unfold IntOp.cmpi
  by_cases hrk : r = k
  · subst hrk
    simp
  · rw [if_neg hrk]
    have hne : (BitVec.ofNat 32 r.val == BitVec.ofNat 32 k.val) = false := by
      rw [beq_eq_false_iff_ne]
      intro h
      have := congrArg BitVec.toNat h
      rw [BitVec.toNat_ofNat, BitVec.toNat_ofNat] at this
      exact hrk (Fin.ext (by omega))
    simp [hne]

/-- The reference's adjacency entry: the symmetrised entry, plus one on the diagonal. -/
theorem rAdj_apply (e : IVec S2x131072 32) (r k : Fin 8192) :
    Cert.ReferenceIdeal.Read.val_main_v28 (F := Ideal) e (ix2 r k)
      = Cert.ReferenceIdeal.Read.val_main_v21 (F := Ideal) e (ix2 r k) + (if r = k then 1 else 0) := by
  unfold Cert.ReferenceIdeal.Read.val_main_v28
  generalize Cert.ReferenceIdeal.Read.val_main_v21 (F := Ideal) e = M
  rw [addf_apply, eye_apply]

/-- The two programs' adjacency matrices are equal. -/
theorem kAdj_eq_ref (e : IVec S2x131072 32) :
    (kAdj e : S8192x8192.Idx → EReal) = Cert.ReferenceIdeal.Read.val_main_v28 (F := Ideal) e := by
  funext i
  obtain ⟨r, k, rfl⟩ : ∃ (r k : Fin 8192), i = ix2 r k := ⟨i 0, i 1, eq_ix2 i⟩
  rw [kAdj_apply, rAdj_apply, symAdj_eq_ref]

/-- Every entry of the adjacency with self loops is a nonnegative real. -/
theorem kAdj_real (e : IVec S2x131072 32) (i : S8192x8192.Idx) : ∃ a : ℝ, 0 ≤ a ∧ kAdj e i = (a : EReal) := by
  obtain ⟨r, k, rfl⟩ : ∃ (r k : Fin 8192), i = ix2 r k := ⟨i 0, i 1, eq_ix2 i⟩
  rw [kAdj_apply]
  rcases symAdj_01 e (ix2 r k) with h | h <;> rw [h] <;> by_cases hrk : r = k
  · exact ⟨1, by norm_num, by rw [if_pos hrk]; simp⟩
  · exact ⟨0, le_refl _, by rw [if_neg hrk]; simp⟩
  · exact ⟨2, by norm_num, by rw [if_pos hrk, ← EReal.coe_one, ← EReal.coe_add]; norm_num⟩
  · exact ⟨1, by norm_num, by rw [if_neg hrk]; simp⟩

end Cert.HostAdj
-- ==== Proof.KIHost.lean ====
/- What the kernel program's host operations compute, read off the launch memory: the adjacency the regions stream
   (the edge list scattered into a zero matrix, symmetrised, one added on the diagonal, recast to the narrow format),
   and the bias recast as one row. -/
import proofs.«107716_j57045755625628_1_alg».proof.Proof.Gen.KernelIdeal.Regions
import proofs.«107716_j57045755625628_1_alg».proof.Proof.HostAdj
import Idealize.ShloMosaic.Lib.StableHlo.Run

noncomputable section

namespace Cert.KernelIdeal.HostRead

open Idealize.ShloMosaic Idealize.ShloMosaic.TcCoe
open Idealize.SL Idealize.SL.Sem
open Cert.KernelIdeal Cert.KernelIdeal.Gen

variable (m : (ℓ : Loc nD τ sig) → Buf (Elt Ideal) ℓ)

/-- The adjacency region 0 streams is the host chain's matrix of the edge list. -/
theorem adj_read (c : Dev nD) :
    Gen.V1 (F := Ideal) m c (Proc.devRef .tc main_v38)
      = Cert.HostAdj.kAdj (m ((c : Thread nD τ).loc main_arg1)) := by
  dsimp only [Gen.V1, Gen.V0, hostOps0]
  after_results_simp
  rfl

/-- The bias row region 1 reads is the bias vector recast as one row. -/
theorem bias_read (outs : Gen.Outs (F := Ideal)) (c : Dev nD) :
    Gen.V3 (F := Ideal) m outs c (Proc.devRef .tc main_v40)
      = shapeCast S1x128 (Gen.V2 (F := Ideal) m outs c (Proc.devRef .tc main_arg3)) shapeCasts_S128_S1x128 := by
  dsimp only [Gen.V3, hostOps1]
  after_results_simp
  rfl

end Cert.KernelIdeal.HostRead

end
-- ==== Proof.DegPieces.lean ====
import proofs.«107716_j57045755625628_1_alg».proof.Proof.DegFrame
import Idealize.ShloMosaic.Lib.Pipeline.Value

set_option maxRecDepth 16384

noncomputable section

namespace Cert.KernelIdeal.Deg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What each situation of the degree kernel leaves, as values

The stores found by the three runs, read back: after the first column block of a row the accumulator holds
the block's row sums added to the cleared column; after any later column block it holds the block's row sums
added to what it held; and the output block stored at the end of a row is `1 / sqrt (sums + eps)`. -/

theorem origin2 : (![0, 0] : Fin 2 → Nat) = fun _ => 0 := funext fun a => by fin_cases a <;> rfl

/-- After a middle column block the accumulator holds the previous column plus the block's row sums. -/
theorem rowMid_acc_eq (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hs : ¬ atRowStart i) (he : ¬ atRowEnd i)
    (x0 : Vec F S2048x2048 .bf16) (xs : Vec F S2048x1 .f32) :
    rowMid_acc c i arg2 harg2 arg3 harg3 arg4 harg4 hs he x0 xs = k0_pay2 xs x0 := by
  unfold rowMid_acc
  rw [View.read_writes_eq_canon _ _ _ (rowMid_acc_cover c i arg2 harg2 arg3 harg3 arg4 harg4 hs he x0 xs)]
  unfold runRowMid
  dsimp only
  sl_unfold_words
  rw [View.canon_unit_zero (S := S2048x1) origin2]
  simp only [View.readAt_eq_ld, harg2.read_unread, harg4.read_unread, View.ld_unit_zero (S := S2048x1) origin2, View.ld_unit_zero (S := S2048x2048) origin2]

/-- After the last column block the accumulator holds the previous column plus the block's row sums, -/
theorem rowEnd_acc_eq (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hs : ¬ atRowStart i) (he : atRowEnd i)
    (x0 : Vec F S2048x2048 .bf16) (xs : Vec F S2048x1 .f32) :
    rowEnd_acc c i arg2 harg2 arg3 harg3 arg4 harg4 hs he x0 xs = k0_pay2 xs x0 := by
  unfold rowEnd_acc
  rw [View.read_writes_eq_canon _ _ _ (rowEnd_acc_cover c i arg2 harg2 arg3 harg3 arg4 harg4 hs he x0 xs)]
  unfold runRowEnd
  dsimp only
  sl_unfold_words
  rw [View.canon_unit_zero (S := S2048x1) origin2]
  simp only [View.readAt_eq_ld, harg2.read_unread, harg4.read_unread, View.ld_unit_zero (S := S2048x1) origin2, View.ld_unit_zero (S := S2048x2048) origin2]

/-- and the output block is the final payload of that finished column. -/
theorem rowEnd_out_eq (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hs : ¬ atRowStart i) (he : atRowEnd i)
    (x0 : Vec F S2048x2048 .bf16) (xs : Vec F S2048x1 .f32) :
    rowEnd_out c i arg2 harg2 arg3 harg3 arg4 harg4 hs he x0 xs = k0_pay3 (k0_pay2 xs x0) := by
  unfold rowEnd_out
  rw [View.read_writes_eq_canon _ _ _ (rowEnd_out_cover c i arg2 harg2 arg3 harg3 arg4 harg4 hs he x0 xs)]
  unfold runRowEnd
  dsimp only
  sl_unfold_words
  rw [View.canon_unit_zero (S := S2048x1) origin2, View.readCov_unit_zero (S := S2048x1) _ origin2]
  simp only [View.readAt_eq_ld, harg2.read_unread, harg4.read_unread, View.ld_unit_zero (S := S2048x1) origin2, View.ld_unit_zero (S := S2048x2048) origin2]

/-- After the first column block of a row the accumulator holds the cleared column plus the block's row sums. -/
theorem rowStart_acc_eq (c : Dev nD) (i : grid0.Coords) (arg2 : Memref sig .tc .vmem S2048x2048 .bf16) (harg2 : arg2.IsWhole) (arg3 : Memref sig .tc .vmem S2048x1 .f32) (harg3 : arg3.IsWhole) (arg4 : Memref sig .tc .vmem S2048x1 .f32) (harg4 : arg4.IsWhole) (hs : atRowStart i) (he : ¬ atRowEnd i)
    (x0 : Vec F S2048x2048 .bf16) :
    rowStart_acc c i arg2 harg2 arg3 harg3 arg4 harg4 hs he x0 = k0_pay2 (k0_pay1 (F := F)) x0 := by
  unfold rowStart_acc
  rw [View.read_writes_eq_canon _ _ _ (rowStart_acc_cover c i arg2 harg2 arg3 harg3 arg4 harg4 hs he x0)]
  unfold runRowStart
  dsimp only
  sl_unfold_words
  rw [View.canon_cons_unit_zero (S := S2048x1) origin2, View.readCov_unit_zero (S := S2048x1) _ origin2]
  simp only [View.readAt_eq_ld, harg2.read_unread, View.ld_unit_zero (S := S2048x1) origin2, View.ld_unit_zero (S := S2048x2048) origin2]

end Cert.KernelIdeal.Deg

end
-- ==== Proof.DegRows.lean ====
import proofs.«107716_j57045755625628_1_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.DegValue

open Cert.KernelIdeal Cert.KernelIdeal.Gen
open Idealize.ShloMosaic Idealize.ShloMosaic.TcCoe Idealize.ShloMosaic.ValueIdx Idealize.SL.Sem

/-! # The degree column as one function of the adjacency array

Row `R` of the result is `1 / sqrt (d R + eps)` where `d R` is the sum of row `R` of the adjacency array over all
8192 columns. The kernel reaches that sum in four steps of 2048 columns each, starting from zero; over the
extended reals addition is commutative and associative without any finiteness assumption, so the four partial
sums, added in order to zero, are the sum over all columns. -/

/-- One row of the result: the reciprocal square root of the row's sum plus the kernel's epsilon (both float
    literals are kept as their words). -/
def rowVal (A : S8192x8192.Idx → EReal) (R : Fin 8192) : EReal :=
  Ideal.div (Ideal.ofBits .f32 0x3F800000#32) (Ideal.sqrt ((∑ k : Fin 8192, A (ix2 R k)) + Ideal.ofBits .f32 0x3727C5AC#32))

/-- The degree column `d^(-1/2)` of an adjacency array, index by index. -/
def degSpec (A : S8192x8192.Idx → EReal) : S8192x1.Idx → EReal := fun i => rowVal A (i 0)

/-! ## The three payloads read at an index -/

/-- The cleared column reads the zero word everywhere. -/
theorem pay1_apply (y : S2048x1.Idx) : k0_pay1 (F := Ideal) y = Ideal.ofBits .f32 0x00000000#32 :=
  congrFun (shapeCast_self (broadcast S2048x1 (Scalar.ofBits (F := Ideal) .f32 0x00000000#32)) shapeCasts_S2048x1_S2048x1) y

/-- The row sums of a 2048 x 2048 block, kept as a column: at row `r` the sum of the block's row `r`. -/
theorem rowsum_apply (v : FVec Ideal S2048x2048 .f32) (r : Fin 2048) (u : Fin 1) :
    shapeCast S2048x1 (multiReduction (F := Ideal) .add [1] S2048 v 0x00000000#32 reduces_S2048x2048_S2048 (.inl rfl) rfl) shapeCasts_S2048_S2048x1 (ix2 r u)
      = ∑ q : Fin 2048, v (ix2 r q) := by
  have hu : u.val = 0 := by have := u.isLt; omega
  refine (shapeCast_apply _ _ (ix2 r u) (ix1 r) ?_).trans ?_
  · rw [Shape.rowMajor_val_one, Shape.rowMajor_val_two]
    show r.val = r.val * 1 + u.val
    omega
  · refine (Ideal.multiReduction_add_single v _ reduces_S2048x2048_S2048 (.inl rfl) rfl (ix1 r)).trans ?_
    refine Finset.sum_congr rfl fun q _ => congrArg v ?_
    funext a
    match a with
    | ⟨0, _⟩ => rfl
    | ⟨1, _⟩ => rfl

/-- The accumulating payload: the previous column plus the block's row sums. -/
theorem pay2_apply (xs : S2048x1.Idx → EReal) (x0 : S2048x2048.Idx → EReal) (r : Fin 2048) (u : Fin 1) :
    k0_pay2 (F := Ideal) xs x0 (ix2 r u) = xs (ix2 r u) + ∑ q : Fin 2048, x0 (ix2 r q) := by
  unfold k0_pay2
  refine (congrFun (shapeCast_self _ _) (ix2 r u)).trans ?_
  refine congrArg (fun z : EReal => xs (ix2 r u) + z) ?_
  refine (rowsum_apply (extf .f32 (shapeCast S2048x2048 x0 shapeCasts_S2048x2048_S2048x2048) bitsLt_bf16_f32) r u).trans ?_
  refine Finset.sum_congr rfl fun q _ => ?_
  exact congrFun (shapeCast_self x0 shapeCasts_S2048x2048_S2048x2048) (ix2 r q)

/-- The final payload: one over the square root of the column plus epsilon, entry by entry. -/
theorem pay3_apply (v : S2048x1.Idx → EReal) (y : S2048x1.Idx) :
    k0_pay3 (F := Ideal) v y = Ideal.div (Ideal.ofBits .f32 0x3F800000#32) (Ideal.sqrt (v y + Ideal.ofBits .f32 0x3727C5AC#32)) := rfl

/-! ## Four runs of 2048 columns make the 8192 columns -/

/-- A sum over the 8192 columns, split into its four consecutive runs of 2048 and added in order to zero. -/
theorem sum_cols (g : ℕ → EReal) :
    ∑ k : Fin 8192, g k.val
      = (((0 + ∑ q : Fin 2048, g (2048 * 0 + q.val)) + ∑ q : Fin 2048, g (2048 * 1 + q.val)) + ∑ q : Fin 2048, g (2048 * 2 + q.val))
          + ∑ q : Fin 2048, g (2048 * 3 + q.val) := by
  have e : ∑ k : Fin (4 * 2048), g k.val = ∑ i : Fin 4, ∑ q : Fin 2048, g (2048 * i.val + q.val) := by
    rw [← Equiv.sum_comp finProdFinEquiv, Fintype.sum_prod_type]
    refine Finset.sum_congr rfl fun i _ => Finset.sum_congr rfl fun q _ => ?_
    rw [finProdFinEquiv_apply_val]
    show g (q.val + 2048 * i.val) = g (2048 * i.val + q.val)
    rw [Nat.add_comm]
  rw [show (∑ k : Fin 8192, g k.val) = ∑ k : Fin (4 * 2048), g k.val from rfl, e, Fin.sum_univ_four, zero_add]
  rfl

/-- Row `R` of `A` as a function of the column number (zero beyond the last column). -/
def rowFn (A : S8192x8192.Idx → EReal) (R : Fin 8192) (n : ℕ) : EReal := if h : n < 8192 then A (ix2 R ⟨n, h⟩) else 0
theorem rowFn_val (A : S8192x8192.Idx → EReal) (R : Fin 8192) (k : Fin 8192) : rowFn A R k.val = A (ix2 R k) := by
  unfold rowFn; rw [dif_pos k.isLt]
theorem rowFn_lt (A : S8192x8192.Idx → EReal) (R : Fin 8192) (n : ℕ) (h : n < 8192) : rowFn A R n = A (ix2 R ⟨n, h⟩) := by
  unfold rowFn; rw [dif_pos h]

/-- THE ROW. Four blocks that are the four consecutive column runs of row `R` of `A`, accumulated from the cleared
    column and finished by the final payload, give row `R` of the degree column. -/
theorem row_value (A : S8192x8192.Idx → EReal) (R : Fin 8192) (b0 b1 b2 b3 : S2048x2048.Idx → EReal) (r : Fin 2048) (u : Fin 1)
    (h0 : ∀ q : Fin 2048, b0 (ix2 r q) = A (ix2 R ⟨2048 * 0 + q.val, by have := q.isLt; omega⟩))
    (h1 : ∀ q : Fin 2048, b1 (ix2 r q) = A (ix2 R ⟨2048 * 1 + q.val, by have := q.isLt; omega⟩))
    (h2 : ∀ q : Fin 2048, b2 (ix2 r q) = A (ix2 R ⟨2048 * 2 + q.val, by have := q.isLt; omega⟩))
    (h3 : ∀ q : Fin 2048, b3 (ix2 r q) = A (ix2 R ⟨2048 * 3 + q.val, by have := q.isLt; omega⟩)) :
    k0_pay3 (F := Ideal) (k0_pay2 (F := Ideal) (k0_pay2 (F := Ideal) (k0_pay2 (F := Ideal) (k0_pay2 (F := Ideal) (k0_pay1 (F := Ideal)) b0) b1) b2) b3) (ix2 r u) = rowVal A R := by
  refine (pay3_apply _ _).trans ?_
  unfold rowVal
  refine congrArg (fun z : EReal => Ideal.div (Ideal.ofBits .f32 0x3F800000#32) (Ideal.sqrt (z + Ideal.ofBits .f32 0x3727C5AC#32))) ?_
  rw [pay2_apply, pay2_apply, pay2_apply, pay2_apply, pay1_apply, Ideal.ofBits_zero_f32]
  have hb : ∀ (j : ℕ) (hj : j < 4) (q : Fin 2048), A (ix2 R ⟨2048 * j + q.val, by have := q.isLt; omega⟩) = rowFn A R (2048 * j + q.val) :=
    fun j hj q => (rowFn_lt A R _ _).symm
  rw [Finset.sum_congr rfl fun q _ => (h0 q).trans (hb 0 (by omega) q), Finset.sum_congr rfl fun q _ => (h1 q).trans (hb 1 (by omega) q),
    Finset.sum_congr rfl fun q _ => (h2 q).trans (hb 2 (by omega) q), Finset.sum_congr rfl fun q _ => (h3 q).trans (hb 3 (by omega) q),
    Finset.sum_congr rfl fun k _ => (rowFn_val A R k).symm]
  exact (sum_cols (rowFn A R)).symm

end Cert.KernelIdeal.DegValue

end
-- ==== Proof.DegValue.lean ====
import proofs.«107716_j57045755625628_1_alg».proof.Proof.DegPieces
import proofs.«107716_j57045755625628_1_alg».proof.Proof.DegRows

set_option maxRecDepth 16384

noncomputable section

open scoped BigOperators

namespace Cert.KernelIdeal.DegValue

open Cert.KernelIdeal Cert.KernelIdeal.Gen
open Idealize.ShloMosaic Idealize.ShloMosaic.TcCoe Idealize.ShloMosaic.ValueIdx Idealize.SL.Sem
open Cert.KernelIdeal.Deg
open Idealize.ShloMosaic.Pipeline (Dat)

/-! # What the degree kernel leaves in its result array

At the ideal values: after the whole grid, the result array of the degree kernel is the degree column
`degSpec` of the adjacency array the region found. Row block `b` of the result is written back once, at the last
column block of row block `b` (grid position `4 b + 3`), and what is written there is the finished accumulation
of the four column blocks of that row block. -/

variable (V : (c : Dev nD) → (b : Ref sig .tc) → Buf (Elt Ideal) ((c : Thread nD τ).loc b))

/-! ## The accumulator and the output block, point by point -/

theorem startAcc_eq (c : Dev nD) (t : Fin cfg0.N) (h0 : t.val % 4 = 0) :
    startAcc V c t h0 = k0_pay2 (F := Ideal) (k0_pay1 (F := Ideal)) (iblk0 V c 0 t) := by
  unfold startAcc
  exact rowStart_acc_eq (F := Ideal) c (grid0.coords t) (adjM t) (adjW t) (outM t) (outW t) accM (Memref.isWhole_whole _) ((atRowStart_iff t).mpr h0) (notEnd_of_start t h0) (iblk0 V c 0 t)

theorem midAcc_eq (c : Dev nD) (t : Fin cfg0.N) (h0 : ¬ t.val % 4 = 0) (h3 : ¬ t.val % 4 = 3) (xs : Vec Ideal S2048x1 .f32) :
    midAcc V c t h0 h3 xs = k0_pay2 (F := Ideal) xs (iblk0 V c 0 t) := by
  unfold midAcc
  exact rowMid_acc_eq (F := Ideal) c (grid0.coords t) (adjM t) (adjW t) (outM t) (outW t) accM (Memref.isWhole_whole _) (fun h => h0 ((atRowStart_iff t).mp h)) (fun h => h3 ((atRowEnd_iff t).mp h)) (iblk0 V c 0 t) xs

theorem endOut_eq (c : Dev nD) (t : Fin cfg0.N) (h0 : ¬ t.val % 4 = 0) (h3 : t.val % 4 = 3) (xs : Vec Ideal S2048x1 .f32) :
    endOut V c t h0 h3 xs = k0_pay3 (F := Ideal) (k0_pay2 (F := Ideal) xs (iblk0 V c 0 t)) := by
  unfold endOut
  exact rowEnd_out_eq (F := Ideal) c (grid0.coords t) (adjM t) (adjW t) (outM t) (outW t) accM (Memref.isWhole_whole _) (fun h => h0 ((atRowStart_iff t).mp h)) ((atRowEnd_iff t).mpr h3) (iblk0 V c 0 t) xs

/-- After a point at the start of a row the accumulator holds the cleared column plus the block's row sums. -/
theorem acc_start (c : Dev nD) (n : ℕ) (hn : n < cfg0.N) (h0 : n % 4 = 0) :
    (outsAt0 V c n hn).2 = k0_pay2 (F := Ideal) (k0_pay1 (F := Ideal)) (iblk0 V c 0 ⟨n, hn⟩) := by
  rw [outsAt0_start V c ⟨n, hn⟩ h0]
  dsimp only
  exact startAcc_eq V c ⟨n, hn⟩ h0

/-- After a point in the middle of a row it holds what it held plus the block's row sums. -/
theorem acc_mid (c : Dev nD) (n : ℕ) (hn : n + 1 < cfg0.N) (h0 : ¬ (n + 1) % 4 = 0) (h3 : ¬ (n + 1) % 4 = 3) :
    (outsAt0 V c (n + 1) hn).2 = k0_pay2 (F := Ideal) (outsAt0 V c n (Nat.lt_of_succ_lt hn)).2 (iblk0 V c 0 ⟨n + 1, hn⟩) := by
  rw [outsAt0_mid V c ⟨n + 1, hn⟩ h0 h3]
  dsimp only
  exact midAcc_eq V c ⟨n + 1, hn⟩ h0 h3 (outsAt0 V c n (Nat.lt_of_succ_lt hn)).2

/-- The output block stored at the end of a row: the final payload of the four blocks of the row accumulated
    from the cleared column. -/
theorem out_end (c : Dev nD) (n : ℕ) (hn : n + 3 < cfg0.N) (h : n % 4 = 0) :
    (outsAt0 V c (n + 3) hn).1
      = k0_pay3 (F := Ideal) (k0_pay2 (F := Ideal) (k0_pay2 (F := Ideal) (k0_pay2 (F := Ideal) (k0_pay2 (F := Ideal) (k0_pay1 (F := Ideal))
          (iblk0 V c 0 ⟨n, by omega⟩)) (iblk0 V c 0 ⟨n + 1, by omega⟩)) (iblk0 V c 0 ⟨n + 2, by omega⟩)) (iblk0 V c 0 ⟨n + 3, hn⟩)) := by
  have h30 : ¬ (n + 3) % 4 = 0 := by omega
  have h33 : (n + 3) % 4 = 3 := by omega
  rw [outsAt0_end V c ⟨n + 3, hn⟩ h30 h33]
  dsimp only
  refine (endOut_eq V c ⟨n + 3, hn⟩ h30 h33 (outsAt0 V c (n + 2) (by omega)).2).trans ?_
  rw [acc_mid V c (n + 1) (by omega) (by omega) (by omega), acc_mid V c n (by omega) (by omega) (by omega), acc_start V c n (by omega) h]

/-! ## Where the blocks sit in the arrays -/

/-- The printed index maps over the grid: the adjacency block of point `t` is block (t / 4, t % 4), the result
    block is block (t / 4, 0). -/
theorem idx_facts : ∀ t : Fin cfg0.N, win0_0.index t (0 : Fin 2) = t.val / 4 ∧ win0_0.index t (1 : Fin 2) = t.val % 4
    ∧ win0_1.index t (0 : Fin 2) = t.val / 4 ∧ win0_1.index t (1 : Fin 2) = 0 :=
  (by decide +kernel : ∀ t : Fin grid0.N, win0_0.index t (0 : Fin 2) = t.val / 4 ∧ win0_0.index t (1 : Fin 2) = t.val % 4
    ∧ win0_1.index t (0 : Fin 2) = t.val / 4 ∧ win0_1.index t (1 : Fin 2) = 0)

/-- An entry of the adjacency block of point `t` is the entry of the array 2048 (t / 4) rows and 2048 (t % 4)
    columns further on. -/
theorem blk_apply (c : Dev nD) (t : Fin cfg0.N) (r q : Fin 2048) (R C : Fin 8192)
    (hR : R.val = 2048 * (t.val / 4) + r.val) (hC : C.val = 2048 * (t.val % 4) + q.val) :
    iblk0 V c 0 t (ix2 r q) = (V c main_v38 : S8192x8192.Idx → EReal) (ix2 R C) := by
  obtain ⟨e00, e01, -, -⟩ := idx_facts t
  unfold iblk0
  rw [View.read_apply]
  show V c main_v38 _ = V c main_v38 _
  congr 1
  funext a
  apply Fin.ext
  match a with
  | ⟨0, _⟩ => show win0_0.index t (0 : Fin 2) * 2048 + 1 * r.val = R.val; rw [e00, hR]; omega
  | ⟨1, _⟩ => show win0_0.index t (1 : Fin 2) * 2048 + 1 * q.val = C.val; rw [e01, hC]; omega

/-! ## What a flushing point writes back, and the whole array -/

/-- WHAT POINT `t` WRITES BACK, when it writes back at all (the last column block of a row block), is its block of
    the degree column of the adjacency array. -/
theorem flushed_eq (c : Dev nD) (t : Fin cfg0.N) (hf : (cfg0.win 1).flush t = true) :
    (dat0 V c).flushed 1 t = ((cfg0.win 1).blk t).view.read (Elt Ideal) (degSpec (V c main_v38)) := by
  have hN : cfg0.N = 16 := N_0
  have h3 : t.val % 4 = 3 := (flush0_1 t).mp hf
  obtain ⟨-, -, e10, e11⟩ := idx_facts t
  show (cfg0.win 1).cut (grid0.coords t) ((dat0 V c).after 1 t) = _
  rw [after0_1]
  refine funext fun (y : S2048x1.Idx) => ?_
  obtain ⟨r, u, rfl⟩ : ∃ (r : Fin 2048) (u : Fin 1), y = ix2 r u := ⟨y 0, y 1, eq_ix2 y⟩
  have hr : r.val < 2048 := r.isLt
  have ht : t.val < 16 := lt_of_lt_of_eq t.isLt hN
  let R : Fin 8192 := ⟨2048 * (t.val / 4) + r.val, by omega⟩
  have hR : (((cfg0.win 1).blk t).view.emb (ix2 r u)) 0 = R :=
    Fin.ext (by show win0_1.index t (0 : Fin 2) * 2048 + 1 * r.val = 2048 * (t.val / 4) + r.val; rw [e10]; omega)
  show (outsAt0 V c t.val t.isLt).1 (ix2 r u) = rowVal (V c main_v38) ((((cfg0.win 1).blk t).view.emb (ix2 r u)) 0)
  refine Eq.trans ?_ (congrArg (rowVal (V c main_v38)) hR.symm)
  obtain ⟨tv, htv⟩ := t
  obtain ⟨n, rfl⟩ : ∃ n, tv = n + 3 := ⟨tv - 3, by dsimp only at h3; omega⟩
  have hn0 : n % 4 = 0 := by dsimp only at h3; omega
  have hn : n + 3 < 16 := ht
  rw [out_end V c n htv hn0]
  exact row_value (V c main_v38) R _ _ _ _ r u
    (fun q => blk_apply V c ⟨n, by omega⟩ r q R ⟨2048 * 0 + q.val, by have := q.isLt; omega⟩ (by show 2048 * ((n + 3) / 4) + r.val = 2048 * (n / 4) + r.val; omega) (by show 2048 * 0 + q.val = 2048 * (n % 4) + q.val; omega))
    (fun q => blk_apply V c ⟨n + 1, by omega⟩ r q R ⟨2048 * 1 + q.val, by have := q.isLt; omega⟩ (by show 2048 * ((n + 3) / 4) + r.val = 2048 * ((n + 1) / 4) + r.val; omega) (by show 2048 * 1 + q.val = 2048 * ((n + 1) % 4) + q.val; omega))
    (fun q => blk_apply V c ⟨n + 2, by omega⟩ r q R ⟨2048 * 2 + q.val, by have := q.isLt; omega⟩ (by show 2048 * ((n + 3) / 4) + r.val = 2048 * ((n + 2) / 4) + r.val; omega) (by show 2048 * 2 + q.val = 2048 * ((n + 2) % 4) + q.val; omega))
    (fun q => blk_apply V c ⟨n + 3, htv⟩ r q R ⟨2048 * 3 + q.val, by have := q.isLt; omega⟩ (by show 2048 * ((n + 3) / 4) + r.val = 2048 * ((n + 3) / 4) + r.val; omega) (by show 2048 * 3 + q.val = 2048 * ((n + 3) % 4) + q.val; omega))

/-- An index of the result array is in point `t`'s block iff each coordinate is in the block's range on its axis. -/
theorem mem_blk (t : Fin cfg0.N) (i : S8192x1.Idx) :
    i ∈ ((cfg0.win 1).blk t).view.set ↔ ∀ a : Fin 2, win0_1.index t a * S2048x1.size a ≤ (i a).val ∧ (i a).val < win0_1.index t a * S2048x1.size a + S2048x1.size a := by
  show i ∈ ((View.whole main_v39).slice (win0_1.rect t)).set ↔ _
  rw [View.set_slice_whole, Rect.mem_set_unit]
  exact Iff.rfl

/-- Every row of the result array lies in the block written back at the end of its row block. -/
theorem covered (i : S8192x1.Idx) : ∃ t : Fin cfg0.N, (cfg0.win 1).flush t = true ∧ i ∈ ((cfg0.win 1).blk t).view.set := by
  have hN : cfg0.N = 16 := N_0
  have hi0 : (i 0).val < 8192 := (i 0).isLt
  have hi1 : (i 1).val < 1 := (i 1).isLt
  let t : Fin cfg0.N := ⟨4 * ((i 0).val / 2048) + 3, by rw [hN]; omega⟩
  have htv : t.val = 4 * ((i 0).val / 2048) + 3 := rfl
  obtain ⟨-, -, e10, e11⟩ := idx_facts t
  refine ⟨t, (flush0_1 t).mpr (by rw [htv]; omega), ?_⟩
  rw [mem_blk]
  intro a
  match a with
  | ⟨0, _⟩ => show win0_1.index t (0 : Fin 2) * 2048 ≤ (i 0).val ∧ (i 0).val < win0_1.index t (0 : Fin 2) * 2048 + 2048; rw [e10, htv]; omega
  | ⟨1, _⟩ => show win0_1.index t (1 : Fin 2) * 1 ≤ (i 1).val ∧ (i 1).val < win0_1.index t (1 : Fin 2) * 1 + 1; rw [e11]; omega

/-- THE RESULT ARRAY after the region: the degree column of the adjacency array the region found. -/
theorem deg_final (c : Dev nD) :
    ((dat0 (F := Ideal) V c).arrAt 1 cfg0.N : S8192x1.Idx → EReal) = degSpec (V c main_v38) :=
  (dat0 V c).arrAt_eq_of_cover 1 (degSpec (V c main_v38)) (fun t hf => flushed_eq V c t hf) covered

end Cert.KernelIdeal.DegValue

end
-- ==== Proof.KIRead.lean ====
/- What region 1 finds in each array it reads, traced back to the launch memory: the adjacency of the edge list, the
   features and the weights as launched, the degree column region 0 wrote (one over the square root of each row sum plus
   epsilon), the bias as one row. -/
import proofs.«107716_j57045755625628_1_alg».proof.Proof.KIRun
import proofs.«107716_j57045755625628_1_alg».proof.Proof.KIHost
import proofs.«107716_j57045755625628_1_alg».proof.Proof.DegValue

noncomputable section

namespace Cert.KernelIdeal.Run

open Idealize.ShloMosaic Idealize.ShloMosaic.TcCoe
open Idealize.SL Idealize.SL.Sem
open Cert.KernelIdeal Cert.KernelIdeal.Gen

variable (m : (ℓ : Loc nD τ sig) → Buf (Elt Ideal) ℓ)

theorem E1_adj (c : Dev nD) : E1 (F := Ideal) m c main_v38 = Cert.HostAdj.kAdj (m ((c : Thread nD τ).loc main_arg1)) :=
  HostRead.adj_read m c

theorem E3_adj (c : Dev nD) : E3 (F := Ideal) m c main_v38 = Cert.HostAdj.kAdj (m ((c : Thread nD τ).loc main_arg1)) :=
  (Gen.V3_of m (outsA m) c main_v38 (by decide)).trans ((Gen.V2_of m (outsA m) c main_v38 (by decide)).trans (HostRead.adj_read m c))

theorem E3_features (c : Dev nD) : E3 (F := Ideal) m c main_arg0 = m ((c : Thread nD τ).loc main_arg0) :=
  (Gen.V3_of m (outsA m) c main_arg0 (by decide)).trans ((Gen.V2_of m (outsA m) c main_arg0 (by decide)).trans
    ((Gen.V1_of m c main_arg0 (by decide)).trans rfl))

theorem E3_weight (c : Dev nD) : E3 (F := Ideal) m c main_arg2 = m ((c : Thread nD τ).loc main_arg2) :=
  (Gen.V3_of m (outsA m) c main_arg2 (by decide)).trans ((Gen.V2_of m (outsA m) c main_arg2 (by decide)).trans
    ((Gen.V1_of m c main_arg2 (by decide)).trans rfl))

theorem E3_deg (c : Dev nD) :
    E3 (F := Ideal) m c main_v39 = Cert.KernelIdeal.DegValue.degSpec (Cert.HostAdj.kAdj (m ((c : Thread nD τ).loc main_arg1))) := by
  refine (Gen.V3_of m (outsA m) c main_v39 (by decide)).trans ?_
  show Function.update (Gen.V1 m c) (Proc.devRef .tc main_v39) (outsA m 2 main_v39 c) (Proc.devRef .tc main_v39) = _
  rw [Function.update_self, outsA_v39]
  unfold o2
  refine (Cert.KernelIdeal.DegValue.deg_final (E1 m) c).trans ?_
  rw [E1_adj]

theorem E3_bias (c : Dev nD) :
    E3 (F := Ideal) m c main_v40 = shapeCast S1x128 (m ((c : Thread nD τ).loc main_arg3)) shapeCasts_S128_S1x128 :=
  (HostRead.bias_read m (outsA m) c).trans (congrArg (fun v => shapeCast S1x128 v shapeCasts_S128_S1x128)
    ((Gen.V2_of m (outsA m) c main_arg3 (by decide)).trans ((Gen.V1_of m c main_arg3 (by decide)).trans rfl)))

end Cert.KernelIdeal.Run

end
-- ==== Proof.AggPieces.lean ====
import proofs.«107716_j57045755625628_1_alg».proof.Proof.AggFrame
import Idealize.ShloMosaic.Lib.Pipeline.Value

set_option maxRecDepth 16384

noncomputable section

namespace Cert.KernelIdeal.Agg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What each body run leaves, as the payloads of its stores

An even point leaves in the accumulator the first partial product added to the zero block; an odd point leaves the
second partial product added to what it found, and in the output block the scaled, projected and biased rows of that
sum. Each is the payload of one store that covers its buffer, its loads reading whole buffers. -/

theorem hz : (![0, 0] : Fin 2 → Nat) = fun _ => 0 := funext fun a => by fin_cases a <;> rfl

/-- The accumulator after an even point: zero, then the point's partial product added. -/
theorem sout1_A_eq (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S4096x1 .f32) (harg4 : arg4.IsWhole) (arg5 : Memref sig .tc .vmem S1024x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond1_0 i) (hc1 : ¬cond1_1 i)
    (x0 : Vec F S1024x4096 .bf16) (x1 : Vec F S4096x128 .f32) (x2 : Vec F S4096x1 .f32) (x3 : Vec F S1024x1 .f32) (x4 : Vec F S128x128 .f32) (x5 : Vec F S1x128 .f32) :
    sout1_A c i arg2 harg2 arg3 harg3 arg4 harg4 arg5 harg5 arg6 harg6 arg7 harg7 arg8 harg8 arg9 harg9 hc0 hc1 x0 x1 x2 x3 x4 x5 = k1_pay2 x1 x2 (k1_pay1 (F := F)) x0 := by
  unfold sout1_A
  rw [View.read_writes_eq_canon _ _ _ (scover1_A c i arg2 harg2 arg3 harg3 arg4 harg4 arg5 harg5 arg6 harg6 arg7 harg7 arg8 harg8 arg9 harg9 hc0 hc1 x0 x1 x2 x3 x4 x5)]
  unfold kernelRun1_A
  dsimp only
  sl_unfold_words
  rw [View.canon_cons_unit_zero (S := S1024x128) hz, View.readCov_unit_zero (S := S1024x128) _ hz]
  simp only [View.readAt_eq_ld, harg2.read_unread, harg3.read_unread, harg4.read_unread,
    View.ld_unit_zero (S := S1024x4096) hz, View.ld_unit_zero (S := S4096x128) hz, View.ld_unit_zero (S := S4096x1) hz]

/-- The accumulator after an odd point: the point's partial product added to what the point before left. -/
theorem sout1_B_eq (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S4096x1 .f32) (harg4 : arg4.IsWhole) (arg5 : Memref sig .tc .vmem S1024x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec F S1024x4096 .bf16) (x1 : Vec F S4096x128 .f32) (x2 : Vec F S4096x1 .f32) (x3 : Vec F S1024x1 .f32) (x4 : Vec F S128x128 .f32) (x5 : Vec F S1x128 .f32) (xs0 : Vec F S1024x128 .f32) :
    sout1_B c i arg2 harg2 arg3 harg3 arg4 harg4 arg5 harg5 arg6 harg6 arg7 harg7 arg8 harg8 arg9 harg9 hc0 hc1 x0 x1 x2 x3 x4 x5 xs0 = k1_pay2 x1 x2 xs0 x0 := by
  unfold sout1_B
  rw [View.read_writes_eq_canon _ _ _ (scover1_B c i arg2 harg2 arg3 harg3 arg4 harg4 arg5 harg5 arg6 harg6 arg7 harg7 arg8 harg8 arg9 harg9 hc0 hc1 x0 x1 x2 x3 x4 x5 xs0)]
  unfold kernelRun1_B
  dsimp only
  sl_unfold_words
  rw [View.canon_unit_zero (S := S1024x128) hz]
  simp only [View.readAt_eq_ld, harg2.read_unread, harg3.read_unread, harg4.read_unread, harg9.read_unread,
    View.ld_unit_zero (S := S1024x4096) hz, View.ld_unit_zero (S := S4096x128) hz, View.ld_unit_zero (S := S4096x1) hz,
    View.ld_unit_zero (S := S1024x128) hz]

/-- The output block after an odd point: the epilogue of the accumulated sum. -/
theorem out1_B_6_eq (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S4096x1 .f32) (harg4 : arg4.IsWhole) (arg5 : Memref sig .tc .vmem S1024x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec F S1024x4096 .bf16) (x1 : Vec F S4096x128 .f32) (x2 : Vec F S4096x1 .f32) (x3 : Vec F S1024x1 .f32) (x4 : Vec F S128x128 .f32) (x5 : Vec F S1x128 .f32) (xs0 : Vec F S1024x128 .f32) :
    out1_B_6 c i arg2 harg2 arg3 harg3 arg4 harg4 arg5 harg5 arg6 harg6 arg7 harg7 arg8 harg8 arg9 harg9 hc0 hc1 x0 x1 x2 x3 x4 x5 xs0 = k1_pay3 (k1_pay2 x1 x2 xs0 x0) x3 x4 x5 := by
  unfold out1_B_6
  rw [View.read_writes_eq_canon _ _ _ (cover1_B_6 c i arg2 harg2 arg3 harg3 arg4 harg4 arg5 harg5 arg6 harg6 arg7 harg7 arg8 harg8 arg9 harg9 hc0 hc1 x0 x1 x2 x3 x4 x5 xs0)]
  unfold kernelRun1_B
  dsimp only
  sl_unfold_words
  rw [View.canon_unit_zero (S := S1024x128) hz, View.readCov_unit_zero (S := S1024x128) _ hz]
  simp only [View.readAt_eq_ld, harg2.read_unread, harg3.read_unread, harg4.read_unread, harg5.read_unread,
    harg6.read_unread, harg7.read_unread, harg9.read_unread,
    View.ld_unit_zero (S := S1024x4096) hz, View.ld_unit_zero (S := S4096x128) hz, View.ld_unit_zero (S := S4096x1) hz,
    View.ld_unit_zero (S := S1024x128) hz, View.ld_unit_zero (S := S1024x1) hz, View.ld_unit_zero (S := S128x128) hz,
    View.ld_unit_zero (S := S1x128) hz]

variable (V : (c : Dev nD) → (b : Ref sig .tc) → Buf (Elt F) ((c : Thread nD τ).loc b))

/-- The output block an odd point t stores, from the blocks at t and at the even point before it. -/
theorem outsAt1_odd (c : Dev nD) (t : Fin cfg1.N) (h1 : t.val % 2 = 1) :
    (outsAt1 V c t.val t.isLt).1
      = k1_pay3 (k1_pay2 (iblk1 V c 1 t) (iblk1 V c 2 t)
          (k1_pay2 (iblk1 V c 1 ⟨t.val - 1, Nat.lt_of_le_of_lt (Nat.sub_le _ _) t.isLt⟩) (iblk1 V c 2 ⟨t.val - 1, Nat.lt_of_le_of_lt (Nat.sub_le _ _) t.isLt⟩)
            (k1_pay1 (F := F)) (iblk1 V c 0 ⟨t.val - 1, Nat.lt_of_le_of_lt (Nat.sub_le _ _) t.isLt⟩))
          (iblk1 V c 0 t)) (iblk1 V c 3 t) (iblk1 V c 4 t) (iblk1 V c 5 t) := by
  have h0 : ¬t.val % 2 = 0 := by omega
  rw [outsAt1_B V c t h0 h1]
  dsimp only
  rw [out1_B_6_eq]
  have hp : (⟨t.val - 1, Nat.lt_of_le_of_lt (Nat.sub_le _ _) t.isLt⟩ : Fin cfg1.N).val % 2 = 0 := by dsimp only; omega
  have hq : ¬(⟨t.val - 1, Nat.lt_of_le_of_lt (Nat.sub_le _ _) t.isLt⟩ : Fin cfg1.N).val % 2 = 1 := by dsimp only; omega
  have e := outsAt1_A V c ⟨t.val - 1, Nat.lt_of_le_of_lt (Nat.sub_le _ _) t.isLt⟩ hp hq
  dsimp only at e
  rw [e]
  dsimp only
  rw [sout1_A_eq]

end Cert.KernelIdeal.Agg

end
-- ==== Proof.AggPay.lean ====
import proofs.«107716_j57045755625628_1_alg».proof.Proof.Gen.KernelIdeal.Skeleton
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Cert.KernelIdeal.AggValue

open Cert.KernelIdeal Cert.KernelIdeal.Gen
open Idealize.ShloMosaic Idealize.ShloMosaic.TcCoe Idealize.SL.Sem
open Idealize.ShloMosaic.Pipeline (Dat)
open Idealize.ShloMosaic.ValueIdx

abbrev D2 := dot_S1024x4096_S4096x128_S1024x128_1_0_0_1_n_n
abbrev D3 := dot_S1024x128_S128x128_S1024x128_1_0_0_1_n_n

/-! # The aggregate-and-project kernel's payloads at an index, over the extended reals

At the ideal values a change of float format is the identity, a product into a zero accumulator is the plain sum
over the contraction index, and a broadcast reads the operand at the index with the unit axes at 0. -/

theorem D2_lhs (r : Fin 1024) (o : Fin 128) (k : Fin 4096) :
    D2.lhsIdx (ix2 r o) ((contrEquiv1 D2 4096 rfl rfl).symm k) = ix2 r k := by
  funext a
  match a with
  | ⟨0, _⟩ => rfl
  | ⟨1, _⟩ => rfl

theorem D2_rhs (r : Fin 1024) (o : Fin 128) (k : Fin 4096) :
    D2.rhsIdx (ix2 r o) ((contrEquiv1 D2 4096 rfl rfl).symm k) = ix2 k o := by
  funext a
  match a with
  | ⟨0, _⟩ => rfl
  | ⟨1, _⟩ => rfl

theorem pay2_apply (v3 : Vec Ideal S4096x128 .f32) (v4 : Vec Ideal S4096x1 .f32) (v9 : Vec Ideal S1024x128 .f32) (v10 : Vec Ideal S1024x4096 .bf16)
    (r : Fin 1024) (o : Fin 128) :
    (k1_pay2 (F := Ideal) v3 v4 v9 v10 : S1024x128.Idx → EReal) (ix2 r o)
      = (v9 (ix2 r o) : EReal) + ∑ k : Fin 4096, (v10 (ix2 r k) : EReal) * ((v3 (ix2 k o) : EReal) * (v4 (ix2 k 0) : EReal)) := by
  unfold k1_pay2
  simp only [shapeCast_self]
  rw [addf_apply]
  simp only [matmul]
  rw [Ideal.matmul_constant_zero_apply]
  congr 1
  rw [← Equiv.sum_comp (contrEquiv1 D2 4096 rfl rfl).symm]
  refine Finset.sum_congr rfl fun k _ => ?_
  rw [D2_lhs, D2_rhs, truncf_apply, mulf_apply]
  congr 2
  exact broadcastTo_apply v4 _ (ix2 k o) (ix2 k 0) (fun a => by match a with | ⟨0, _⟩ => rfl | ⟨1, _⟩ => rfl)

theorem D3_lhs (r : Fin 1024) (o : Fin 128) (k : Fin 128) :
    D3.lhsIdx (ix2 r o) ((contrEquiv1 D3 128 rfl rfl).symm k) = ix2 r k := by
  funext a
  match a with
  | ⟨0, _⟩ => rfl
  | ⟨1, _⟩ => rfl

theorem D3_rhs (r : Fin 1024) (o : Fin 128) (k : Fin 128) :
    D3.rhsIdx (ix2 r o) ((contrEquiv1 D3 128 rfl rfl).symm k) = ix2 k o := by
  funext a
  match a with
  | ⟨0, _⟩ => rfl
  | ⟨1, _⟩ => rfl

theorem pay3_apply (v20 : Vec Ideal S1024x128 .f32) (v21 : Vec Ideal S1024x1 .f32) (v26 : Vec Ideal S128x128 .f32) (v29 : Vec Ideal S1x128 .f32)
    (r : Fin 1024) (o : Fin 128) :
    (k1_pay3 (F := Ideal) v20 v21 v26 v29 : S1024x128.Idx → EReal) (ix2 r o)
      = (∑ k : Fin 128, ((v20 (ix2 r k) : EReal) * (v21 (ix2 r 0) : EReal)) * (v26 (ix2 k o) : EReal)) + (v29 (ix2 0 o) : EReal) := by
  unfold k1_pay3
  simp only [shapeCast_self]
  rw [addf_apply]
  simp only [matmul]
  rw [Ideal.matmul_constant_zero_apply]
  congr 1
  · rw [← Equiv.sum_comp (contrEquiv1 D3 128 rfl rfl).symm]
    refine Finset.sum_congr rfl fun k _ => ?_
    rw [D3_lhs, D3_rhs, truncf_apply, truncf_apply, mulf_apply]
    congr 2
    exact broadcastTo_apply v21 _ (ix2 r k) (ix2 r 0) (fun a => by match a with | ⟨0, _⟩ => rfl | ⟨1, _⟩ => rfl)
  · exact broadcastTo_apply v29 _ (ix2 r o) (ix2 0 o) (fun a => by match a with | ⟨0, _⟩ => rfl | ⟨1, _⟩ => rfl)

theorem pay1_apply (j : S1024x128.Idx) : (k1_pay1 (F := Ideal) : S1024x128.Idx → EReal) j = 0 := by
  unfold k1_pay1
  simp only [shapeCast_self]
  show Ideal.ofBits .f32 0x00000000#32 = 0
  exact Ideal.ofBits_zero_f32

/-- The lower and the upper half of the 8192 contraction positions. -/
def lo (k : Fin 4096) : Fin 8192 := ⟨k.val, by have := k.isLt; omega⟩
def hi (k : Fin 4096) : Fin 8192 := ⟨4096 + k.val, by have := k.isLt; omega⟩

/-- A sum over the 8192 positions is the zero-started sum over the lower half plus the sum over the upper half:
    the order in which the two grid points of a row block accumulate. -/
theorem sum_halves (f : Fin 8192 → EReal) :
    ∑ k : Fin 8192, f k = (0 + ∑ k : Fin 4096, f (lo k)) + ∑ k : Fin 4096, f (hi k) := by
  rw [zero_add]
  exact Fin.sum_univ_add (a := 4096) (b := 4096) f

/-- The output block an odd point stores, at an index, from the blocks at the point (b) and at the even point
    before it (p): the two partial products accumulated from zero, the rows scaled, projected, the bias added. -/
theorem block_apply (p0 b0 : Vec Ideal S1024x4096 .bf16) (p1 b1 : Vec Ideal S4096x128 .f32) (p2 b2 : Vec Ideal S4096x1 .f32)
    (b3 : Vec Ideal S1024x1 .f32) (b4 : Vec Ideal S128x128 .f32) (b5 : Vec Ideal S1x128 .f32) (r : Fin 1024) (o : Fin 128) :
    (k1_pay3 (F := Ideal) (k1_pay2 b1 b2 (k1_pay2 p1 p2 (k1_pay1 (F := Ideal)) p0) b0) b3 b4 b5 : S1024x128.Idx → EReal) (ix2 r o)
      = (∑ c : Fin 128, (((0 + ∑ k : Fin 4096, (p0 (ix2 r k) : EReal) * ((p1 (ix2 k c) : EReal) * (p2 (ix2 k 0) : EReal)))
            + ∑ k : Fin 4096, (b0 (ix2 r k) : EReal) * ((b1 (ix2 k c) : EReal) * (b2 (ix2 k 0) : EReal))) * (b3 (ix2 r 0) : EReal)) * (b4 (ix2 c o) : EReal))
          + (b5 (ix2 0 o) : EReal) := by
  rw [pay3_apply]
  simp only [pay2_apply, pay1_apply]

end Cert.KernelIdeal.AggValue

end
-- ==== Proof.AggCover.lean ====
import proofs.«107716_j57045755625628_1_alg».proof.Proof.AggFrame
import Idealize.ShloMosaic.Lib.Pipeline.Value

set_option maxRecDepth 16384

noncomputable section

namespace Cert.KernelIdeal.AggValue

open Cert.KernelIdeal Cert.KernelIdeal.Gen Cert.KernelIdeal.Agg
open Idealize.ShloMosaic Idealize.ShloMosaic.TcCoe Idealize.SL.Sem
open Idealize.ShloMosaic.Pipeline (Dat)

/-! # The aggregation kernel's result array is covered by its written-back blocks

The aggregation kernel walks an 8 x 2 grid: row block `t / 2` (1024 rows) against column block `t % 2`. Its result
block never moves within a row block and is written back once per row block, after the second column block
(grid position `2 b + 1` for row block `b`). The eight written-back blocks of 1024 rows tile the 8192 rows of the
result array, so whatever function of the row index the written-back blocks agree with is the whole array. -/

/-- The printed index map of the result window over the grid: at point `t` its block is block (t / 2, 0). -/
theorem out_idx_facts : ∀ t : Fin cfg1.N, win1_6.index t (0 : Fin 2) = t.val / 2 ∧ win1_6.index t (1 : Fin 2) = 0 :=
  (by decide +kernel : ∀ t : Fin grid1.N, win1_6.index t (0 : Fin 2) = t.val / 2 ∧ win1_6.index t (1 : Fin 2) = 0)

/-- An index of the result array is in point `t`'s block iff each coordinate is in the block's range on its axis. -/
theorem mem_blk6 (t : Fin cfg1.N) (i : S8192x128.Idx) :
    i ∈ ((cfg1.win 6).blk t).view.set ↔ ∀ a : Fin 2, win1_6.index t a * S1024x128.size a ≤ (i a).val ∧ (i a).val < win1_6.index t a * S1024x128.size a + S1024x128.size a := by
  show i ∈ ((View.whole main_v41).slice (win1_6.rect t)).set ↔ _
  rw [View.set_slice_whole, Rect.mem_set_unit]
  exact Iff.rfl

/-- Every index of the result array lies in the block written back after the second column block of its row
    block. -/
theorem covered6 (i : S8192x128.Idx) : ∃ t : Fin cfg1.N, (cfg1.win 6).flush t = true ∧ i ∈ ((cfg1.win 6).blk t).view.set := by
  have hN : cfg1.N = 16 := N_1
  have hi0 : (i 0).val < 8192 := (i 0).isLt
  have hi1 : (i 1).val < 128 := (i 1).isLt
  let t : Fin cfg1.N := ⟨2 * ((i 0).val / 1024) + 1, by rw [hN]; omega⟩
  have htv : t.val = 2 * ((i 0).val / 1024) + 1 := rfl
  obtain ⟨e0, e1⟩ := out_idx_facts t
  refine ⟨t, (flush1_6 t).mpr (by rw [htv]; omega), ?_⟩
  rw [mem_blk6]
  intro a
  match a with
  | ⟨0, _⟩ => show win1_6.index t (0 : Fin 2) * 1024 ≤ (i 0).val ∧ (i 0).val < win1_6.index t (0 : Fin 2) * 1024 + 1024; rw [e0, htv]; omega
  | ⟨1, _⟩ => show win1_6.index t (1 : Fin 2) * 128 ≤ (i 1).val ∧ (i 1).val < win1_6.index t (1 : Fin 2) * 128 + 128; rw [e1]; omega

variable {F : FTy → Type} [FloatOps F]

/-- THE RESULT ARRAY after the region is any function `G` of the index that every written-back block agrees
    with: the written-back blocks cover the array. -/
theorem agg_final_of (V : (c : Dev nD) → (b : Ref sig .tc) → Buf (Elt F) ((c : Thread nD τ).loc b)) (c : Dev nD)
    (G : Buf (Elt F) ((cfg1.win 6).arr.view.loc (c.tc : Thread nD τ)))
    (hG : ∀ t, (cfg1.win 6).flush t = true → (dat1 V c).flushed 6 t = ((cfg1.win 6).blk t).view.read (Elt F) G) :
    (dat1 V c).arrAt 6 cfg1.N = G :=
  (dat1 V c).arrAt_eq_of_cover 6 G hG covered6

end Cert.KernelIdeal.AggValue

end
-- ==== Proof.AggValue.lean ====
import proofs.«107716_j57045755625628_1_alg».proof.Proof.AggPieces
import proofs.«107716_j57045755625628_1_alg».proof.Proof.AggPay
import proofs.«107716_j57045755625628_1_alg».proof.Proof.AggCover
import Idealize.ShloMosaic.Lib.Pipeline.Value
import Idealize.ShloMosaic.Lib.ValueIdx
import Idealize.ShloMosaic.Lib.Tactic

set_option maxRecDepth 16384

noncomputable section

open scoped BigOperators

namespace Cert.KernelIdeal.AggValue

open Cert.KernelIdeal Cert.KernelIdeal.Gen Cert.KernelIdeal.Agg
open Idealize.ShloMosaic Idealize.ShloMosaic.TcCoe Idealize.SL.Sem
open Idealize.ShloMosaic.Pipeline (Dat)
open Idealize.ShloMosaic.ValueIdx

/-! # What the aggregate-and-project region leaves in its output array

One function of the arrays the region reads: at row R and column o, the R-th row of the adjacency times the
scaled features (each feature row k scaled by d k), that row scaled by d R, projected through the weight, the bias
added. Each odd grid point writes back one 1024-row block of it; the eight blocks tile the array. -/

variable (V : (c : Dev nD) → (b : Ref sig .tc) → Buf (Elt Ideal) ((c : Thread nD τ).loc b))

/-- The region's result at row R, column o. -/
def aggAt (A : S8192x8192.Idx → EReal) (x : S8192x128.Idx → EReal) (d : S8192x1.Idx → EReal) (W : S128x128.Idx → EReal)
    (b : S1x128.Idx → EReal) (R : Fin 8192) (o : Fin 128) : EReal :=
  (∑ c : Fin 128, ((∑ k : Fin 8192, A (ix2 R k) * (x (ix2 k c) * d (ix2 k 0))) * d (ix2 R 0)) * W (ix2 c o)) + b (ix2 0 o)

/-- The region's result as contents of the output array. -/
def aggSpec (A : S8192x8192.Idx → EReal) (x : S8192x128.Idx → EReal) (d : S8192x1.Idx → EReal) (W : S128x128.Idx → EReal)
    (b : S1x128.Idx → EReal) : S8192x128.Idx → EReal := fun j => aggAt A x d W b (j 0) (j 1)

theorem aggSpec_apply (A : S8192x8192.Idx → EReal) (x : S8192x128.Idx → EReal) (d : S8192x1.Idx → EReal) (W : S128x128.Idx → EReal)
    (b : S1x128.Idx → EReal) (R : Fin 8192) (o : Fin 128) : aggSpec A x d W b (ix2 R o) = aggAt A x d W b R o := rfl

/-- The printed index maps at an odd point t = 2 i + 1, decided over the grid: the adjacency block is (i, 1), the
    feature and scale blocks are block 1, the row-scale and output blocks are block i, weight and bias are whole. -/
theorem idx_odd : ∀ t : Fin cfg1.N, t.val % 2 = 1 →
    win1_0.index t (0 : Fin 2) = win1_6.index t (0 : Fin 2) ∧ win1_0.index t (1 : Fin 2) = 1
    ∧ win1_1.index t (0 : Fin 2) = 1 ∧ win1_1.index t (1 : Fin 2) = 0
    ∧ win1_2.index t (0 : Fin 2) = 1 ∧ win1_2.index t (1 : Fin 2) = 0
    ∧ win1_3.index t (0 : Fin 2) = win1_6.index t (0 : Fin 2) ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (1 : Fin 2) = 0 ∧ win1_6.index t (0 : Fin 2) ≤ 7 ∧ 2 * win1_6.index t (0 : Fin 2) + 1 = t.val :=
  (by decide +kernel : ∀ t : Fin grid1.N, _)

/-- At the even point before it: the adjacency block is (i, 0), the feature and scale blocks are block 0. -/
theorem idx_even_before : ∀ t t' : Fin cfg1.N, t.val % 2 = 1 → t'.val + 1 = t.val →
    win1_0.index t' (0 : Fin 2) = win1_6.index t (0 : Fin 2) ∧ win1_0.index t' (1 : Fin 2) = 0
    ∧ win1_1.index t' (0 : Fin 2) = 0 ∧ win1_1.index t' (1 : Fin 2) = 0
    ∧ win1_2.index t' (0 : Fin 2) = 0 ∧ win1_2.index t' (1 : Fin 2) = 0 :=
  (by decide +kernel : ∀ t t' : Fin grid1.N, _)

/-- The output array's contents after the region. -/
abbrev G (c : Dev nD) : S8192x128.Idx → EReal :=
  aggSpec (V c main_v38) (V c main_arg0) (V c main_v39) (V c main_arg2) (V c main_v40)

theorem flushed_eq (c : Dev nD) (t : Fin cfg1.N) (hf : (cfg1.win 6).flush t = true) :
    (dat1 (F := Ideal) V c).flushed 6 t = ((cfg1.win 6).blk t).view.read (Elt Ideal) (G V c) := by
  have h1 : t.val % 2 = 1 := (flush1_6 t).mp hf
  have hpos : (⟨t.val - 1, Nat.lt_of_le_of_lt (Nat.sub_le _ _) t.isLt⟩ : Fin cfg1.N).val + 1 = t.val := by dsimp only; omega
  obtain ⟨e00, e01, e10, e11, e20, e21, e30, e31, e40, e41, e50, e51, e61, e6le, -⟩ := idx_odd t h1
  obtain ⟨p00, p01, p10, p11, p20, p21⟩ := idx_even_before t ⟨t.val - 1, Nat.lt_of_le_of_lt (Nat.sub_le _ _) t.isLt⟩ h1 hpos
  show (cfg1.win 6).cut (grid1.coords t) ((dat1 V c).after 6 t) = _
  rw [after1_6, outsAt1_odd V c t h1]
  funext y
  obtain ⟨r, o, rfl⟩ : ∃ (r : Fin 1024) (o : Fin 128), y = ix2 r o := ⟨y 0, y 1, eq_ix2 y⟩
  refine (block_apply _ _ _ _ _ _ _ _ _ r o).trans ?_
  have hr : r.val < 1024 := r.isLt
  have hR : win1_6.index t (0 : Fin 2) * 1024 + r.val < 8192 := by omega
  -- the row of the array the block's row r is
  have hemb : ((cfg1.win 6).blk t).view.emb (ix2 r o) = ix2 (⟨win1_6.index t (0 : Fin 2) * 1024 + r.val, hR⟩ : Fin 8192) o := by
    refine funext fun a => Fin.ext ?_
    match a with
    | ⟨0, _⟩ => show win1_6.index t (0 : Fin 2) * 1024 + 1 * r.val = win1_6.index t (0 : Fin 2) * 1024 + r.val; omega
    | ⟨1, _⟩ => show win1_6.index t (1 : Fin 2) * 128 + 1 * o.val = o.val; rw [e61]; omega
  have hrhs : View.read (Elt Ideal) ((cfg1.win 6).blk t).view (G V c) (ix2 r o)
      = aggAt (V c main_v38) (V c main_arg0) (V c main_v39) (V c main_arg2) (V c main_v40) ⟨win1_6.index t (0 : Fin 2) * 1024 + r.val, hR⟩ o := by
    show G V c (((cfg1.win 6).blk t).view.emb (ix2 r o)) = _
    rw [hemb]
    rfl
  rw [hrhs]
  unfold aggAt
  simp only [sum_halves]
  have hP0 : ∀ (k : Fin 4096), (iblk1 V c 0 ⟨t.val - 1, Nat.lt_of_le_of_lt (Nat.sub_le _ _) t.isLt⟩ (ix2 r k) : EReal) = V c main_v38 (ix2 (⟨win1_6.index t (0 : Fin 2) * 1024 + r.val, hR⟩ : Fin 8192) (lo k)) := by
    intro k
    show V c main_v38 (((cfg1.win 0).blk ⟨t.val - 1, Nat.lt_of_le_of_lt (Nat.sub_le _ _) t.isLt⟩).view.emb (ix2 r k)) = V c main_v38 (ix2 (⟨win1_6.index t (0 : Fin 2) * 1024 + r.val, hR⟩ : Fin 8192) (lo k))
    refine congrArg _ (funext fun a => Fin.ext ?_)
    match a with
    | ⟨0, _⟩ => show win1_0.index ⟨t.val - 1, Nat.lt_of_le_of_lt (Nat.sub_le _ _) t.isLt⟩ (0 : Fin 2) * 1024 + 1 * r.val = win1_6.index t (0 : Fin 2) * 1024 + r.val; rw [p00]; omega
    | ⟨1, _⟩ => show win1_0.index ⟨t.val - 1, Nat.lt_of_le_of_lt (Nat.sub_le _ _) t.isLt⟩ (1 : Fin 2) * 4096 + 1 * k.val = k.val; rw [p01]; omega

  have hP1 : ∀ (k : Fin 4096) (cc : Fin 128), (iblk1 V c 1 ⟨t.val - 1, Nat.lt_of_le_of_lt (Nat.sub_le _ _) t.isLt⟩ (ix2 k cc) : EReal) = V c main_arg0 (ix2 (lo k) cc) := by
    intro k cc
    show V c main_arg0 (((cfg1.win 1).blk ⟨t.val - 1, Nat.lt_of_le_of_lt (Nat.sub_le _ _) t.isLt⟩).view.emb (ix2 k cc)) = V c main_arg0 (ix2 (lo k) cc)
    refine congrArg _ (funext fun a => Fin.ext ?_)
    match a with
    | ⟨0, _⟩ => show win1_1.index ⟨t.val - 1, Nat.lt_of_le_of_lt (Nat.sub_le _ _) t.isLt⟩ (0 : Fin 2) * 4096 + 1 * k.val = k.val; rw [p10]; omega
    | ⟨1, _⟩ => show win1_1.index ⟨t.val - 1, Nat.lt_of_le_of_lt (Nat.sub_le _ _) t.isLt⟩ (1 : Fin 2) * 128 + 1 * cc.val = cc.val; rw [p11]; omega

  have hP2 : ∀ (k : Fin 4096), (iblk1 V c 2 ⟨t.val - 1, Nat.lt_of_le_of_lt (Nat.sub_le _ _) t.isLt⟩ (ix2 k (0 : Fin 1)) : EReal) = V c main_v39 (ix2 (lo k) (0 : Fin 1)) := by
    intro k
    show V c main_v39 (((cfg1.win 2).blk ⟨t.val - 1, Nat.lt_of_le_of_lt (Nat.sub_le _ _) t.isLt⟩).view.emb (ix2 k (0 : Fin 1))) = V c main_v39 (ix2 (lo k) (0 : Fin 1))
    refine congrArg _ (funext fun a => Fin.ext ?_)
    match a with
    | ⟨0, _⟩ => show win1_2.index ⟨t.val - 1, Nat.lt_of_le_of_lt (Nat.sub_le _ _) t.isLt⟩ (0 : Fin 2) * 4096 + 1 * k.val = k.val; rw [p20]; omega
    | ⟨1, _⟩ => show win1_2.index ⟨t.val - 1, Nat.lt_of_le_of_lt (Nat.sub_le _ _) t.isLt⟩ (1 : Fin 2) * 1 + 1 * (0 : Fin 1).val = (0 : Fin 1).val; rw [p21]; rfl

  have hB0 : ∀ (k : Fin 4096), (iblk1 V c 0 t (ix2 r k) : EReal) = V c main_v38 (ix2 (⟨win1_6.index t (0 : Fin 2) * 1024 + r.val, hR⟩ : Fin 8192) (hi k)) := by
    intro k
    show V c main_v38 (((cfg1.win 0).blk t).view.emb (ix2 r k)) = V c main_v38 (ix2 (⟨win1_6.index t (0 : Fin 2) * 1024 + r.val, hR⟩ : Fin 8192) (hi k))
    refine congrArg _ (funext fun a => Fin.ext ?_)
    match a with
    | ⟨0, _⟩ => show win1_0.index t (0 : Fin 2) * 1024 + 1 * r.val = win1_6.index t (0 : Fin 2) * 1024 + r.val; rw [e00]; omega
    | ⟨1, _⟩ => show win1_0.index t (1 : Fin 2) * 4096 + 1 * k.val = 4096 + k.val; rw [e01]; omega

  have hB1 : ∀ (k : Fin 4096) (cc : Fin 128), (iblk1 V c 1 t (ix2 k cc) : EReal) = V c main_arg0 (ix2 (hi k) cc) := by
    intro k cc
    show V c main_arg0 (((cfg1.win 1).blk t).view.emb (ix2 k cc)) = V c main_arg0 (ix2 (hi k) cc)
    refine congrArg _ (funext fun a => Fin.ext ?_)
    match a with
    | ⟨0, _⟩ => show win1_1.index t (0 : Fin 2) * 4096 + 1 * k.val = 4096 + k.val; rw [e10]; omega
    | ⟨1, _⟩ => show win1_1.index t (1 : Fin 2) * 128 + 1 * cc.val = cc.val; rw [e11]; omega

  have hB2 : ∀ (k : Fin 4096), (iblk1 V c 2 t (ix2 k (0 : Fin 1)) : EReal) = V c main_v39 (ix2 (hi k) (0 : Fin 1)) := by
    intro k
    show V c main_v39 (((cfg1.win 2).blk t).view.emb (ix2 k (0 : Fin 1))) = V c main_v39 (ix2 (hi k) (0 : Fin 1))
    refine congrArg _ (funext fun a => Fin.ext ?_)
    match a with
    | ⟨0, _⟩ => show win1_2.index t (0 : Fin 2) * 4096 + 1 * k.val = 4096 + k.val; rw [e20]; omega
    | ⟨1, _⟩ => show win1_2.index t (1 : Fin 2) * 1 + 1 * (0 : Fin 1).val = (0 : Fin 1).val; rw [e21]; rfl

  have hB3 : (iblk1 V c 3 t (ix2 r (0 : Fin 1)) : EReal) = V c main_v39 (ix2 (⟨win1_6.index t (0 : Fin 2) * 1024 + r.val, hR⟩ : Fin 8192) (0 : Fin 1)) := by
    show V c main_v39 (((cfg1.win 3).blk t).view.emb (ix2 r (0 : Fin 1))) = V c main_v39 (ix2 (⟨win1_6.index t (0 : Fin 2) * 1024 + r.val, hR⟩ : Fin 8192) (0 : Fin 1))
    refine congrArg _ (funext fun a => Fin.ext ?_)
    match a with
    | ⟨0, _⟩ => show win1_3.index t (0 : Fin 2) * 1024 + 1 * r.val = win1_6.index t (0 : Fin 2) * 1024 + r.val; rw [e30]; omega
    | ⟨1, _⟩ => show win1_3.index t (1 : Fin 2) * 1 + 1 * (0 : Fin 1).val = (0 : Fin 1).val; rw [e31]; rfl
  have hB4 : ∀ (cc : Fin 128), (iblk1 V c 4 t (ix2 cc o) : EReal) = V c main_arg2 (ix2 cc o) := by
    intro cc
    show V c main_arg2 (((cfg1.win 4).blk t).view.emb (ix2 cc o)) = V c main_arg2 (ix2 cc o)
    refine congrArg _ (funext fun a => Fin.ext ?_)
    match a with
    | ⟨0, _⟩ => show win1_4.index t (0 : Fin 2) * 128 + 1 * cc.val = cc.val; rw [e40]; omega
    | ⟨1, _⟩ => show win1_4.index t (1 : Fin 2) * 128 + 1 * o.val = o.val; rw [e41]; omega

  have hB5 : (iblk1 V c 5 t (ix2 (0 : Fin 1) o) : EReal) = V c main_v40 (ix2 (0 : Fin 1) o) := by
    show V c main_v40 (((cfg1.win 5).blk t).view.emb (ix2 (0 : Fin 1) o)) = V c main_v40 (ix2 (0 : Fin 1) o)
    refine congrArg _ (funext fun a => Fin.ext ?_)
    match a with
    | ⟨0, _⟩ => show win1_5.index t (0 : Fin 2) * 1 + 1 * (0 : Fin 1).val = (0 : Fin 1).val; rw [e50]; rfl
    | ⟨1, _⟩ => show win1_5.index t (1 : Fin 2) * 128 + 1 * o.val = o.val; rw [e51]; omega
  simp only [hP0, hP1, hP2, hB0, hB1, hB2, hB3, hB4, hB5]

/-- What the region leaves in its output array: the one function above of the arrays it read. Every odd point
    writes back its block of it, and the eight blocks cover the array. -/
theorem agg_final (c : Dev nD) :
    ((dat1 (F := Ideal) V c).arrAt 6 cfg1.N : S8192x128.Idx → EReal)
      = aggSpec (V c main_v38) (V c main_arg0) (V c main_v39) (V c main_arg2) (V c main_v40) :=
  agg_final_of V c (G V c) (flushed_eq V c)

end Cert.KernelIdeal.AggValue

end
-- ==== Proof.HostBias.lean ====
import proofs.«107716_j57045755625628_1_alg».proof.Proof.Gen.KernelIdeal
import Idealize.ShloMosaic.Lib.Pipeline.Value
import Idealize.ShloMosaic.Lib.ValueIdx

/-!
The bias as the kernel's program passes it to the aggregation: the vector of 128 entries recast as
one row of 128 columns; column o of that row is entry o.
-/

noncomputable section

open Idealize.ShloMosaic Idealize.ShloMosaic.ValueIdx

namespace Cert.HostBias
open Cert.KernelIdeal Cert.KernelIdeal.Gen

variable {F : FTy → Type} [FloatOps F]

/-- The bias row at column o is the bias vector at o. -/
theorem biasRow_apply (b : FVec F S128 .f32) (z : Fin 1) (o : Fin 128) :
    shapeCast S1x128 b shapeCasts_S128_S1x128 (ix2 z o) = b (ix1 o) :=
  shapeCast_apply b shapeCasts_S128_S1x128 (ix2 z o) (ix1 o) (by
    rewrite [Shape.rowMajor_val_one, Shape.rowMajor_val_two]
    have hz : z.val < 1 := z.isLt
    show o.val = z.val * 128 + o.val
    omega)

end Cert.HostBias
-- ==== Proof.SpecOut.lean ====
import proofs.«107716_j57045755625628_1_alg».proof.Proof.Spec

/-!
The result of the normalised aggregation, in the two arrangements, over abstract finite index types.

With A the adjacency with self loops, the degree factor of row i is d_i = 1 / sqrt (sum_k A(i,k) + eps).
One arrangement computes  (sum_c ((sum_k A(i,k) * (x(k,c) * d_k)) * d_i) * W(c,o)) + b(o),
the other  (sum_c (sum_k ((d_i * A(i,k)) * d_k) * x(k,c)) * W(c,o)) + b(o).
They agree when the adjacency entries are nonnegative reals and the features are real: then every
degree factor is real and the inner sums are compared in the reals. The weights and the bias meet
both arrangements in the same way and need no finiteness.
-/

open Idealize.ShloMosaic
open scoped BigOperators

namespace Cert.Spec

/-- The degree factor of row i: one over the square root of the row sum plus eps. -/
noncomputable def deg {n : ℕ} (A : Fin n → Fin n → EReal) (i : Fin n) : EReal :=
  Ideal.div (Ideal.ofBits .f32 0x3F800000#32)
    (Ideal.sqrt ((∑ k, A i k) + Ideal.ofBits .f32 0x3727C5AC#32))

/-- Over an adjacency of nonnegative reals every degree factor is a real number. -/
theorem deg_is_real {n : ℕ} (A : Fin n → Fin n → EReal) (hA : ∀ i k, ∃ a : ℝ, 0 ≤ a ∧ A i k = (a : EReal))
    (i : Fin n) : ∃ r : ℝ, deg A i = (r : EReal) := by
  obtain ⟨s, hs0, hs⟩ := sum_nonneg_real Finset.univ (fun k => A i k) (hA i)
  unfold deg
  rw [hs]
  exact deg_real s hs0

/-- Features scaled first, rows scaled after the aggregation. -/
noncomputable def scaledAfter {n p q : ℕ} (A : Fin n → Fin n → EReal) (x : Fin n → Fin p → EReal)
    (W : Fin p → Fin q → EReal) (b : Fin q → EReal) (i : Fin n) (o : Fin q) : EReal :=
  (∑ c, ((∑ k, A i k * (x k c * deg A k)) * deg A i) * W c o) + b o

/-- The adjacency scaled on both sides before the aggregation. -/
noncomputable def scaledBefore {n p q : ℕ} (A : Fin n → Fin n → EReal) (x : Fin n → Fin p → EReal)
    (W : Fin p → Fin q → EReal) (b : Fin q → EReal) (i : Fin n) (o : Fin q) : EReal :=
  (∑ c, (∑ k, ((deg A i * A i k) * deg A k) * x k c) * W c o) + b o

/-- The two arrangements agree over an adjacency of nonnegative reals and real features. -/
theorem scaledAfter_eq_scaledBefore {n p q : ℕ} (A : Fin n → Fin n → EReal) (x : Fin n → Fin p → EReal)
    (W : Fin p → Fin q → EReal) (b : Fin q → EReal)
    (hA : ∀ i k, ∃ a : ℝ, 0 ≤ a ∧ A i k = (a : EReal)) (hx : ∀ k c, ∃ r : ℝ, x k c = (r : EReal))
    (i : Fin n) (o : Fin q) : scaledAfter A x W b i o = scaledBefore A x W b i o := by
  unfold scaledAfter scaledBefore
  refine congrArg (· + b o) (Finset.sum_congr rfl fun c _ => ?_)
  rw [inner_law A x (deg A) (fun i k => (hA i k).imp fun a h => h.2) hx (deg_is_real A hA) i c]

end Cert.Spec
-- ==== Proof.RefValue.lean ====
import proofs.«107716_j57045755625628_1_alg».proof.Proof.Gen.ReferenceIdeal.Read
import proofs.«107716_j57045755625628_1_alg».proof.Proof.SpecOut
import Idealize.ShloMosaic.Lib.ValueIdx

/-!
The reference program's result, read entry by entry back to its adjacency stage.

With A the reference's adjacency with self loops (its stage %28), the result at (r, o) is the
arrangement in which the adjacency is scaled on both sides first:
  (sum_c (sum_k ((d_r * A(r,k)) * d_k) * x(k,c)) * W(c,o)) + b(o),   d_i = 1 / sqrt (sum_k A(i,k) + eps).
-/

noncomputable section

open Idealize.ShloMosaic Idealize.ShloMosaic.ValueIdx
open scoped BigOperators

namespace Cert.ReferenceIdeal.RefValue
open Cert.ReferenceIdeal Cert.ReferenceIdeal.Gen Cert.ReferenceIdeal.Read

/-! ## The composed index functions, by coordinates -/

theorem lidx42_eq (r : Fin 8192) (o c : Fin 128) : lidx_main_v42 (ix2 r o) c = ix2 r c :=
  funext fun a => Fin.ext (by match a with | ⟨0, _⟩ => rfl | ⟨1, _⟩ => rfl)
theorem ridx42_eq (r : Fin 8192) (o c : Fin 128) : ridx_main_v42 (ix2 r o) c = ix2 c o :=
  funext fun a => Fin.ext (by match a with | ⟨0, _⟩ => rfl | ⟨1, _⟩ => rfl)
theorem lidx41_eq (r : Fin 8192) (c : Fin 128) (k : Fin 8192) : lidx_main_v41 (ix2 r c) k = ix2 r k :=
  funext fun a => Fin.ext (by match a with | ⟨0, _⟩ => rfl | ⟨1, _⟩ => rfl)
theorem ridx41_eq (r : Fin 8192) (c : Fin 128) (k : Fin 8192) : ridx_main_v41 (ix2 r c) k = ix2 k c :=
  funext fun a => Fin.ext (by match a with | ⟨0, _⟩ => rfl | ⟨1, _⟩ => rfl)
theorem idx35_eq (r k : Fin 8192) : idx_main_v35 (idx_main_v36 (ix2 r k)) = ix1 r :=
  funext fun a => Fin.ext (by match a with | ⟨0, _⟩ => rfl)
theorem idx38_eq (r k : Fin 8192) : idx_main_v38 (idx_main_v39 (ix2 r k)) = ix1 k :=
  funext fun a => Fin.ext (by match a with | ⟨0, _⟩ => rfl)
theorem idx29_eq (r k : Fin 8192) : idx_main_v29 (ix1 r) k = ix2 r k :=
  funext fun a => Fin.ext (by match a with | ⟨0, _⟩ => rfl | ⟨1, _⟩ => rfl)
theorem idx43_eq (r : Fin 8192) (o : Fin 128) : idx_main_v43 (idx_main_v44 (ix2 r o)) = ix1 o :=
  funext fun a => Fin.ext (by match a with | ⟨0, _⟩ => rfl)

/-! ## The stages at an index -/

/-- The reference's adjacency with self loops, by row and column. -/
def adj (x1 : IVec S2x131072 32) (i k : Fin 8192) : EReal := val_main_v28 (F := Ideal) x1 (ix2 i k)

/-- The reference's degree factor of row r. -/
theorem deg_apply (x1 : IVec S2x131072 32) (r : Fin 8192) :
    val_main_v34 (F := Ideal) x1 (ix1 r) = Cert.Spec.deg (adj x1) r := by
  unfold Cert.Spec.deg adj
  rw [val_main_v34_apply, val_main_v33_apply, val_main_cst_7_apply, val_main_v32_apply, val_main_v31_apply,
    val_main_v30_apply, val_main_cst_6_apply, val_main_v29_apply, val_main_cst_5_apply]
  simp only [idx29_eq, Ideal.hostDivf_def, Ideal.hostUnary_sqrt_def, Ideal.ofBits_def, Ideal.addf_def,
    Ideal.ofBits_zero_f32, zero_add]

/-- The doubly scaled adjacency at (r, k). -/
theorem scaled_apply (x1 : IVec S2x131072 32) (r k : Fin 8192) :
    val_main_v40 (F := Ideal) x1 (ix2 r k)
      = (Cert.Spec.deg (adj x1) r * adj x1 r k) * Cert.Spec.deg (adj x1) k := by
  rw [val_main_v40_apply, val_main_v37_apply, val_main_v39_apply, val_main_v38_apply, val_main_v36_apply,
    val_main_v35_apply, idx35_eq, idx38_eq, deg_apply, deg_apply]
  rfl

/-- The aggregated features at (r, c). -/
theorem agg_apply (x0 : FVec Ideal S8192x128 .f32) (x1 : IVec S2x131072 32) (r : Fin 8192) (c : Fin 128) :
    val_main_v41 (F := Ideal) x0 x1 (ix2 r c)
      = ∑ k : Fin 8192, ((Cert.Spec.deg (adj x1) r * adj x1 r k) * Cert.Spec.deg (adj x1) k) * x0 (ix2 k c) := by
  rw [val_main_v41_apply]
  simp only [lidx41_eq, ridx41_eq, scaled_apply]

/-- The reference's result at (r, o): the adjacency scaled on both sides, aggregated, projected, biased. -/
theorem ref_apply (x0 : FVec Ideal S8192x128 .f32) (x1 : IVec S2x131072 32) (x2 : FVec Ideal S128x128 .f32)
    (x3 : FVec Ideal S128 .f32) (r : Fin 8192) (o : Fin 128) :
    val_main_v45 (F := Ideal) x0 x1 x2 x3 (ix2 r o)
      = Cert.Spec.scaledBefore (adj x1) (fun k c => x0 (ix2 k c)) (fun c o => x2 (ix2 c o))
          (fun o => x3 (ix1 o)) r o := by
  unfold Cert.Spec.scaledBefore
  rw [val_main_v45_apply, val_main_v42_apply, val_main_v44_apply, val_main_v43_apply, idx43_eq]
  simp only [lidx42_eq, ridx42_eq, agg_apply]
  rfl

end Cert.ReferenceIdeal.RefValue
-- ==== Proof.Bridge.lean ====
import proofs.«107716_j57045755625628_1_alg».proof.Proof.HostAdj
import proofs.«107716_j57045755625628_1_alg».proof.Proof.HostBias
import proofs.«107716_j57045755625628_1_alg».proof.Proof.RefValue
import proofs.«107716_j57045755625628_1_alg».proof.Proof.DegRows

/-!
The kernel's value is the reference's value.

The kernel's program computes, from the adjacency with self loops A, the degree column d and then
  (sum_c ((sum_k A(r,k) * (x(k,c) * d_k)) * d_r) * W(c,o)) + b(o);
the reference computes  (sum_c (sum_k ((d_r * A(r,k)) * d_k) * x(k,c)) * W(c,o)) + b(o)  from its own
adjacency. The two adjacency matrices are equal, their entries are nonnegative reals, so every degree
factor is real; the features are real by the precondition; and in the reals the two arrangements are
one by distributivity.
-/

noncomputable section

open Idealize.ShloMosaic Idealize.ShloMosaic.ValueIdx
open scoped BigOperators

namespace Cert.Bridge
open Cert.KernelIdeal Cert.KernelIdeal.Gen

/-- The kernel's arrangement over the literal shapes, as the abstract arrangement by rows and columns. -/
theorem formula_eq_scaledAfter (A : S8192x8192.Idx → EReal) (x : S8192x128.Idx → EReal) (W : S128x128.Idx → EReal)
    (b : S128.Idx → EReal) (r : Fin 8192) (o : Fin 128) :
    (∑ c : Fin 128, ((∑ k : Fin 8192, A (ix2 r k) * (x (ix2 k c) * Cert.KernelIdeal.DegValue.degSpec A (ix2 k 0)))
        * Cert.KernelIdeal.DegValue.degSpec A (ix2 r 0)) * W (ix2 c o)) + b (ix1 o)
      = Cert.Spec.scaledAfter (fun i k => A (ix2 i k)) (fun k c => x (ix2 k c)) (fun c o => W (ix2 c o))
          (fun o => b (ix1 o)) r o := rfl

/-- At every entry the kernel's arrangement over its own adjacency is the reference's result. -/
theorem kernel_eq_ref_at (x0 : FVec Ideal S8192x128 .f32) (e : IVec S2x131072 32) (x2 : FVec Ideal S128x128 .f32)
    (x3 : FVec Ideal S128 .f32) (hx : ∀ i, ∃ r : ℝ, x0 i = (r : EReal)) (r : Fin 8192) (o : Fin 128) :
    (∑ c : Fin 128, ((∑ k : Fin 8192, Cert.HostAdj.kAdj e (ix2 r k)
          * (x0 (ix2 k c) * Cert.KernelIdeal.DegValue.degSpec (Cert.HostAdj.kAdj e) (ix2 k 0)))
        * Cert.KernelIdeal.DegValue.degSpec (Cert.HostAdj.kAdj e) (ix2 r 0)) * x2 (ix2 c o)) + x3 (ix1 o)
      = Cert.ReferenceIdeal.Read.val_main_v45 (F := Ideal) x0 e x2 x3 (ix2 r o) := by
  have hA : (fun i k : Fin 8192 => (Cert.HostAdj.kAdj e (ix2 i k) : EReal)) = Cert.ReferenceIdeal.RefValue.adj e :=
    funext fun i => funext fun k => congrFun (Cert.HostAdj.kAdj_eq_ref e) (ix2 i k)
  refine (formula_eq_scaledAfter (Cert.HostAdj.kAdj e) x0 x2 x3 r o).trans ?_
  rw [Cert.Spec.scaledAfter_eq_scaledBefore _ _ _ _ (fun i k => Cert.HostAdj.kAdj_real e (ix2 i k))
    (fun k c => hx (ix2 k c)) r o, hA]
  exact (Cert.ReferenceIdeal.RefValue.ref_apply x0 e x2 x3 r o).symm

/-- The same for whole arrays: the kernel's arrangement, entry by entry over the result's index set with the bias
    passed as the row the kernel's program makes of it, is the reference's result array. -/
theorem kernel_eq_ref_fun (x0 : FVec Ideal S8192x128 .f32) (e : IVec S2x131072 32) (x2 : FVec Ideal S128x128 .f32)
    (x3 : FVec Ideal S128 .f32) (hx : ∀ i, ∃ r : ℝ, x0 i = (r : EReal)) :
    (fun j : S8192x128.Idx =>
      (∑ c : Fin 128, ((∑ k : Fin 8192, Cert.HostAdj.kAdj e (ix2 (j 0) k)
          * (x0 (ix2 k c) * Cert.KernelIdeal.DegValue.degSpec (Cert.HostAdj.kAdj e) (ix2 k 0)))
        * Cert.KernelIdeal.DegValue.degSpec (Cert.HostAdj.kAdj e) (ix2 (j 0) 0)) * x2 (ix2 c (j 1)))
      + (shapeCast S1x128 x3 shapeCasts_S128_S1x128 : S1x128.Idx → EReal) (ix2 0 (j 1)))
      = Cert.ReferenceIdeal.Read.val_main_v45 (F := Ideal) x0 e x2 x3 := by
  funext j
  obtain ⟨r, o, rfl⟩ : ∃ (r : Fin 8192) (o : Fin 128), j = ix2 r o := ⟨j 0, j 1, eq_ix2 j⟩
  show (∑ c : Fin 128, ((∑ k : Fin 8192, Cert.HostAdj.kAdj e (ix2 r k)
          * (x0 (ix2 k c) * Cert.KernelIdeal.DegValue.degSpec (Cert.HostAdj.kAdj e) (ix2 k 0)))
        * Cert.KernelIdeal.DegValue.degSpec (Cert.HostAdj.kAdj e) (ix2 r 0)) * x2 (ix2 c o))
      + (shapeCast S1x128 x3 shapeCasts_S128_S1x128 : S1x128.Idx → EReal) (ix2 0 o) = _
  rw [Cert.HostBias.biasRow_apply]
  exact kernel_eq_ref_at x0 e x2 x3 hx r o

end Cert.Bridge
-- ==== Proof.BridgeAgg.lean ====
import proofs.«107716_j57045755625628_1_alg».proof.Proof.Bridge
import proofs.«107716_j57045755625628_1_alg».proof.Proof.AggValue

/-!
The kernel's value, stated with the aggregation's own specification, is the reference's result array.
-/

noncomputable section

open Idealize.ShloMosaic Idealize.ShloMosaic.ValueIdx
open scoped BigOperators

namespace Cert.Bridge
open Cert.KernelIdeal Cert.KernelIdeal.Gen

/-- The aggregation of the kernel's adjacency, features, degree column, weights and bias row is the reference's result. -/
theorem kernel_eq_ref (x0 : FVec Ideal S8192x128 .f32) (e : IVec S2x131072 32) (x2 : FVec Ideal S128x128 .f32)
    (x3 : FVec Ideal S128 .f32) (hx : ∀ i, ∃ r : ℝ, x0 i = (r : EReal)) :
    Cert.KernelIdeal.AggValue.aggSpec (Cert.HostAdj.kAdj e) x0 (Cert.KernelIdeal.DegValue.degSpec (Cert.HostAdj.kAdj e)) x2
        (shapeCast S1x128 x3 shapeCasts_S128_S1x128)
      = Cert.ReferenceIdeal.Read.val_main_v45 (F := Ideal) x0 e x2 x3 := by
  unfold Cert.KernelIdeal.AggValue.aggSpec Cert.KernelIdeal.AggValue.aggAt
  exact kernel_eq_ref_fun x0 e x2 x3 hx

end Cert.Bridge
-- ==== Proof.Finite.lean ====
import proofs.«107716_j57045755625628_1_alg».proof.Pre_finite_inputs
import Idealize.ShloMosaic.Lib.ReduceAll
import Idealize.ShloMosaic.PureOps.Ideal
import Idealize.ShloMosaic.PureOps.Ideal.Laws
import Idealize.ShloMosaic.Lib.ValueIdx

/-!
What the precondition says of the feature matrix: every entry is a real number.

The precondition is the conjunction, over the float arguments, of "every entry's absolute value is
below +infinity". On the extended reals max x (-x) < +infinity rules out both infinities, so the
entry is a real number.
-/

open Idealize.ShloMosaic

namespace Cert.Finite
open Cert.Pre_finite_inputs

variable [Cert.Pre_finite_inputs.Facts]

instance : Subsingleton S_.Idx := ⟨fun a b => funext fun d => d.elim0⟩

/-- An extended real whose absolute value compares below the +infinity word is a real number. -/
theorem real_of_abs_lt_inf (x : EReal)
    (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  unfold Ideal.cmp at h
  induction x using EReal.rec with
  | bot => simp at h
  | coe r => exact ⟨r, rfl⟩
  | top => simp at h

/-- Under the precondition every entry of the feature matrix is a real number. -/
theorem features_real (a0 : FVec Ideal S8192x128 .f32) (a1 : IVec S2x131072 32) (a2 : FVec Ideal S128x128 .f32)
    (a3 : FVec Ideal S128 .f32) (h : fn (F := Ideal) a0 a1 a2 a3 = fun _ => 1#1) (i : S8192x128.Idx) :
    ∃ r : ℝ, a0 i = (r : EReal) := by
  have h0 := congrFun h ValueIdx.ix0
  dsimp only [fn] at h0
  have h1 := (IntOp.andi_eq_one.1 h0).1
  have h2 := (IntOp.andi_eq_one.1 h1).1
  have h3 := Host.reduce_andi_all _ _ _ _ _ h2 i
  exact real_of_abs_lt_inf (a0 i) h3

end Cert.Finite
-- ==== Proof.RefImports.lean ====
/- The reference program's run and its stage-by-stage reads, brought into scope for the modules that compare the two programs. -/
import proofs.«107716_j57045755625628_1_alg».proof.Proof.Gen.ReferenceIdeal.Run
import proofs.«107716_j57045755625628_1_alg».proof.Proof.Gen.ReferenceIdeal.Read
-- ==== Proof.lean ====
/- The certificate of a graph-convolution layer: out = D^(-1/2) A D^(-1/2) X W + b over the dense adjacency A of an
   edge list (a scattered 0/1 matrix, symmetrised, plus the identity), D the diagonal of A's row sums plus epsilon.

   The kernel program builds A on the host, computes d_i = 1/sqrt(sum_k A(i,k) + eps) in a first pipelined region (row sums
   accumulated over four column blocks in a scratch column), and in a second region accumulates A (X * d) over two column
   blocks in a scratch block, scales the rows by d, multiplies by W and adds b. The reference scales A on both sides
   first and multiplies by X, then by W, and adds b. Over the extended reals the two agree because every entry of A is
   a nonnegative real and every feature is finite (the precondition), so each d_i is a real and the inner sums are
   sums of reals, where a factor may be moved across a sum.

   Frames: each region's body is run case by case (scratch zeroed at the first column block, output stored at the last),
   the scratch carried in the region's invariant; the two regions and the host stretches between them are chained, the
   degree column read by region 1 through two windows that each hold half of it. -/
import proofs.«107716_j57045755625628_1_alg».proof.Defs
import proofs.«107716_j57045755625628_1_alg».proof.Proof.Gen.Kernel
import proofs.«107716_j57045755625628_1_alg».proof.Proof.Gen.KernelIdeal
import proofs.«107716_j57045755625628_1_alg».proof.Proof.Gen.ReferenceIdeal
import proofs.«107716_j57045755625628_1_alg».proof.Proof.Gen.Pre_finite_inputs
import proofs.«107716_j57045755625628_1_alg».proof.Proof.WRun
import proofs.«107716_j57045755625628_1_alg».proof.Proof.KIRead
import proofs.«107716_j57045755625628_1_alg».proof.Proof.AggValue
import proofs.«107716_j57045755625628_1_alg».proof.Proof.BridgeAgg
import proofs.«107716_j57045755625628_1_alg».proof.Proof.Finite
import proofs.«107716_j57045755625628_1_alg».proof.Proof.RefImports
import Idealize.ShloMosaic.Adequacy
import Idealize.ShloMosaic.Init

noncomputable section

namespace Cert.Proof

open Idealize.ShloMosaic Idealize.SL.Sem

/-- The word-level program runs and leaves its arguments unchanged. -/
theorem frame_k : Cert.frame_Kernel := fun m ρ _ => Cert.Kernel.Run.frame (F := Bits) m ρ

/-- So does its reading over the extended reals. -/
theorem frame_ki : Cert.frame_KernelIdeal := fun m ρ _ => Cert.KernelIdeal.Run.frame (F := Ideal) m ρ

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

open Cert.KernelIdeal Cert.KernelIdeal.Run in
/-- What the kernel program leaves in its result array is the reference's result stage of the same arguments: region
    1's result is the aggregation formula of the arrays it found, those are the adjacency of the edge list, the launched
    features and weights, region 0's degree column and the bias row, and that formula is the reference's by the
    distributive law over the reals. -/
theorem result_eq (m : (ℓ : Loc Cert.KernelIdeal.nD Cert.KernelIdeal.τ Cert.KernelIdeal.sig) → Buf (Elt Ideal) ℓ)
    (hpre : Cert.Pre_KernelIdeal m) (c : Dev Cert.KernelIdeal.nD) :
    o4 (F := Ideal) m c
      = Cert.ReferenceIdeal.Read.val_main_v45 (F := Ideal) (m ((c.tc : Thread nD τ).loc main_arg0)) (m ((c.tc : Thread nD τ).loc main_arg1))
          (m ((c.tc : Thread nD τ).loc main_arg2)) (m ((c.tc : Thread nD τ).loc main_arg3)) := by
  unfold o4
  refine (Cert.KernelIdeal.AggValue.agg_final (E3 m) c).trans ?_
  rw [E3_adj, E3_features, E3_deg, E3_weight, E3_bias]
  exact Cert.Bridge.kernel_eq_ref _ _ _ _ (fun i => Cert.Finite.features_real _ _ _ _ (hpre c) i)

/-- Both idealized programs run from memories agreeing on the arguments and end with equal results. -/
theorem algebraic : Cert.algebraic_KernelIdeal_ReferenceIdeal := by
  intro m ρ m' ρ' hpre hagree
  refine ⟨fun c => Cert.KernelIdeal.Run.o4 (F := Ideal) m c, Cert.KernelIdeal.Run.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v45_eq, (hagree c).1, (hagree c).2.1, (hagree c).2.2.1, (hagree c).2.2.2]
  exact (result_eq m hpre c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
